-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v92) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v132) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S32x512x64 : Shape := ⟨3, ![32, 512, 64]⟩
abbrev S1 : Shape := ⟨1, ![1]⟩
abbrev S64x128 : Shape := ⟨2, ![64, 128]⟩
abbrev S128 : Shape := ⟨1, ![128]⟩
abbrev S4x128x128 : Shape := ⟨3, ![4, 128, 128]⟩
abbrev S4x128 : Shape := ⟨2, ![4, 128]⟩
abbrev S128x7 : Shape := ⟨2, ![128, 7]⟩
abbrev S7 : Shape := ⟨1, ![7]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S32x512x64 : S_.BroadcastsInDim S32x512x64 (![] : Fin 0 → Fin S32x512x64.rank)
  reducesTo_S32x512x64_S_d0_1_2 : S32x512x64.ReducesTo [0, 1, 2] S_
  bcast_S_S1 : S_.BroadcastsInDim S1 (![] : Fin 0 → Fin S1.rank)
  reducesTo_S1_S_d0 : S1.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S128x7 : S_.BroadcastsInDim S128x7 (![] : Fin 0 → Fin S128x7.rank)
  reducesTo_S128x7_S_d0_1 : S128x7.ReducesTo [0, 1] S_
  bcast_S_S7 : S_.BroadcastsInDim S7 (![] : Fin 0 → Fin S7.rank)
  reducesTo_S7_S_d0 : S7.ReducesTo [0] S_

variable [Facts]

def fn_part3 {F : FTy → Type} [FloatOps F] (main_v48 : IVec S_ 1) (main_v49 : FVec F S7 .f32) (main_v50 : FVec F S7 .f32) : IVec S_ 1 :=
  let main_v51 : IVec S7 1 := cmpf .olt main_v49 main_v50
  let main_c_19 : IVec S_ 1 := constantI S_ 1 1#1
  let main_v52 : IVec S_ 1 := (fun x v => Host.reduce IntOp.andi x v reducesTo_S7_S_d0 h_S_) main_v51 main_c_19
  let main_v53 : IVec S_ 1 := andi main_v48 main_v52
  main_v53

def fn_part2 {F : FTy → Type} [FloatOps F] (main_arg8 : FVec F S4x128x128 .f32) (main_arg9 : FVec F S4x128 .f32) (main_arg10 : FVec F S128x7 .f32) (main_arg11 : FVec F S7 .f32) (main_v33 : IVec S_ 1) : IVec S_ 1 :=
  let main_v34 : FVec F S4x128x128 .f32 := Host.absf main_arg8
  let main_cst_12 : FVec F S_ .f32 := constant S_ .f32 0x7F800000#32
  let main_v35 : FVec F S4x128x128 .f32 := broadcastInDim S4x128x128 ![] bcast_S_S4x128x128 main_cst_12
  let main_v36 : IVec S4x128x128 1 := cmpf .olt main_v34 main_v35
  let main_c_13 : IVec S_ 1 := constantI S_ 1 1#1
  let main_v37 : IVec S_ 1 := (fun x v => Host.reduce IntOp.andi x v reducesTo_S4x128x128_S_d0_1_2 h_S_) main_v36 main_c_13
  let main_v38 : IVec S_ 1 := andi main_v33 main_v37
  let main_v39 : FVec F S4x128 .f32 := Host.absf main_arg9
  let main_cst_14 : FVec F S_ .f32 := constant S_ .f32 0x7F800000#32
  let main_v40 : FVec F S4x128 .f32 := broadcastInDim S4x128 ![] bcast_S_S4x128 main_cst_14
  let main_v41 : IVec S4x128 1 := cmpf .olt main_v39 main_v40
  let main_c_15 : IVec S_ 1 := constantI S_ 1 1#1
  let main_v42 : IVec S_ 1 := (fun x v => Host.reduce IntOp.andi x v reducesTo_S4x128_S_d0_1 h_S_) main_v41 main_c_15
  let main_v43 : IVec S_ 1 := andi main_v38 main_v42
  let main_v44 : FVec F S128x7 .f32 := Host.absf main_arg10
  let main_cst_16 : FVec F S_ .f32 := constant S_ .f32 0x7F800000#32
  let main_v45 : FVec F S128x7 .f32 := broadcastInDim S128x7 ![] bcast_S_S128x7 main_cst_16
  let main_v46 : IVec S128x7 1 := cmpf .olt main_v44 main_v45
  let main_c_17 : IVec S_ 1 := constantI S_ 1 1#1
  let main_v47 : IVec S_ 1 := (fun x v => Host.reduce IntOp.andi x v reducesTo_S128x7_S_d0_1 h_S_) main_v46 main_c_17
  let main_v48 : IVec S_ 1 := andi main_v43 main_v47
  let main_v49 : FVec F S7 .f32 := Host.absf main_arg11
  let main_cst_18 : FVec F S_ .f32 := constant S_ .f32 0x7F800000#32
  let main_v50 : FVec F S7 .f32 := broadcastInDim S7 ![] bcast_S_S7 main_cst_18
  fn_part3 (F := F) main_v48 main_v49 main_v50

def fn_part1 {F : FTy → Type} [FloatOps F] (main_arg5 : FVec F S128 .f32) (main_arg6 : FVec F S4x128x128 .f32) (main_arg7 : FVec F S4x128 .f32) (main_arg8 : FVec F S4x128x128 .f32) (main_arg9 : FVec F S4x128 .f32) (main_arg10 : FVec F S128x7 .f32) (main_arg11 : FVec F S7 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S4x128x128 .f32 := Host.absf main_arg6
  let main_cst_8 : FVec F S_ .f32 := constant S_ .f32 0x7F800000#32
  let main_v25 : FVec F S4x128x128 .f32 := broadcastInDim S4x128x128 ![] bcast_S_S4x128x128 main_cst_8
  let main_v26 : IVec S4x128x128 1 := cmpf .olt main_v24 main_v25
  let main_c_9 : IVec S_ 1 := constantI S_ 1 1#1
  let main_v27 : IVec S_ 1 := (fun x v => Host.reduce IntOp.andi x v reducesTo_S4x128x128_S_d0_1_2 h_S_) main_v26 main_c_9
  let main_v28 : IVec S_ 1 := andi main_v23 main_v27
  let main_v29 : FVec F S4x128 .f32 := Host.absf main_arg7
  let main_cst_10 : FVec F S_ .f32 := constant S_ .f32 0x7F800000#32
  let main_v30 : FVec F S4x128 .f32 := broadcastInDim S4x128 ![] bcast_S_S4x128 main_cst_10
  let main_v31 : IVec S4x128 1 := cmpf .olt main_v29 main_v30
  let main_c_11 : IVec S_ 1 := constantI S_ 1 1#1
  let main_v32 : IVec S_ 1 := (fun x v => Host.reduce IntOp.andi x v reducesTo_S4x128_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x64 .f32) (main_arg1 : IVec S2x800000 32) (main_arg2 : FVec F S32x512x64 .f32) (main_arg3 : FVec F S1 .f32) (main_arg4 : FVec F S64x128 .f32) (main_arg5 : FVec F S128 .f32) (main_arg6 : FVec F S4x128x128 .f32) (main_arg7 : FVec F S4x128 .f32) (main_arg8 : FVec F S4x128x128 .f32) (main_arg9 : FVec F S4x128 .f32) (main_arg10 : FVec F S128x7 .f32) (main_arg11 : FVec F S7 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S32x512x64 .f32 := Host.absf main_arg2
  let main_cst_0 : FVec F S_ .f32 := constant S_ .f32 0x7F800000#32
  let main_v5 : FVec F S32x512x64 .f32 := broadcastInDim S32x512x64 ![] bcast_S_S32x512x64 main_cst_0
  let main_v6 : IVec S32x512x64 1 := cmpf .olt main_v4 main_v5
  let main_c_1 : IVec S_ 1 := constantI S_ 1 1#1
  let main_v7 : IVec S_ 1 := (fun x v => Host.reduce IntOp.andi x v reducesTo_S32x512x64_S_d0_1_2 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_arg7 main_arg8 main_arg9 main_arg10 main_arg11 main_v13 main_v16
-- ==== Kernel.lean ====
abbrev S50000x64 : Shape := ⟨2, ![50000, 64]⟩
abbrev S2x800000 : Shape := ⟨2, ![2, 800000]⟩
abbrev S32x512x64 : Shape := ⟨3, ![32, 512, 64]⟩
abbrev S1 : Shape := ⟨1, ![1]⟩
abbrev S64x128 : Shape := ⟨2, ![64, 128]⟩
abbrev S128 : Shape := ⟨1, ![128]⟩
abbrev S4x128x128 : Shape := ⟨3, ![4, 128, 128]⟩
abbrev S4x128 : Shape := ⟨2, ![4, 128]⟩
abbrev S128x7 : Shape := ⟨2, ![128, 7]⟩
abbrev S7 : Shape := ⟨1, ![7]⟩
abbrev S32x512x512 : Shape := ⟨3, ![32, 512, 512]⟩
abbrev S1x512x64 : Shape := ⟨3, ![1, 512, 64]⟩
abbrev S1x512x512 : Shape := ⟨3, ![1, 512, 512]⟩
abbrev S512x64 : Shape := ⟨2, ![512, 64]⟩
abbrev S512x512 : Shape := ⟨2, ![512, 512]⟩
abbrev S1x800000 : Shape := ⟨2, ![1, 800000]⟩
abbrev S800000 : Shape := ⟨1, ![800000]⟩
abbrev S_ : Shape := ⟨0, ![]⟩
abbrev S128x128 : Shape := ⟨2, ![128, 128]⟩
abbrev S1x128x128 : Shape := ⟨3, ![1, 128, 128]⟩
abbrev S1x128 : Shape := ⟨2, ![1, 128]⟩
abbrev S50000x128 : Shape := ⟨2, ![50000, 128]⟩
abbrev S5000x64 : Shape := ⟨2, ![5000, 64]⟩
abbrev S5000x128 : Shape := ⟨2, ![5000, 128]⟩
abbrev S800000x1 : Shape := ⟨2, ![800000, 1]⟩
abbrev S800000x128 : Shape := ⟨2, ![800000, 128]⟩
abbrev S50000x7 : Shape := ⟨2, ![50000, 7]⟩

abbrev nBuf : Space → Nat
  | .hbm => 125
  | .vmem => 61
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S32x512x64, .f32⟩
  | .hbm, ⟨3, _⟩ => ⟨S1, .f32⟩
  | .hbm, ⟨4, _⟩ => ⟨S64x128, .f32⟩
  | .hbm, ⟨5, _⟩ => ⟨S128, .f32⟩
  | .hbm, ⟨6, _⟩ => ⟨S4x128x128, .f32⟩
  | .hbm, ⟨7, _⟩ => ⟨S4x128, .f32⟩
  | .hbm, ⟨8, _⟩ => ⟨S4x128x128, .f32⟩
  | .hbm, ⟨9, _⟩ => ⟨S4x128, .f32⟩
  | .hbm, ⟨10, _⟩ => ⟨S128x7, .f32⟩
  | .hbm, ⟨11, _⟩ => ⟨S7, .f32⟩
  | .hbm, ⟨12, _⟩ => ⟨S32x512x512, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .f32⟩
  | .hbm, ⟨18, _⟩ => ⟨S128x128, .f32⟩
  | .hbm, ⟨19, _⟩ => ⟨S_, .i32⟩
  | .hbm, ⟨20, _⟩ => ⟨S1, .i32⟩
  | .hbm, ⟨21, _⟩ => ⟨S128x128, .f32⟩
  | .hbm, ⟨22, _⟩ => ⟨S_, .f32⟩
  | .hbm, ⟨23, _⟩ => ⟨S128, .f32⟩
  | .hbm, ⟨24, _⟩ => ⟨S_, .i32⟩
  | .hbm, ⟨25, _⟩ => ⟨S1, .i32⟩
  | .hbm, ⟨26, _⟩ => ⟨S128, .f32⟩
  | .hbm, ⟨27, _⟩ => ⟨S1x128x128, .f32⟩
  | .hbm, ⟨28, _⟩ => ⟨S128x128, .f32⟩
  | .hbm, ⟨29, _⟩ => ⟨S1x128, .f32⟩
  | .hbm, ⟨30, _⟩ => ⟨S128, .f32⟩
  | .hbm, ⟨31, _⟩ => ⟨S50000x128, .f32⟩
  | .hbm, ⟨32, _⟩ => ⟨S50000x128, .bf16⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000x128, .bf16⟩
  | .hbm, ⟨42, _⟩ => ⟨S800000x128, .f32⟩
  | .hbm, ⟨43, _⟩ => ⟨S_, .f32⟩
  | .hbm, ⟨44, _⟩ => ⟨S50000x128, .f32⟩
  | .hbm, ⟨45, _⟩ => ⟨S800000x1, .i32⟩
  | .hbm, ⟨46, _⟩ => ⟨S50000x128, .f32⟩
  | .hbm, ⟨47, _⟩ => ⟨S1x128x128, .f32⟩
  | .hbm, ⟨48, _⟩ => ⟨S128x128, .f32⟩
  | .hbm, ⟨49, _⟩ => ⟨S1x128, .f32⟩
  | .hbm, ⟨50, _⟩ => ⟨S128, .f32⟩
  | .hbm, ⟨51, _⟩ => ⟨S1x128x128, .f32⟩
  | .hbm, ⟨52, _⟩ => ⟨S128x128, .f32⟩
  | .hbm, ⟨53, _⟩ => ⟨S1x128, .f32⟩
  | .hbm, ⟨54, _⟩ => ⟨S128, .f32⟩
  | .hbm, ⟨55, _⟩ => ⟨S50000x128, .f32⟩
  | .hbm, ⟨56, _⟩ => ⟨S50000x128, .bf16⟩
  | .hbm, ⟨57, _⟩ => ⟨S_, .i32⟩
  | .hbm, ⟨58, _⟩ => ⟨S800000, .i32⟩
  | .hbm, ⟨59, _⟩ => ⟨S800000, .i1⟩
  | .hbm, ⟨60, _⟩ => ⟨S_, .i32⟩
  | .hbm, ⟨61, _⟩ => ⟨S800000, .i32⟩
  | .hbm, ⟨62, _⟩ => ⟨S800000, .i32⟩
  | .hbm, ⟨63, _⟩ => ⟨S800000, .i32⟩
  | .hbm, ⟨64, _⟩ => ⟨S800000x1, .i32⟩
  | .hbm, ⟨65, _⟩ => ⟨S800000x128, .bf16⟩
  | .hbm, ⟨66, _⟩ => ⟨S800000x128, .f32⟩
  | .hbm, ⟨67, _⟩ => ⟨S_, .f32⟩
  | .hbm, ⟨68, _⟩ => ⟨S50000x128, .f32⟩
  | .hbm, ⟨69, _⟩ => ⟨S800000x1, .i32⟩
  | .hbm, ⟨70, _⟩ => ⟨S50000x128, .f32⟩
  | .hbm, ⟨71, _⟩ => ⟨S1x128x128, .f32⟩
  | .hbm, ⟨72, _⟩ => ⟨S128x128, .f32⟩
  | .hbm, ⟨73, _⟩ => ⟨S1x128, .f32⟩
  | .hbm, ⟨74, _⟩ => ⟨S128, .f32⟩
  | .hbm, ⟨75, _⟩ => ⟨S1x128x128, .f32⟩
  | .hbm, ⟨76, _⟩ => ⟨S128x128, .f32⟩
  | .hbm, ⟨77, _⟩ => ⟨S1x128, .f32⟩
  | .hbm, ⟨78, _⟩ => ⟨S128, .f32⟩
  | .hbm, ⟨79, _⟩ => ⟨S50000x128, .f32⟩
  | .hbm, ⟨80, _⟩ => ⟨S50000x128, .bf16⟩
  | .hbm, ⟨81, _⟩ => ⟨S_, .i32⟩
  | .hbm, ⟨82, _⟩ => ⟨S800000, .i32⟩
  | .hbm, ⟨83, _⟩ => ⟨S800000, .i1⟩
  | .hbm, ⟨84, _⟩ => ⟨S_, .i32⟩
  | .hbm, ⟨85, _⟩ => ⟨S800000, .i32⟩
  | .hbm, ⟨86, _⟩ => ⟨S800000, .i32⟩
  | .hbm, ⟨87, _⟩ => ⟨S800000, .i32⟩
  | .hbm, ⟨88, _⟩ => ⟨S800000x1, .i32⟩
  | .hbm, ⟨89, _⟩ => ⟨S800000x128, .bf16⟩
  | .hbm, ⟨90, _⟩ => ⟨S800000x128, .f32⟩
  | .hbm, ⟨91, _⟩ => ⟨S_, .f32⟩
  | .hbm, ⟨92, _⟩ => ⟨S50000x128, .f32⟩
  | .hbm, ⟨93, _⟩ => ⟨S800000x1, .i32⟩
  | .hbm, ⟨94, _⟩ => ⟨S50000x128, .f32⟩
  | .hbm, ⟨95, _⟩ => ⟨S1x128x128, .f32⟩
  | .hbm, ⟨96, _⟩ => ⟨S128x128, .f32⟩
  | .hbm, ⟨97, _⟩ => ⟨S1x128, .f32⟩
  | .hbm, ⟨98, _⟩ => ⟨S128, .f32⟩
  | .hbm, ⟨99, _⟩ => ⟨S1x128x128, .f32⟩
  | .hbm, ⟨100, _⟩ => ⟨S128x128, .f32⟩
  | .hbm, ⟨101, _⟩ => ⟨S1x128, .f32⟩
  | .hbm, ⟨102, _⟩ => ⟨S128, .f32⟩
  | .hbm, ⟨103, _⟩ => ⟨S50000x128, .f32⟩
  | .hbm, ⟨104, _⟩ => ⟨S50000x128, .bf16⟩
  | .hbm, ⟨105, _⟩ => ⟨S_, .i32⟩
  | .hbm, ⟨106, _⟩ => ⟨S800000, .i32⟩
  | .hbm, ⟨107, _⟩ => ⟨S800000, .i1⟩
  | .hbm, ⟨108, _⟩ => ⟨S_, .i32⟩
  | .hbm, ⟨109, _⟩ => ⟨S800000, .i32⟩
  | .hbm, ⟨110, _⟩ => ⟨S800000, .i32⟩
  | .hbm, ⟨111, _⟩ => ⟨S800000, .i32⟩
  | .hbm, ⟨112, _⟩ => ⟨S800000x1, .i32⟩
  | .hbm, ⟨113, _⟩ => ⟨S800000x128, .bf16⟩
  | .hbm, ⟨114, _⟩ => ⟨S800000x128, .f32⟩
  | .hbm, ⟨115, _⟩ => ⟨S_, .f32⟩
  | .hbm, ⟨116, _⟩ => ⟨S50000x128, .f32⟩
  | .hbm, ⟨117, _⟩ => ⟨S800000x1, .i32⟩
  | .hbm, ⟨118, _⟩ => ⟨S50000x128, .f32⟩
  | .hbm, ⟨119, _⟩ => ⟨S1x128x128, .f32⟩
  | .hbm, ⟨120, _⟩ => ⟨S128x128, .f32⟩
  | .hbm, ⟨121, _⟩ => ⟨S1x128, .f32⟩
  | .hbm, ⟨122, _⟩ => ⟨S128, .f32⟩
  | .hbm, ⟨123, _⟩ => ⟨S50000x128, .f32⟩
  | .hbm, ⟨124, _⟩ => ⟨S50000x7, .f32⟩
  | .local _ .vmem, ⟨0, _⟩ => ⟨S1x512x64, .f32⟩
  | .local _ .vmem, ⟨1, _⟩ => ⟨S1x512x64, .f32⟩
  | .local _ .vmem, ⟨2, _⟩ => ⟨S1, .f32⟩
  | .local _ .vmem, ⟨3, _⟩ => ⟨S1x512x512, .f32⟩
  | .local _ .vmem, ⟨4, _⟩ => ⟨S1x512x512, .f32⟩
  | .local _ .vmem, ⟨5, _⟩ => ⟨S5000x64, .f32⟩
  | .local _ .vmem, ⟨6, _⟩ => ⟨S5000x64, .f32⟩
  | .local _ .vmem, ⟨7, _⟩ => ⟨S64x128, .f32⟩
  | .local _ .vmem, ⟨8, _⟩ => ⟨S128, .f32⟩
  | .local _ .vmem, ⟨9, _⟩ => ⟨S128x128, .f32⟩
  | .local _ .vmem, ⟨10, _⟩ => ⟨S128, .f32⟩
  | .local _ .vmem, ⟨11, _⟩ => ⟨S5000x128, .f32⟩
  | .local _ .vmem, ⟨12, _⟩ => ⟨S5000x128, .f32⟩
  | .local _ .vmem, ⟨13, _⟩ => ⟨S5000x128, .bf16⟩
  | .local _ .vmem, ⟨14, _⟩ => ⟨S5000x128, .bf16⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S128x128, .f32⟩
  | .local _ .vmem, ⟨20, _⟩ => ⟨S128, .f32⟩
  | .local _ .vmem, ⟨21, _⟩ => ⟨S128x128, .f32⟩
  | .local _ .vmem, ⟨22, _⟩ => ⟨S128, .f32⟩
  | .local _ .vmem, ⟨23, _⟩ => ⟨S5000x128, .f32⟩
  | .local _ .vmem, ⟨24, _⟩ => ⟨S5000x128, .f32⟩
  | .local _ .vmem, ⟨25, _⟩ => ⟨S5000x128, .bf16⟩
  | .local _ .vmem, ⟨26, _⟩ => ⟨S5000x128, .bf16⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S128x128, .f32⟩
  | .local _ .vmem, ⟨32, _⟩ => ⟨S128, .f32⟩
  | .local _ .vmem, ⟨33, _⟩ => ⟨S128x128, .f32⟩
  | .local _ .vmem, ⟨34, _⟩ => ⟨S128, .f32⟩
  | .local _ .vmem, ⟨35, _⟩ => ⟨S5000x128, .f32⟩
  | .local _ .vmem, ⟨36, _⟩ => ⟨S5000x128, .f32⟩
  | .local _ .vmem, ⟨37, _⟩ => ⟨S5000x128, .bf16⟩
  | .local _ .vmem, ⟨38, _⟩ => ⟨S5000x128, .bf16⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S128x128, .f32⟩
  | .local _ .vmem, ⟨44, _⟩ => ⟨S128, .f32⟩
  | .local _ .vmem, ⟨45, _⟩ => ⟨S128x128, .f32⟩
  | .local _ .vmem, ⟨46, _⟩ => ⟨S128, .f32⟩
  | .local _ .vmem, ⟨47, _⟩ => ⟨S5000x128, .f32⟩
  | .local _ .vmem, ⟨48, _⟩ => ⟨S5000x128, .f32⟩
  | .local _ .vmem, ⟨49, _⟩ => ⟨S5000x128, .bf16⟩
  | .local _ .vmem, ⟨50, _⟩ => ⟨S5000x128, .bf16⟩
  | .local _ .vmem, ⟨51, _⟩ => ⟨S5000x128, .f32⟩
  | .local _ .vmem, ⟨52, _⟩ => ⟨S5000x128, .f32⟩
  | .local _ .vmem, ⟨53, _⟩ => ⟨S5000x128, .f32⟩
  | .local _ .vmem, ⟨54, _⟩ => ⟨S5000x128, .f32⟩
  | .local _ .vmem, ⟨55, _⟩ => ⟨S128x128, .f32⟩
  | .local _ .vmem, ⟨56, _⟩ => ⟨S128, .f32⟩
  | .local _ .vmem, ⟨57, _⟩ => ⟨S128x128, .f32⟩
  | .local _ .vmem, ⟨58, _⟩ => ⟨S128, .f32⟩
  | .local _ .vmem, ⟨59, _⟩ => ⟨S5000x128, .f32⟩
  | .local _ .vmem, ⟨60, _⟩ => ⟨S5000x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | _, _ => false

abbrev semScoped : Fin 0 → Bool
  | ⟨_, h⟩ => absurd h (Nat.not_lt_zero _)

abbrev dmaSemScoped : Fin 61 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | _ => false

abbrev sig : RefSig :=
  ofTc nBuf bufTy 0 61 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_c : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_c_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15_0 : Ref sig .tc := ⟨.hbm, 31, rfl⟩
abbrev main_v15_1 : Ref sig .tc := ⟨.hbm, 32, rfl⟩
abbrev main_c_2 : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35_0 : Ref sig .tc := ⟨.hbm, 55, rfl⟩
abbrev main_v35_1 : Ref sig .tc := ⟨.hbm, 56, rfl⟩
abbrev main_c_5 : Ref sig .tc := ⟨.hbm, 57, rfl⟩
abbrev main_v36 : Ref sig .tc := ⟨.hbm, 58, rfl⟩
abbrev main_v37 : Ref sig .tc := ⟨.hbm, 59, rfl⟩
abbrev main_c_6 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_7 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55_0 : Ref sig .tc := ⟨.hbm, 79, rfl⟩
abbrev main_v55_1 : Ref sig .tc := ⟨.hbm, 80, rfl⟩
abbrev main_c_8 : Ref sig .tc := ⟨.hbm, 81, rfl⟩
abbrev main_v56 : Ref sig .tc := ⟨.hbm, 82, rfl⟩
abbrev main_v57 : Ref sig .tc := ⟨.hbm, 83, rfl⟩
abbrev main_c_9 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_10 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75_0 : Ref sig .tc := ⟨.hbm, 103, rfl⟩
abbrev main_v75_1 : Ref sig .tc := ⟨.hbm, 104, rfl⟩
abbrev main_c_11 : Ref sig .tc := ⟨.hbm, 105, rfl⟩
abbrev main_v76 : Ref sig .tc := ⟨.hbm, 106, rfl⟩
abbrev main_v77 : Ref sig .tc := ⟨.hbm, 107, rfl⟩
abbrev main_c_12 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_13 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc1_stg6_0 : Ref sig .tc := ⟨.vmem, 13, rfl⟩
abbrev cc1_stg6_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg6_1 : Ref sig .tc := ⟨.vmem, 24, rfl⟩
abbrev cc2_stg7_0 : Ref sig .tc := ⟨.vmem, 25, rfl⟩
abbrev cc2_stg7_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg6_0 : Ref sig .tc := ⟨.vmem, 35, rfl⟩
abbrev cc3_stg6_1 : Ref sig .tc := ⟨.vmem, 36, rfl⟩
abbrev cc3_stg7_0 : Ref sig .tc := ⟨.vmem, 37, rfl⟩
abbrev cc3_stg7_1 : Ref sig .tc := ⟨.vmem, 38, rfl⟩
abbrev cc4_stg0_0 : Ref sig .tc := ⟨.vmem, 39, rfl⟩
abbrev cc4_stg0_1 : Ref sig .tc := ⟨.vmem, 40, rfl⟩
abbrev cc4_stg1_0 : Ref sig .tc := ⟨.vmem, 41, rfl⟩
abbrev cc4_stg1_1 : Ref sig .tc := ⟨.vmem, 42, rfl⟩
abbrev cc4_stg2_0 : Ref sig .tc := ⟨.vmem, 43, rfl⟩
abbrev cc4_stg3_0 : Ref sig .tc := ⟨.vmem, 44, rfl⟩
abbrev cc4_stg4_0 : Ref sig .tc := ⟨.vmem, 45, rfl⟩
abbrev cc4_stg5_0 : Ref sig .tc := ⟨.vmem, 46, rfl⟩
abbrev cc4_stg6_0 : Ref sig .tc := ⟨.vmem, 47, rfl⟩
abbrev cc4_stg6_1 : Ref sig .tc := ⟨.vmem, 48, rfl⟩
abbrev cc4_stg7_0 : Ref sig .tc := ⟨.vmem, 49, rfl⟩
abbrev cc4_stg7_1 : Ref sig .tc := ⟨.vmem, 50, rfl⟩
abbrev cc5_stg0_0 : Ref sig .tc := ⟨.vmem, 51, rfl⟩
abbrev cc5_stg0_1 : Ref sig .tc := ⟨.vmem, 52, rfl⟩
abbrev cc5_stg1_0 : Ref sig .tc := ⟨.vmem, 53, rfl⟩
abbrev cc5_stg1_1 : Ref sig .tc := ⟨.vmem, 54, rfl⟩
abbrev cc5_stg2_0 : Ref sig .tc := ⟨.vmem, 55, rfl⟩
abbrev cc5_stg3_0 : Ref sig .tc := ⟨.vmem, 56, rfl⟩
abbrev cc5_stg4_0 : Ref sig .tc := ⟨.vmem, 57, rfl⟩
abbrev cc5_stg5_0 : Ref sig .tc := ⟨.vmem, 58, rfl⟩
abbrev cc5_stg6_0 : Ref sig .tc := ⟨.vmem, 59, rfl⟩
abbrev cc5_stg6_1 : Ref sig .tc := ⟨.vmem, 60, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc1_sem6_0 : DmaSem sig := 13
abbrev cc1_sem6_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem6_1 : DmaSem sig := 24
abbrev cc2_sem7_0 : DmaSem sig := 25
abbrev cc2_sem7_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem6_0 : DmaSem sig := 35
abbrev cc3_sem6_1 : DmaSem sig := 36
abbrev cc3_sem7_0 : DmaSem sig := 37
abbrev cc3_sem7_1 : DmaSem sig := 38
abbrev cc4_sem0_0 : DmaSem sig := 39
abbrev cc4_sem0_1 : DmaSem sig := 40
abbrev cc4_sem1_0 : DmaSem sig := 41
abbrev cc4_sem1_1 : DmaSem sig := 42
abbrev cc4_sem2_0 : DmaSem sig := 43
abbrev cc4_sem3_0 : DmaSem sig := 44
abbrev cc4_sem4_0 : DmaSem sig := 45
abbrev cc4_sem5_0 : DmaSem sig := 46
abbrev cc4_sem6_0 : DmaSem sig := 47
abbrev cc4_sem6_1 : DmaSem sig := 48
abbrev cc4_sem7_0 : DmaSem sig := 49
abbrev cc4_sem7_1 : DmaSem sig := 50
abbrev cc5_sem0_0 : DmaSem sig := 51
abbrev cc5_sem0_1 : DmaSem sig := 52
abbrev cc5_sem1_0 : DmaSem sig := 53
abbrev cc5_sem1_1 : DmaSem sig := 54
abbrev cc5_sem2_0 : DmaSem sig := 55
abbrev cc5_sem3_0 : DmaSem sig := 56
abbrev cc5_sem4_0 : DmaSem sig := 57
abbrev cc5_sem5_0 : DmaSem sig := 58
abbrev cc5_sem6_0 : DmaSem sig := 59
abbrev cc5_sem6_1 : DmaSem sig := 60

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S5000x128 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S5000x128 .bf16 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S5000x128 .bf16 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

class Facts₀ : Prop where
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1_S1_0 : ∀ a, (![0] : Fin 1 → Nat) a + S1.size a ≤ S1.size a
  h_S1 : 0 < S1.numel
  inpos_S1_p0 : ∀ a, (![0] : Fin 1 → Nat) a < S1.size a
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S128x128 : S_.BroadcastsInDim S128x128 (![] : Fin 0 → Fin S128x128.rank)
  bcast_S_S1 : S_.BroadcastsInDim S1 (![] : Fin 0 → Fin S1.rank)
  bcast_S_S128 : S_.BroadcastsInDim S128 (![] : Fin 0 → Fin S128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  inb_S5000x64_S5000x64_0_0 : ∀ a, (![0, 0] : Fin 2 → Nat) a + S5000x64.size a ≤ S5000x64.size a
  h_S5000x64 : 0 < S5000x64.numel
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128_S128 : S128.ShapeCasts S128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  packedbf16_S5000x128_S5000x128_0_0 : (Rect.unit (s := S5000x128) ![0, 0] S5000x128.size inb_S5000x128_S5000x128_0_0).PackedRows (EltTy.packing .bf16)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  slices_S4x128x128_S1x128x128_1_0_0 : S4x128x128.Slices ![1, 0, 0] S1x128x128
  slices_S4x128_S1x128_1_0 : S4x128.Slices ![1, 0] S1x128
  shapeCasts_S5000x128_S5000x128 : S5000x128.ShapeCasts S5000x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  slices_S50000x128_S50000x7_0_0 : S50000x128.Slices ![0, 0] S50000x7
  dot_S512x64_S512x64_S512x512_1_1_0_0_n_n_wf : DotDims.WF S512x64 S512x64 S512x512 [1] [1] [0] [0] [] []
  scatter_S128x128_S1_S128x7_01_n_1_0_wf : ScatterDims.WF S128x128 S1 S128x7 [0, 1] [] [1] 0
  scatter_S128_S1_S7_0_n_0_0_wf : ScatterDims.WF S128 S1 S7 [0] [] [0] 0
  dot_S5000x64_S64x128_S5000x128_1_0_0_1_n_n_wf : DotDims.WF S5000x64 S64x128 S5000x128 [1] [0] [0] [1] [] []
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S32x512x64.size a
  hwx0_0 : ∀ i : grid0.Coords, EltTy.bits .f32 = 32 ∨ (Rect.block (s := S32x512x64) S1x512x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1.size a ≤ S1.size a
  hwx0_1 : ∀ i : grid0.Coords, EltTy.bits .f32 = 32 ∨ (Rect.block (s := S1) S1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x512.size a ≤ S32x512x512.size a
  hwx0_2 : ∀ i : grid0.Coords, EltTy.bits .f32 = 32 ∨ (Rect.block (s := S32x512x512) S1x512x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S64x128.size a
  hwx1_1 : ∀ i : grid1.Coords, EltTy.bits .f32 = 32 ∨ (Rect.block (s := S64x128) S64x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .bf16 = 32 ∨ (Rect.block (s := S50000x128) S5000x128.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S50000x128.size a
  hwx2_7 : ∀ i : grid2.Coords, EltTy.bits .bf16 = 32 ∨ (Rect.block (s := S50000x128) S5000x128.size (cc2_transform_7 i) (hinb2_7 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128.size a ≤ S128.size a
  hwx3_5 : ∀ i : grid3.Coords, EltTy.bits .f32 = 32 ∨ (Rect.block (s := S128) S128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S50000x128.size a
  hwx3_6 : ∀ i : grid3.Coords, EltTy.bits .f32 = 32 ∨ (Rect.block (s := S50000x128) S5000x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x128.size a ≤ S50000x128.size a
  hwx3_7 : ∀ i : grid3.Coords, EltTy.bits .bf16 = 32 ∨ (Rect.block (s := S50000x128) S5000x128.size (cc3_transform_7 i) (hinb3_7 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128.size a ≤ S128.size a
  hwx4_3 : ∀ i : grid4.Coords, EltTy.bits .f32 = 32 ∨ (Rect.block (s := S128) S128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128.size a ≤ S128.size a
  hwx4_5 : ∀ i : grid4.Coords, EltTy.bits .f32 = 32 ∨ (Rect.block (s := S128) S128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S50000x128.size a
  hwx4_6 : ∀ i : grid4.Coords, EltTy.bits .f32 = 32 ∨ (Rect.block (s := S50000x128) S5000x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S5000x128.size a ≤ S50000x128.size a
  hwx4_7 : ∀ i : grid4.Coords, EltTy.bits .bf16 = 32 ∨ (Rect.block (s := S50000x128) S5000x128.size (cc4_transform_7 i) (hinb4_7 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128.size a ≤ S128.size a
  hwx5_3 : ∀ i : grid5.Coords, EltTy.bits .f32 = 32 ∨ (Rect.block (s := S128) S128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .f32 = 32 ∨ (Rect.block (s := S128x128) S128x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128.size a ≤ S128.size a
  hwx5_5 : ∀ i : grid5.Coords, EltTy.bits .f32 = 32 ∨ (Rect.block (s := S128) S128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x128.size a ≤ S50000x128.size a
  hwx5_6 : ∀ i : grid5.Coords, EltTy.bits .f32 = 32 ∨ (Rect.block (s := S50000x128) S5000x128.size (cc5_transform_6 i) (hinb5_6 i)).WholeWords (EltTy.packing .f32)

variable [Facts₀]

def dot_S512x64_S512x64_S512x512_1_1_0_0_n_n : DotDims S512x64 S512x64 S512x512 where
  lhsContracting := [1]
  rhsContracting := [1]
  lhsNonContracting := [0]
  rhsNonContracting := [0]
  lhsBatch := []
  rhsBatch := []
  wf := dot_S512x64_S512x64_S512x512_1_1_0_0_n_n_wf
def scatter_S128x128_S1_S128x7_01_n_1_0 : ScatterDims S128x128 S1 S128x7 where
  updateWindowDims := [0, 1]
  insertedWindowDims := []
  scatterDimsToOperandDims := [1]
  indexVectorDim := 0
  wf := scatter_S128x128_S1_S128x7_01_n_1_0_wf
def scatter_S128_S1_S7_0_n_0_0 : ScatterDims S128 S1 S7 where
  updateWindowDims := [0]
  insertedWindowDims := []
  scatterDimsToOperandDims := [0]
  indexVectorDim := 0
  wf := scatter_S128_S1_S7_0_n_0_0_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg2) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v14) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v15_0) S5000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v15_1) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v15_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v28) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v30) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v32) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v34) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v35_0) S5000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v35_1) S5000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v35_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v46) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v48) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v50) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v52) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v54) S128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v55_0) S5000x128.size cc3_transform_6 reads3_6 true false 2 stage3_6 sem3_6
    hrank3 hreads3_6 hinb3_6 nbuf3_6 (Memref.isWhole_whole _) hwx3_6 hstage3_6

abbrev win3_7 : Pipeline.Window sig grid3 :=
  Pipeline.Window.ofSpec (Memref.whole main_v55_1) S5000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v55_0) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v66) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v68) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v70) S128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v72) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v74) S128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v75_0) S5000x128.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v75_1) S5000x128.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v75_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v86) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v88) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v90) S128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v7) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v10) S128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v91) S5000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S32x512x64 : Shape := ⟨3, ![32, 512, 64]⟩
abbrev S1 : Shape := ⟨1, ![1]⟩
abbrev S64x128 : Shape := ⟨2, ![64, 128]⟩
abbrev S128 : Shape := ⟨1, ![128]⟩
abbrev S4x128x128 : Shape := ⟨3, ![4, 128, 128]⟩
abbrev S4x128 : Shape := ⟨2, ![4, 128]⟩
abbrev S128x7 : Shape := ⟨2, ![128, 7]⟩
abbrev S7 : Shape := ⟨1, ![7]⟩
abbrev S32x512x512 : Shape := ⟨3, ![32, 512, 512]⟩
abbrev S_ : Shape := ⟨0, ![]⟩
abbrev S1x800000 : Shape := ⟨2, ![1, 800000]⟩
abbrev S800000 : Shape := ⟨1, ![800000]⟩
abbrev S50000x128 : Shape := ⟨2, ![50000, 128]⟩
abbrev S1x128 : Shape := ⟨2, ![1, 128]⟩
abbrev S1x128x128 : Shape := ⟨3, ![1, 128, 128]⟩
abbrev S128x128 : Shape := ⟨2, ![128, 128]⟩
abbrev S800000x1 : Shape := ⟨2, ![800000, 1]⟩
abbrev S800000x128 : Shape := ⟨2, ![800000, 128]⟩
abbrev S50000x7 : Shape := ⟨2, ![50000, 7]⟩
abbrev S1x7 : Shape := ⟨2, ![1, 7]⟩

abbrev nBuf : Space → Nat
  | .hbm => 175
  | .vmem => 0
  | .smem => 0
  | _ => 0

abbrev hbmTy0_0 (i : Nat) : BufTy := match i % 128 with
  | 0 => ⟨S50000x64, .f32⟩
  | 1 => ⟨S2x800000, .i32⟩
  | 2 => ⟨S32x512x64, .f32⟩
  | 3 => ⟨S1, .f32⟩
  | 4 => ⟨S64x128, .f32⟩
  | 5 => ⟨S128, .f32⟩
  | 6 => ⟨S4x128x128, .f32⟩
  | 7 => ⟨S4x128, .f32⟩
  | 8 => ⟨S4x128x128, .f32⟩
  | 9 => ⟨S4x128, .f32⟩
  | 10 => ⟨S128x7, .f32⟩
  | 11 => ⟨S7, .f32⟩
  | 12 => ⟨S32x512x512, .f32⟩
  | 13 => ⟨S_, .f32⟩
  | 14 => ⟨S32x512x512, .f32⟩
  | 15 => ⟨S32x512x512, .f32⟩
  | 16 => ⟨S1x800000, .i32⟩
  | 17 => ⟨S800000, .i32⟩
  | 18 => ⟨S1x800000, .i32⟩
  | 19 => ⟨S800000, .i32⟩
  | 20 => ⟨S50000x128, .f32⟩
  | 21 => ⟨S1x128, .f32⟩
  | 22 => ⟨S50000x128, .f32⟩
  | 23 => ⟨S50000x128, .f32⟩
  | 24 => ⟨S_, .f32⟩
  | 25 => ⟨S50000x128, .f32⟩
  | 26 => ⟨S50000x128, .f32⟩
  | 27 => ⟨S1x128x128, .f32⟩
  | 28 => ⟨S128x128, .f32⟩
  | 29 => ⟨S50000x128, .f32⟩
  | 30 => ⟨S1x128, .f32⟩
  | 31 => ⟨S128, .f32⟩
  | 32 => ⟨S1x128, .f32⟩
  | 33 => ⟨S50000x128, .f32⟩
  | 34 => ⟨S50000x128, .f32⟩
  | 35 => ⟨S_, .f32⟩
  | 36 => ⟨S50000x128, .f32⟩
  | 37 => ⟨S50000x128, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000x128, .f32⟩
  | 47 => ⟨S_, .f32⟩
  | 48 => ⟨S50000x128, .f32⟩
  | 49 => ⟨S800000x1, .i32⟩
  | 50 => ⟨S50000x128, .f32⟩
  | 51 => ⟨S1x128x128, .f32⟩
  | 52 => ⟨S128x128, .f32⟩
  | 53 => ⟨S50000x128, .f32⟩
  | 54 => ⟨S1x128, .f32⟩
  | 55 => ⟨S128, .f32⟩
  | 56 => ⟨S1x128, .f32⟩
  | 57 => ⟨S50000x128, .f32⟩
  | 58 => ⟨S50000x128, .f32⟩
  | 59 => ⟨S_, .f32⟩
  | 60 => ⟨S50000x128, .f32⟩
  | 61 => ⟨S50000x128, .f32⟩
  | 62 => ⟨S50000x128, .f32⟩
  | 63 => ⟨S1x128x128, .f32⟩
  | 64 => ⟨S128x128, .f32⟩
  | 65 => ⟨S50000x128, .f32⟩
  | 66 => ⟨S1x128, .f32⟩
  | 67 => ⟨S128, .f32⟩
  | 68 => ⟨S1x128, .f32⟩
  | 69 => ⟨S50000x128, .f32⟩
  | 70 => ⟨S50000x128, .f32⟩
  | 71 => ⟨S_, .f32⟩
  | 72 => ⟨S50000x128, .f32⟩
  | 73 => ⟨S50000x128, .f32⟩
  | 74 => ⟨S_, .i32⟩
  | 75 => ⟨S800000, .i32⟩
  | 76 => ⟨S800000, .i1⟩
  | 77 => ⟨S_, .i32⟩
  | 78 => ⟨S800000, .i32⟩
  | 79 => ⟨S800000, .i32⟩
  | 80 => ⟨S800000, .i32⟩
  | 81 => ⟨S800000x1, .i32⟩
  | 82 => ⟨S800000x128, .f32⟩
  | 83 => ⟨S_, .f32⟩
  | 84 => ⟨S50000x128, .f32⟩
  | 85 => ⟨S800000x1, .i32⟩
  | 86 => ⟨S50000x128, .f32⟩
  | 87 => ⟨S1x128x128, .f32⟩
  | 88 => ⟨S128x128, .f32⟩
  | 89 => ⟨S50000x128, .f32⟩
  | 90 => ⟨S1x128, .f32⟩
  | 91 => ⟨S128, .f32⟩
  | 92 => ⟨S1x128, .f32⟩
  | 93 => ⟨S50000x128, .f32⟩
  | 94 => ⟨S50000x128, .f32⟩
  | 95 => ⟨S_, .f32⟩
  | 96 => ⟨S50000x128, .f32⟩
  | 97 => ⟨S50000x128, .f32⟩
  | 98 => ⟨S50000x128, .f32⟩
  | 99 => ⟨S1x128x128, .f32⟩
  | 100 => ⟨S128x128, .f32⟩
  | 101 => ⟨S50000x128, .f32⟩
  | 102 => ⟨S1x128, .f32⟩
  | 103 => ⟨S128, .f32⟩
  | 104 => ⟨S1x128, .f32⟩
  | 105 => ⟨S50000x128, .f32⟩
  | 106 => ⟨S50000x128, .f32⟩
  | 107 => ⟨S_, .f32⟩
  | 108 => ⟨S50000x128, .f32⟩
  | 109 => ⟨S50000x128, .f32⟩
  | 110 => ⟨S_, .i32⟩
  | 111 => ⟨S800000, .i32⟩
  | 112 => ⟨S800000, .i1⟩
  | 113 => ⟨S_, .i32⟩
  | 114 => ⟨S800000, .i32⟩
  | 115 => ⟨S800000, .i32⟩
  | 116 => ⟨S800000, .i32⟩
  | 117 => ⟨S800000x1, .i32⟩
  | 118 => ⟨S800000x128, .f32⟩
  | 119 => ⟨S_, .f32⟩
  | 120 => ⟨S50000x128, .f32⟩
  | 121 => ⟨S800000x1, .i32⟩
  | 122 => ⟨S50000x128, .f32⟩
  | 123 => ⟨S1x128x128, .f32⟩
  | 124 => ⟨S128x128, .f32⟩
  | 125 => ⟨S50000x128, .f32⟩
  | 126 => ⟨S1x128, .f32⟩
  | 127 => ⟨S128, .f32⟩
  | _ => ⟨S50000x64, .f32⟩

abbrev hbmTy0_1 (i : Nat) : BufTy := match i % 128 with
  | 0 => ⟨S1x128, .f32⟩
  | 1 => ⟨S50000x128, .f32⟩
  | 2 => ⟨S50000x128, .f32⟩
  | 3 => ⟨S_, .f32⟩
  | 4 => ⟨S50000x128, .f32⟩
  | 5 => ⟨S50000x128, .f32⟩
  | 6 => ⟨S50000x128, .f32⟩
  | 7 => ⟨S1x128x128, .f32⟩
  | 8 => ⟨S128x128, .f32⟩
  | 9 => ⟨S50000x128, .f32⟩
  | 10 => ⟨S1x128, .f32⟩
  | 11 => ⟨S128, .f32⟩
  | 12 => ⟨S1x128, .f32⟩
  | 13 => ⟨S50000x128, .f32⟩
  | 14 => ⟨S50000x128, .f32⟩
  | 15 => ⟨S_, .f32⟩
  | 16 => ⟨S50000x128, .f32⟩
  | 17 => ⟨S50000x128, .f32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000x128, .f32⟩
  | 27 => ⟨S_, .f32⟩
  | 28 => ⟨S50000x128, .f32⟩
  | 29 => ⟨S800000x1, .i32⟩
  | 30 => ⟨S50000x128, .f32⟩
  | 31 => ⟨S1x128x128, .f32⟩
  | 32 => ⟨S128x128, .f32⟩
  | 33 => ⟨S50000x128, .f32⟩
  | 34 => ⟨S1x128, .f32⟩
  | 35 => ⟨S128, .f32⟩
  | 36 => ⟨S1x128, .f32⟩
  | 37 => ⟨S50000x128, .f32⟩
  | 38 => ⟨S50000x128, .f32⟩
  | 39 => ⟨S_, .f32⟩
  | 40 => ⟨S50000x128, .f32⟩
  | 41 => ⟨S50000x128, .f32⟩
  | 42 => ⟨S50000x128, .f32⟩
  | 43 => ⟨S50000x7, .f32⟩
  | 44 => ⟨S1x7, .f32⟩
  | 45 => ⟨S50000x7, .f32⟩
  | 46 => ⟨S50000x7, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_call0_cst : Ref sig .tc := ⟨.hbm, 24, rfl⟩
abbrev main_call0_v0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_call1_cst : Ref sig .tc := ⟨.hbm, 35, rfl⟩
abbrev main_call1_v0 : Ref sig .tc := ⟨.hbm, 36, rfl⟩
abbrev main_v21 : Ref sig .tc := ⟨.hbm, 37, rfl⟩
abbrev main_c : Ref sig .tc := ⟨.hbm, 38, rfl⟩
abbrev main_v22 : Ref sig .tc := ⟨.hbm, 39, rfl⟩
abbrev main_v23 : Ref sig .tc := ⟨.hbm, 40, rfl⟩
abbrev main_c_0 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_call2_cst : Ref sig .tc := ⟨.hbm, 59, rfl⟩
abbrev main_call2_v0 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_call3_cst : Ref sig .tc := ⟨.hbm, 71, rfl⟩
abbrev main_call3_v0 : Ref sig .tc := ⟨.hbm, 72, rfl⟩
abbrev main_v50 : Ref sig .tc := ⟨.hbm, 73, rfl⟩
abbrev main_c_1 : Ref sig .tc := ⟨.hbm, 74, rfl⟩
abbrev main_v51 : Ref sig .tc := ⟨.hbm, 75, rfl⟩
abbrev main_v52 : Ref sig .tc := ⟨.hbm, 76, rfl⟩
abbrev main_c_2 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_3 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_call4_cst : Ref sig .tc := ⟨.hbm, 95, rfl⟩
abbrev main_call4_v0 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_call5_cst : Ref sig .tc := ⟨.hbm, 107, rfl⟩
abbrev main_call5_v0 : Ref sig .tc := ⟨.hbm, 108, rfl⟩
abbrev main_v79 : Ref sig .tc := ⟨.hbm, 109, rfl⟩
abbrev main_c_4 : Ref sig .tc := ⟨.hbm, 110, rfl⟩
abbrev main_v80 : Ref sig .tc := ⟨.hbm, 111, rfl⟩
abbrev main_v81 : Ref sig .tc := ⟨.hbm, 112, rfl⟩
abbrev main_c_5 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_6 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_call6_cst : Ref sig .tc := ⟨.hbm, 131, rfl⟩
abbrev main_call6_v0 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_call7_cst : Ref sig .tc := ⟨.hbm, 143, rfl⟩
abbrev main_call7_v0 : Ref sig .tc := ⟨.hbm, 144, rfl⟩
abbrev main_v108 : Ref sig .tc := ⟨.hbm, 145, rfl⟩
abbrev main_c_7 : Ref sig .tc := ⟨.hbm, 146, rfl⟩
abbrev main_v109 : Ref sig .tc := ⟨.hbm, 147, rfl⟩
abbrev main_v110 : Ref sig .tc := ⟨.hbm, 148, rfl⟩
abbrev main_c_8 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_cst_9 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_call8_cst : Ref sig .tc := ⟨.hbm, 167, rfl⟩
abbrev main_call8_v0 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩

abbrev nD : Nat := 1
abbrev τ : Topo := Topo.v7x

variable {F : FTy → Type} [FloatOps F]

class Facts₀ : Prop where
  shapeCasts_S1_S_ : S1.ShapeCasts S_
  bcast_S_S32x512x512 : S_.BroadcastsInDim S32x512x512 (![] : Fin 0 → Fin S32x512x512.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  bcast_S_S800000 : S_.BroadcastsInDim S800000 (![] : Fin 0 → Fin S800000.rank)
  bcast_S800000_S800000x1_0 : S800000.BroadcastsInDim S800000x1 (![0] : Fin 1 → Fin S800000x1.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S7_S1x7_1 : S7.BroadcastsInDim S1x7 (![1] : Fin 1 → Fin S1x7.rank)
  bcast_S1x7_S50000x7_0_1 : S1x7.BroadcastsInDim S50000x7 (![0, 1] : Fin 2 → Fin S50000x7.rank)
  dot_S32x512x64_S32x512x64_S32x512x512_2_2_1_1_0_0_wf : DotDims.WF S32x512x64 S32x512x64 S32x512x512 [2] [2] [1] [1] [0] [0]
  dot_S50000x64_S64x128_S50000x128_1_0_0_1_n_n_wf : DotDims.WF S50000x64 S64x128 S50000x128 [1] [0] [0] [1] [] []
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x7_S50000x7_1_0_0_1_n_n_wf : DotDims.WF S50000x128 S128x7 S50000x7 [1] [0] [0] [1] [] []

variable [Facts₀]

def dot_S32x512x64_S32x512x64_S32x512x512_2_2_1_1_0_0 : DotDims S32x512x64 S32x512x64 S32x512x512 where
  lhsContracting := [2]
  rhsContracting := [2]
  lhsNonContracting := [1]
  rhsNonContracting := [1]
  lhsBatch := [0]
  rhsBatch := [0]
  wf := dot_S32x512x64_S32x512x64_S32x512x512_2_2_1_1_0_0_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x7_S50000x7_1_0_0_1_n_n : DotDims S50000x128 S128x7 S50000x7 where
  lhsContracting := [1]
  rhsContracting := [0]
  lhsNonContracting := [0]
  rhsNonContracting := [1]
  lhsBatch := []
  rhsBatch := []
  wf := dot_S50000x128_S128x7_S50000x7_1_0_0_1_n_n_wf

class Facts : Prop extends Facts₀ where

variable [Facts]
-- ==== Proof.KernelRun.lean ====
/-
  The kernel program's run with its two result arrays named.

  The program is six kernel launches among stretches of whole-array operations. Its run is followed boundary by
  boundary: the buffer contents after each stretch and after each launch are a fold from the launch memory. Every
  execution terminates without a fault; at the end the two result buffers hold what the fold's last boundary holds
  there, and the twelve argument arrays are as launched.
-/
import proofs.«102918_j30047591203218_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the two results end at the last
    boundary's contents and the arguments as launched. -/
theorem run_named : θ_run defs (onTc (τ := τ) (main (F := F))) ⟨m, fun _ => 0, ρ⟩ (fun r => ∀ c : Dev nD,
      r.2.mem ((c.tc : Thread nD τ).loc main_v0) = W12 m ρ c (Proc.devRef .tc main_v0)
      ∧ r.2.mem ((c.tc : Thread nD τ).loc main_v92) = W12 m ρ c (Proc.devRef .tc main_v92)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v0 (by decide)),
       h c _ (mem_uc main_v92 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c)⟩)

end Cert.KernelIdeal.Named

end
-- ==== Proof.LibTwoBlocks.lean ====
/-
  Three readings, at an entry, that come up when one matrix product over a joined axis is compared with two products
  over its parts, for any sizes.

  * A sum over `n = a + b` indices is the sum over the first `a` plus the sum over the last `b` (in any commutative
    monoid: only the grouping changes).
  * An `M × K` by `K × N` matrix product accumulated into zero reads, at `(p, q)`, the sum over `c` of
    `A (p, c) * B (c, q)`.
  * Two matrices with the same number of columns stacked one above the other read, at `(i, j)`, the upper one at
    `(i, j)` for a row of the upper piece and the lower one at `(i - a₁, j)` otherwise.
-/
import Mathlib.Algebra.BigOperators.Fin
import Idealize.ShloMosaic.Lib.Pipeline.Value
import Idealize.ShloMosaic.Lib.ValueIdx
import Idealize.ShloMosaic.PureOps.Ideal.Laws

noncomputable section

open scoped BigOperators

namespace Cert.Lib.TwoBlocks

open Idealize.ShloMosaic Idealize.ShloMosaic.ValueIdx

/-- A sum over `a + b` indices as the sum over the first `a` plus the sum over the last `b`. -/
theorem sum_two_blocks {M : Type*} [AddCommMonoid M] {a b n : ℕ} (hn : a + b = n) (f : Fin n → M) :
    ∑ k, f k = ∑ k : Fin a, f ⟨k.val, by have := k.isLt; omega⟩ + ∑ k : Fin b, f ⟨a + k.val, by have := k.isLt; omega⟩ := by
  subst hn
  rw [Fin.sum_univ_add]
  exact congrArg₂ (· + ·) (Finset.sum_congr rfl fun k _ => congrArg f (Fin.ext rfl))
    (Finset.sum_congr rfl fun k _ => congrArg f (Fin.ext rfl))

/-- An `M × K` by `K × N` product into the zero accumulator reads, at `(p, q)`, the sum over the shared axis. The
    dimension numbers are any that contract the left operand's columns with the right operand's rows and batch
    nothing (`hD`). -/
theorem plain_matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (p : Fin M) (q : Fin N) :
    matmul D prec A B (constant ⟨2, ![M, N]⟩ .f32 0x00000000#32) (ix2 p q) = ∑ c : Fin K, A (ix2 p c) * B (ix2 c q) := by
  subst hD
  show FloatOps.matmul (DotDims.plain M K N) prec A B _ (ix2 p q) = _
  rw [Ideal.matmul_constant_zero_apply, ← Equiv.sum_comp (contrEquiv1 (DotDims.plain M K N) K rfl rfl).symm]
  refine Finset.sum_congr rfl fun c _ => ?_
  have hk := contrEquiv1_symm_val (DotDims.plain M K N) K rfl rfl c
  have el : (DotDims.plain M K N).lhsIdx (ix2 p q) ((contrEquiv1 (DotDims.plain M K N) K rfl rfl).symm c) = ix2 p c :=
    funext fun ax => Fin.ext (by
      match ax with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm c) = ix2 c q :=
    funext fun ax => Fin.ext (by
      match ax with
      | ⟨0, _⟩ => exact ((DotDims.plain M K N).rhsIdx_val_of_single rfl (ix2 p q) _).trans hk
      | ⟨1, _⟩ => rfl)
  rw [el, er]

variable {α : Type}

/-- A row of the upper piece: the stack at `(i, j)` with `i = k < a₁` is the upper piece at `(k, j)`. -/
theorem concat_rows_upper {a₁ a₂ n b : ℕ} (x₁ : (⟨2, ![a₁, b]⟩ : Shape).Idx → α) (x₂ : (⟨2, ![a₂, b]⟩ : Shape).Idx → α)
    (h : Shape.Concatenates [⟨2, ![a₁, b]⟩, ⟨2, ![a₂, b]⟩] ⟨2, ![n, b]⟩ 0)
    (i : Fin n) (j : Fin b) (k : Fin a₁) (hk : k.val = i.val) :
    concatenate ⟨2, ![n, b]⟩ 0 [⟨⟨2, ![a₁, b]⟩, x₁⟩, ⟨⟨2, ![a₂, b]⟩, x₂⟩] h (ix2 i j) = x₁ (ix2 k j) :=
  concatenate_pair_apply_left (t := ⟨2, ![n, b]⟩) 0 x₁ x₂ h (ix2 i j) rfl (ix2 k j) (fun ax => by
    match ax with
    | ⟨0, _⟩ => exact hk
    | ⟨1, _⟩ => rfl)

/-- A row of the lower piece: the stack at `(i, j)` with `i = a₁ + k` is the lower piece at `(k, j)`. -/
theorem concat_rows_lower {a₁ a₂ n b : ℕ} (x₁ : (⟨2, ![a₁, b]⟩ : Shape).Idx → α) (x₂ : (⟨2, ![a₂, b]⟩ : Shape).Idx → α)
    (h : Shape.Concatenates [⟨2, ![a₁, b]⟩, ⟨2, ![a₂, b]⟩] ⟨2, ![n, b]⟩ 0)
    (i : Fin n) (j : Fin b) (k : Fin a₂) (hk : a₁ + k.val = i.val) :
    concatenate ⟨2, ![n, b]⟩ 0 [⟨⟨2, ![a₁, b]⟩, x₁⟩, ⟨⟨2, ![a₂, b]⟩, x₂⟩] h (ix2 i j) = x₂ (ix2 k j) :=
  concatenate_pair_apply_right (t := ⟨2, ![n, b]⟩) 0 x₁ x₂ h (ix2 i j) rfl rfl (ix2 k j) (fun ax hb => by
    match ax with
    | ⟨0, _⟩ => exact absurd rfl hb
    | ⟨1, _⟩ => rfl) (by
    show k.val + a₁ = i.val
    omega)

end Cert.Lib.TwoBlocks

end
-- ==== Proof.LibConcatCols.lean ====
/-
  Two matrices with the same number of rows set side by side, read at an entry, for any sizes.

  The concatenation of an `a × b₁` matrix and an `a × b₂` matrix along the columns is an `a × n` matrix with
  `n = b₁ + b₂`. Its entry `(i, j)` is the first matrix's entry `(i, j)` when `j < b₁`, and the second matrix's
  entry `(i, j - b₁)` otherwise. The two lemmas below say so with the caller naming the piece's column `k`.
-/
import Idealize.ShloMosaic.Lib.Pipeline.Value
import Idealize.ShloMosaic.Lib.ValueIdx

noncomputable section

namespace Cert.Lib.ConcatCols

open Idealize.ShloMosaic Idealize.ShloMosaic.ValueIdx

variable {α : Type}

/-- A column of the left piece: the concatenation at `(i, j)` with `j = k < b₁` is the left piece at `(i, k)`. -/
theorem concat_cols_left {a b₁ b₂ n : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, n]⟩ 1)
    (i : Fin a) (j : Fin n) (k : Fin b₁) (hk : k.val = j.val) :
    concatenate ⟨2, ![a, n]⟩ 1 [⟨⟨2, ![a, b₁]⟩, x₁⟩, ⟨⟨2, ![a, b₂]⟩, x₂⟩] h (ix2 i j) = x₁ (ix2 i k) :=
  concatenate_pair_apply_left (t := ⟨2, ![a, n]⟩) 1 x₁ x₂ h (ix2 i j) rfl (ix2 i k) (fun b => by
    match b with
    | ⟨0, _⟩ => rfl
    | ⟨1, _⟩ => exact hk)

/-- A column of the right piece: the concatenation at `(i, j)` with `j = b₁ + k` is the right piece at `(i, k)`. -/
theorem concat_cols_right {a b₁ b₂ n : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, n]⟩ 1)
    (i : Fin a) (j : Fin n) (k : Fin b₂) (hk : b₁ + k.val = j.val) :
    concatenate ⟨2, ![a, n]⟩ 1 [⟨⟨2, ![a, b₁]⟩, x₁⟩, ⟨⟨2, ![a, b₂]⟩, x₂⟩] h (ix2 i j) = x₂ (ix2 i k) :=
  concatenate_pair_apply_right (t := ⟨2, ![a, n]⟩) 1 x₁ x₂ h (ix2 i j) rfl rfl (ix2 i k) (fun b hb => by
    match b with
    | ⟨0, _⟩ => rfl
    | ⟨1, _⟩ => exact absurd rfl hb) (by
    show k.val + b₁ = j.val
    omega)

end Cert.Lib.ConcatCols

end
-- ==== Proof.LibDenseLayer.lean ====
/-
  A dense layer read at an entry, and cut into blocks of rows, for any sizes.

  A dense layer takes an `n × K` matrix `X`, a `K × C` weight matrix `W` and a `1 × C` bias row `B`; its entry
  `(p, q)` is the sum over `k` of `X (p, k) * W (k, q)`, plus `B (0, q)`. Three facts about it:

  * a kernel body spells the layer as a matrix product accumulated into zero, of the operands narrowed to a shorter
    float format (the identity on extended reals), plus the bias row spread down the rows: that is the layer, entry by
    entry;
  * the input matrix is often several matrices set side by side; three pieces set side by side read, at an entry, the
    piece whose columns hold the entry's column;
  * row `off + r` of the layer over whole matrices is row `r` of the layer over the blocks of rows starting at `off`:
    a layer is computed row by row, so a block of its rows needs only the same block of rows of its input. For an
    input made of pieces set side by side, the pieces' blocks set side by side are the block of the whole.
-/
import Mathlib.Algebra.BigOperators.Fin
import Idealize.ShloMosaic.Lib.Pipeline.Value
import Idealize.ShloMosaic.Lib.ValueIdx
import Idealize.ShloMosaic.PureOps.Ideal.Laws
import proofs.«102918_j30047591203218_2_alg».proof.Proof.LibConcatCols
import proofs.«102918_j30047591203218_2_alg».proof.Proof.LibTwoBlocks

noncomputable section

open scoped BigOperators

namespace Cert.Lib.DenseLayer

open Idealize.ShloMosaic Idealize.ShloMosaic.ValueIdx Cert.Lib.ConcatCols Cert.Lib.TwoBlocks

/-! ## The layer -/

/-- Entry `(p, q)` of the dense layer of `X` (`n × K`), `W` (`K × C`) and the bias row `B` (`1 × C`). -/
def denseAt {n K C : ℕ} (X : (⟨2, ![n, K]⟩ : Shape).Idx → EReal) (W : (⟨2, ![K, C]⟩ : Shape).Idx → EReal)
    (B : (⟨2, ![1, C]⟩ : Shape).Idx → EReal) (p : Fin n) (q : Fin C) : EReal :=
  (∑ k : Fin K, X (ix2 p k) * W (ix2 k q)) + B (ix2 (0 : Fin 1) q)

/-- The layer depends on its input only through the entries of row `p`, and on the weights and the bias as
    functions. -/
theorem denseAt_congr {n n' K C : ℕ} (X : (⟨2, ![n, K]⟩ : Shape).Idx → EReal) (X' : (⟨2, ![n', K]⟩ : Shape).Idx → EReal)
    (W W' : (⟨2, ![K, C]⟩ : Shape).Idx → EReal) (B B' : (⟨2, ![1, C]⟩ : Shape).Idx → EReal) (p : Fin n) (p' : Fin n') (q : Fin C)
    (hX : ∀ k : Fin K, X (ix2 p k) = X' (ix2 p' k)) (hW : W = W') (hB : B = B') :
    denseAt X W B p q = denseAt X' W' B' p' q := by
  subst hW; subst hB
  unfold denseAt
  exact congrArg (· + B (ix2 (0 : Fin 1) q)) (Finset.sum_congr rfl fun k _ => by rw [hX k])

/-- A kernel body's spelling of the layer — the product, accumulated into zero, of the input and the weights, both
    narrowed to a shorter float format, plus the bias row spread down the `n` rows — is the layer, entry by entry. -/
theorem body_entry {n K C : ℕ} {ψ : FTy} (D : DotDims ⟨2, ![n, K]⟩ ⟨2, ![K, C]⟩ ⟨2, ![n, C]⟩) (hD : D = DotDims.plain n K C)
    (prec : Option ContractPrecision)
    (X : FVec Ideal ⟨2, ![n, K]⟩ .f32) (W : FVec Ideal ⟨2, ![K, C]⟩ .f32) (B : FVec Ideal ⟨2, ![1, C]⟩ .f32)
    (hlt : ψ.bits < FTy.f32.bits)
    (hW : (⟨2, ![K, C]⟩ : Shape).ShapeCasts ⟨2, ![K, C]⟩) (hB : (⟨2, ![1, C]⟩ : Shape).ShapeCasts ⟨2, ![1, C]⟩)
    (hbc : (⟨2, ![1, C]⟩ : Shape).Broadcasts ⟨2, ![n, C]⟩) (p : Fin n) (q : Fin C) :
    addf (matmul D prec (truncf ψ X hlt) (truncf ψ (shapeCast ⟨2, ![K, C]⟩ W hW) hlt) (constant ⟨2, ![n, C]⟩ .f32 0x00000000#32))
        (broadcastTo ⟨2, ![n, C]⟩ (shapeCast ⟨2, ![1, C]⟩ B hB) hbc) (ix2 p q)
      = denseAt X W B p q := by
  rw [addf_apply, shapeCast_self, shapeCast_self, plain_matmul_zero_apply D hD prec _ _ p q]
  unfold denseAt
  refine congrArg₂ (· + ·) rfl ?_
  refine broadcastTo_apply B hbc (ix2 p q) (ix2 (0 : Fin 1) q) fun a => ?_
  match a with
  | ⟨0, _⟩ => exact (if_pos rfl).symm
  | ⟨1, _⟩ =>
    show q.val = if C = 1 then 0 else q.val
    have hq := q.isLt
    split <;> omega

/-- A host matrix product of an `M × K` by a `K × N` matrix (any dimension numbers that contract the left operand's
    columns with the right operand's rows and batch nothing) reads, at `(p, q)`, the sum over the shared axis. -/
theorem plain_dotGeneral_apply {M K N : ℕ} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (p : Fin M) (q : Fin N) :
    Host.dotGeneral D prec A B (ix2 p q) = ∑ c : Fin K, A (ix2 p c) * B (ix2 c q) := by
  subst hD
  simp only [Host.dotGeneral]
  rw [Ideal.dotGeneral_apply, ← Equiv.sum_comp (contrEquiv1 (DotDims.plain M K N) K rfl rfl).symm]
  refine Finset.sum_congr rfl fun c _ => ?_
  have hk := contrEquiv1_symm_val (DotDims.plain M K N) K rfl rfl c
  have el : (DotDims.plain M K N).lhsIdx (ix2 p q) ((contrEquiv1 (DotDims.plain M K N) K rfl rfl).symm c) = ix2 p c :=
    funext fun ax => Fin.ext (by
      match ax with
      | ⟨0, _⟩ => rfl
      | ⟨1, _⟩ => exact ((DotDims.plain M K N).lhsIdx_val_of_single rfl (ix2 p q) _).trans hk)
  have er : (DotDims.plain M K N).rhsIdx (ix2 p q) ((contrEquiv1 (DotDims.plain M K N) K rfl rfl).symm c) = ix2 c q :=
    funext fun ax => Fin.ext (by
      match ax with
      | ⟨0, _⟩ => exact ((DotDims.plain M K N).rhsIdx_val_of_single rfl (ix2 p q) _).trans hk
      | ⟨1, _⟩ => rfl)
  rw [el, er]

/-- A host program's spelling of the layer — the host matrix product of the input and the weights plus an `n × C`
    array `Bn` that holds the bias row in every row — is the layer, entry by entry. -/
theorem host_entry {n K C : ℕ} (D : DotDims ⟨2, ![n, K]⟩ ⟨2, ![K, C]⟩ ⟨2, ![n, C]⟩) (hD : D = DotDims.plain n K C)
    (prec : Option ContractPrecision)
    (X : FVec Ideal ⟨2, ![n, K]⟩ .f32) (W : FVec Ideal ⟨2, ![K, C]⟩ .f32) (Bn : FVec Ideal ⟨2, ![n, C]⟩ .f32)
    (B : FVec Ideal ⟨2, ![1, C]⟩ .f32) (p : Fin n) (q : Fin C) (hB : Bn (ix2 p q) = B (ix2 (0 : Fin 1) q)) :
    addf (Host.dotGeneral D prec X W) Bn (ix2 p q) = denseAt X W B p q := by
  rw [addf_apply, plain_dotGeneral_apply D hD prec X W p q, hB]
  rfl

/-! ## Three matrices set side by side -/

variable {α : Type}

/-- A column of the first of three pieces. -/
theorem concat_cols3_first {a b₁ b₂ b₃ n : ℕ} (x₁ : (⟨2, ![a, b₁]⟩ : Shape).Idx → α) (x₂ : (⟨2, ![a, b₂]⟩ : Shape).Idx → α)
    (x₃ : (⟨2, ![a, b₃]⟩ : Shape).Idx → α)
    (h : Shape.Concatenates [⟨2, ![a, b₁]⟩, ⟨2, ![a, b₂]⟩, ⟨2, ![a, b₃]⟩] ⟨2, ![a, n]⟩ 1)
    (i : Fin a) (j : Fin n) (k : Fin b₁) (hk : k.val = j.val) :
    concatenate ⟨2, ![a, n]⟩ 1 [⟨⟨2, ![a, b₁]⟩, x₁⟩, ⟨⟨2, ![a, b₂]⟩, x₂⟩, ⟨⟨2, ![a, b₃]⟩, x₃⟩] h (ix2 i j) = x₁ (ix2 i k) :=
  concatenate_apply_piece (t := ⟨2, ![a, n]⟩) 1 [⟨⟨2, ![a, b₁]⟩, x₁⟩, ⟨⟨2, ![a, b₂]⟩, x₂⟩, ⟨⟨2, ![a, b₃]⟩, x₃⟩] h (ix2 i j) 0 (by show (0 : ℕ) < 3; omega) ⟨2, ![a, b₁]⟩ x₁ rfl rfl 0 rfl (ix2 i k)
    (fun b hb => by
      match b with
      | ⟨0, _⟩ => rfl
      | ⟨1, _⟩ => exact absurd rfl hb)
    (by show 0 + k.val = j.val; omega)

/-- A column of the second of three pieces. -/
theorem concat_cols3_second {a b₁ b₂ b₃ n : ℕ} (x₁ : (⟨2, ![a, b₁]⟩ : Shape).Idx → α) (x₂ : (⟨2, ![a, b₂]⟩ : Shape).Idx → α)
    (x₃ : (⟨2, ![a, b₃]⟩ : Shape).Idx → α)
    (h : Shape.Concatenates [⟨2, ![a, b₁]⟩, ⟨2, ![a, b₂]⟩, ⟨2, ![a, b₃]⟩] ⟨2, ![a, n]⟩ 1)
    (i : Fin a) (j : Fin n) (k : Fin b₂) (hk : b₁ + k.val = j.val) :
    concatenate ⟨2, ![a, n]⟩ 1 [⟨⟨2, ![a, b₁]⟩, x₁⟩, ⟨⟨2, ![a, b₂]⟩, x₂⟩, ⟨⟨2, ![a, b₃]⟩, x₃⟩] h (ix2 i j) = x₂ (ix2 i k) :=
  concatenate_apply_piece (t := ⟨2, ![a, n]⟩) 1 [⟨⟨2, ![a, b₁]⟩, x₁⟩, ⟨⟨2, ![a, b₂]⟩, x₂⟩, ⟨⟨2, ![a, b₃]⟩, x₃⟩] h (ix2 i j) 1 (by show (1 : ℕ) < 3; omega) ⟨2, ![a, b₂]⟩ x₂ rfl rfl b₁ (by simp) (ix2 i k)
    (fun b hb => by
      match b with
      | ⟨0, _⟩ => rfl
      | ⟨1, _⟩ => exact absurd rfl hb)
    (by show b₁ + k.val = j.val; exact hk)

/-- A column of the third of three pieces. -/
theorem concat_cols3_third {a b₁ b₂ b₃ n : ℕ} (x₁ : (⟨2, ![a, b₁]⟩ : Shape).Idx → α) (x₂ : (⟨2, ![a, b₂]⟩ : Shape).Idx → α)
    (x₃ : (⟨2, ![a, b₃]⟩ : Shape).Idx → α)
    (h : Shape.Concatenates [⟨2, ![a, b₁]⟩, ⟨2, ![a, b₂]⟩, ⟨2, ![a, b₃]⟩] ⟨2, ![a, n]⟩ 1)
    (i : Fin a) (j : Fin n) (k : Fin b₃) (hk : b₁ + b₂ + k.val = j.val) :
    concatenate ⟨2, ![a, n]⟩ 1 [⟨⟨2, ![a, b₁]⟩, x₁⟩, ⟨⟨2, ![a, b₂]⟩, x₂⟩, ⟨⟨2, ![a, b₃]⟩, x₃⟩] h (ix2 i j) = x₃ (ix2 i k) :=
  concatenate_apply_piece (t := ⟨2, ![a, n]⟩) 1 [⟨⟨2, ![a, b₁]⟩, x₁⟩, ⟨⟨2, ![a, b₂]⟩, x₂⟩, ⟨⟨2, ![a, b₃]⟩, x₃⟩] h (ix2 i j) 2 (by show (2 : ℕ) < 3; omega) ⟨2, ![a, b₃]⟩ x₃ rfl rfl (b₁ + b₂) (by simp) (ix2 i k)
    (fun b hb => by
      match b with
      | ⟨0, _⟩ => rfl
      | ⟨1, _⟩ => exact absurd rfl hb)
    (by show b₁ + b₂ + k.val = j.val; exact hk)

/-! ## Blocks of rows of matrices set side by side -/

/-- Two pieces: if each block piece holds the rows of its whole piece starting at `off`, the block pieces set side by
    side hold those rows of the whole pieces set side by side. -/
theorem concat2_rows_block {n N b₁ b₂ K : ℕ} (hK : b₁ + b₂ = K) (off : ℕ)
    (A : (⟨2, ![N, b₁]⟩ : Shape).Idx → α) (A' : (⟨2, ![N, b₂]⟩ : Shape).Idx → α)
    (Ab : (⟨2, ![n, b₁]⟩ : Shape).Idx → α) (Ab' : (⟨2, ![n, b₂]⟩ : Shape).Idx → α)
    (h : Shape.Concatenates [⟨2, ![N, b₁]⟩, ⟨2, ![N, b₂]⟩] ⟨2, ![N, K]⟩ 1)
    (hb : Shape.Concatenates [⟨2, ![n, b₁]⟩, ⟨2, ![n, b₂]⟩] ⟨2, ![n, K]⟩ 1)
    (r : Fin n) (R : Fin N)
    (hA : ∀ k : Fin b₁, Ab (ix2 r k) = A (ix2 R k)) (hA' : ∀ k : Fin b₂, Ab' (ix2 r k) = A' (ix2 R k)) (k : Fin K) :
    concatenate ⟨2, ![n, K]⟩ 1 [⟨⟨2, ![n, b₁]⟩, Ab⟩, ⟨⟨2, ![n, b₂]⟩, Ab'⟩] hb (ix2 r k)
      = concatenate ⟨2, ![N, K]⟩ 1 [⟨⟨2, ![N, b₁]⟩, A⟩, ⟨⟨2, ![N, b₂]⟩, A'⟩] h (ix2 R k) := by
  have hk := k.isLt
  by_cases h1 : k.val < b₁
  · rw [concat_cols_left Ab Ab' hb r k ⟨k.val, h1⟩ rfl, concat_cols_left A A' h R k ⟨k.val, h1⟩ rfl]
    exact hA _
  · have h2 : k.val - b₁ < b₂ := by omega
    rw [concat_cols_right Ab Ab' hb r k ⟨k.val - b₁, h2⟩ (by show b₁ + (k.val - b₁) = k.val; omega),
      concat_cols_right A A' h R k ⟨k.val - b₁, h2⟩ (by show b₁ + (k.val - b₁) = k.val; omega)]
    exact hA' _

/-- Three pieces: the same. -/
theorem concat3_rows_block {n N b₁ b₂ b₃ K : ℕ} (hK : b₁ + b₂ + b₃ = K) (off : ℕ)
    (A : (⟨2, ![N, b₁]⟩ : Shape).Idx → α) (A' : (⟨2, ![N, b₂]⟩ : Shape).Idx → α) (A'' : (⟨2, ![N, b₃]⟩ : Shape).Idx → α)
    (Ab : (⟨2, ![n, b₁]⟩ : Shape).Idx → α) (Ab' : (⟨2, ![n, b₂]⟩ : Shape).Idx → α) (Ab'' : (⟨2, ![n, b₃]⟩ : Shape).Idx → α)
    (h : Shape.Concatenates [⟨2, ![N, b₁]⟩, ⟨2, ![N, b₂]⟩, ⟨2, ![N, b₃]⟩] ⟨2, ![N, K]⟩ 1)
    (hb : Shape.Concatenates [⟨2, ![n, b₁]⟩, ⟨2, ![n, b₂]⟩, ⟨2, ![n, b₃]⟩] ⟨2, ![n, K]⟩ 1)
    (r : Fin n) (R : Fin N)
    (hA : ∀ k : Fin b₁, Ab (ix2 r k) = A (ix2 R k)) (hA' : ∀ k : Fin b₂, Ab' (ix2 r k) = A' (ix2 R k))
    (hA'' : ∀ k : Fin b₃, Ab'' (ix2 r k) = A'' (ix2 R k)) (k : Fin K) :
    concatenate ⟨2, ![n, K]⟩ 1 [⟨⟨2, ![n, b₁]⟩, Ab⟩, ⟨⟨2, ![n, b₂]⟩, Ab'⟩, ⟨⟨2, ![n, b₃]⟩, Ab''⟩] hb (ix2 r k)
      = concatenate ⟨2, ![N, K]⟩ 1 [⟨⟨2, ![N, b₁]⟩, A⟩, ⟨⟨2, ![N, b₂]⟩, A'⟩, ⟨⟨2, ![N, b₃]⟩, A''⟩] h (ix2 R k) := by
  have hk := k.isLt
  by_cases h1 : k.val < b₁
  · rw [concat_cols3_first Ab Ab' Ab'' hb r k ⟨k.val, h1⟩ rfl, concat_cols3_first A A' A'' h R k ⟨k.val, h1⟩ rfl]
    exact hA _
  · by_cases h2 : k.val < b₁ + b₂
    · have h3 : k.val - b₁ < b₂ := by omega
      rw [concat_cols3_second Ab Ab' Ab'' hb r k ⟨k.val - b₁, h3⟩ (by show b₁ + (k.val - b₁) = k.val; omega),
        concat_cols3_second A A' A'' h R k ⟨k.val - b₁, h3⟩ (by show b₁ + (k.val - b₁) = k.val; omega)]
      exact hA' _
    · have h3 : k.val - (b₁ + b₂) < b₃ := by omega
      rw [concat_cols3_third Ab Ab' Ab'' hb r k ⟨k.val - (b₁ + b₂), h3⟩ (by show b₁ + b₂ + (k.val - (b₁ + b₂)) = k.val; omega),
        concat_cols3_third A A' A'' h R k ⟨k.val - (b₁ + b₂), h3⟩ (by show b₁ + b₂ + (k.val - (b₁ + b₂)) = k.val; omega)]
      exact hA'' _

end Cert.Lib.DenseLayer

end
-- ==== Proof.LibPerceptron.lean ====
/-
  One layer of a perceptron read at an entry, for any sizes.

  A layer takes an `n × K` input `X`, a `K × C` weight matrix `W` and a bias VECTOR `b` of length `C`. Its affine
  part at `(p, q)` is the sum over `k` of `X (p, k) * W (k, q)`, plus `b q`; the rectified layer is the larger of that
  and zero (zero being the f32 word `0x00000000`, kept as a word). Both depend on `X` through row `p` only.

  Two spellings of a layer are that entry:
  * a kernel body's — the product, accumulated into zero, of the input and the weights narrowed to a shorter float
    format (the identity on extended reals), plus the bias laid out as a `1 × C` row and spread down the `n` rows,
    and for the rectified layer the maximum with zero spread over the whole `n × C` shape;
  * a host program's — the host matrix product plus the bias laid out as a `1 × C` row and then spread to `n × C`,
    and for the rectified layer the maximum with a scalar zero spread to `n × C`.

  Three layers stacked (rectified, rectified, affine), each fed the table of the one before, are `mlp3At`; it is
  computed row by row, and both spellings of the stack are it, entry by entry.
-/
import Mathlib.Algebra.BigOperators.Fin
import Idealize.ShloMosaic.Lib.Pipeline.Value
import Idealize.ShloMosaic.Lib.ValueIdx
import Idealize.ShloMosaic.Lib.ValueLayout
import Idealize.ShloMosaic.PureOps.Ideal.Laws
import proofs.«102918_j30047591203218_2_alg».proof.Proof.LibTwoBlocks
import proofs.«102918_j30047591203218_2_alg».proof.Proof.LibDenseLayer

noncomputable section

open scoped BigOperators

namespace Cert.Lib.Perceptron

open Idealize.ShloMosaic Idealize.ShloMosaic.ValueIdx Cert.Lib.TwoBlocks Cert.Lib.DenseLayer

/-! ## The layer -/

/-- An `a × b` table given entry by entry. -/
def table {a b : ℕ} (f : Fin a → Fin b → EReal) : (⟨2, ![a, b]⟩ : Shape).Idx → EReal := fun j => f (j 0) (j 1)

theorem table_ix2 {a b : ℕ} (f : Fin a → Fin b → EReal) (p : Fin a) (q : Fin b) : table f (ix2 p q) = f p q := rfl

/-- Zero, as the f32 word both spellings print. -/
def zeroWord : EReal := Ideal.ofBits .f32 0x00000000#32

/-- Entry `(p, q)` of the affine part: row `p` of `X` against column `q` of `W`, plus `b q`. -/
def affineAt {n K C : ℕ} (X : (⟨2, ![n, K]⟩ : Shape).Idx → EReal) (W : (⟨2, ![K, C]⟩ : Shape).Idx → EReal)
    (b : (⟨1, ![C]⟩ : Shape).Idx → EReal) (p : Fin n) (q : Fin C) : EReal :=
  (∑ k : Fin K, X (ix2 p k) * W (ix2 k q)) + b (ix1 q)

/-- Entry `(p, q)` of the rectified layer: the larger of the affine part and zero. -/
def reluAt {n K C : ℕ} (X : (⟨2, ![n, K]⟩ : Shape).Idx → EReal) (W : (⟨2, ![K, C]⟩ : Shape).Idx → EReal)
    (b : (⟨1, ![C]⟩ : Shape).Idx → EReal) (p : Fin n) (q : Fin C) : EReal :=
  max (affineAt X W b p q) zeroWord

/-- The affine part reads its input through one row: two inputs, of any heights, that agree on row `p` of one and
    row `p'` of the other give the same entry. -/
theorem affineAt_congr {n n' K C : ℕ} (X : (⟨2, ![n, K]⟩ : Shape).Idx → EReal) (X' : (⟨2, ![n', K]⟩ : Shape).Idx → EReal)
    (W : (⟨2, ![K, C]⟩ : Shape).Idx → EReal) (b : (⟨1, ![C]⟩ : Shape).Idx → EReal) (p : Fin n) (p' : Fin n') (q : Fin C)
    (hX : ∀ k : Fin K, X (ix2 p k) = X' (ix2 p' k)) : affineAt X W b p q = affineAt X' W b p' q := by
  unfold affineAt
  exact congrArg (· + b (ix1 q)) (Finset.sum_congr rfl fun k _ => by rw [hX k])

/-- So does the rectified layer. -/
theorem reluAt_congr {n n' K C : ℕ} (X : (⟨2, ![n, K]⟩ : Shape).Idx → EReal) (X' : (⟨2, ![n', K]⟩ : Shape).Idx → EReal)
    (W : (⟨2, ![K, C]⟩ : Shape).Idx → EReal) (b : (⟨1, ![C]⟩ : Shape).Idx → EReal) (p : Fin n) (p' : Fin n') (q : Fin C)
    (hX : ∀ k : Fin K, X (ix2 p k) = X' (ix2 p' k)) : reluAt X W b p q = reluAt X' W b p' q := by
  unfold reluAt
  rw [affineAt_congr X X' W b p p' q hX]

/-! ## A kernel body's spelling -/

/-- The product into zero of the narrowed operands, plus the bias vector laid out as a row and spread down the rows,
    is the affine part, entry by entry. -/
theorem body_affine_entry {n K C : ℕ} {ψ : FTy} (D : DotDims ⟨2, ![n, K]⟩ ⟨2, ![K, C]⟩ ⟨2, ![n, C]⟩)
    (hD : D = DotDims.plain n K C) (prec : Option ContractPrecision)
    (X : FVec Ideal ⟨2, ![n, K]⟩ .f32) (W : FVec Ideal ⟨2, ![K, C]⟩ .f32) (b : FVec Ideal ⟨1, ![C]⟩ .f32)
    (hlt : ψ.bits < FTy.f32.bits) (hsc : (⟨1, ![C]⟩ : Shape).ShapeCasts ⟨2, ![1, C]⟩)
    (hbc : (⟨2, ![1, C]⟩ : Shape).Broadcasts ⟨2, ![n, C]⟩) (p : Fin n) (q : Fin C) :
    addf (matmul D prec (truncf ψ X hlt) (truncf ψ W hlt) (constant ⟨2, ![n, C]⟩ .f32 0x00000000#32))
        (broadcastTo ⟨2, ![n, C]⟩ (shapeCast ⟨2, ![1, C]⟩ b hsc) hbc) (ix2 p q)
      = affineAt X W b p q := by
  rw [addf_apply, plain_matmul_zero_apply D hD prec _ _ p q, broadcastTo_1b_ab_apply, shapeCast_a_1a_apply]
  rfl

/-- The same followed by the maximum with zero spread over the whole shape is the rectified layer. -/
theorem body_relu_entry {n K C : ℕ} {ψ : FTy} (D : DotDims ⟨2, ![n, K]⟩ ⟨2, ![K, C]⟩ ⟨2, ![n, C]⟩)
    (hD : D = DotDims.plain n K C) (prec : Option ContractPrecision)
    (X : FVec Ideal ⟨2, ![n, K]⟩ .f32) (W : FVec Ideal ⟨2, ![K, C]⟩ .f32) (b : FVec Ideal ⟨1, ![C]⟩ .f32)
    (hlt : ψ.bits < FTy.f32.bits) (hsc : (⟨1, ![C]⟩ : Shape).ShapeCasts ⟨2, ![1, C]⟩)
    (hbc : (⟨2, ![1, C]⟩ : Shape).Broadcasts ⟨2, ![n, C]⟩) (p : Fin n) (q : Fin C) :
    maximumf
        (addf (matmul D prec (truncf ψ X hlt) (truncf ψ W hlt) (constant ⟨2, ![n, C]⟩ .f32 0x00000000#32))
          (broadcastTo ⟨2, ![n, C]⟩ (shapeCast ⟨2, ![1, C]⟩ b hsc) hbc))
        (broadcast ⟨2, ![n, C]⟩ (Scalar.ofBits (F := Ideal) .f32 0x00000000#32)) (ix2 p q)
      = reluAt X W b p q := by
  rw [maximumf_apply, body_affine_entry D hD prec X W b hlt hsc hbc p q]
  rfl

/-! ## A host program's spelling -/

/-- The host matrix product plus the bias vector laid out as a row and then spread to `n × C` is the affine part,
    entry by entry. -/
theorem host_affine_entry {n K C : ℕ} (D : DotDims ⟨2, ![n, K]⟩ ⟨2, ![K, C]⟩ ⟨2, ![n, C]⟩)
    (hD : D = DotDims.plain n K C) (prec : Option ContractPrecision)
    (X : FVec Ideal ⟨2, ![n, K]⟩ .f32) (W : FVec Ideal ⟨2, ![K, C]⟩ .f32) (b : FVec Ideal ⟨1, ![C]⟩ .f32)
    (h1 : (⟨1, ![C]⟩ : Shape).BroadcastsInDim ⟨2, ![1, C]⟩ ![1])
    (h2 : (⟨2, ![1, C]⟩ : Shape).BroadcastsInDim ⟨2, ![n, C]⟩ ![0, 1]) (p : Fin n) (q : Fin C) :
    addf (Host.dotGeneral D prec X W)
        (broadcastInDim ⟨2, ![n, C]⟩ ![0, 1] h2 (broadcastInDim ⟨2, ![1, C]⟩ ![1] h1 b)) (ix2 p q)
      = affineAt X W b p q := by
  rw [addf_apply, plain_dotGeneral_apply D hD prec X W p q]
  unfold affineAt
  refine congrArg₂ (· + ·) rfl ?_
  refine (broadcastInDim_apply ![0, 1] h2 _ (ix2 p q) (ix2 (0 : Fin 1) q) fun a => ?_).trans ?_
  · match a with
    | ⟨0, _⟩ => exact (if_pos rfl).symm
    | ⟨1, _⟩ =>
      show q.val = if C = 1 then 0 else q.val
      have hq := q.isLt
      split <;> omega
  · refine broadcastInDim_apply ![1] h1 b (ix2 (0 : Fin 1) q) (ix1 q) fun a => ?_
    match a with
    | ⟨0, _⟩ =>
      show q.val = if C = 1 then 0 else q.val
      have hq := q.isLt
      split <;> omega

/-- The same followed by the maximum with a scalar zero spread to `n × C` is the rectified layer. -/
theorem host_relu_entry {n K C : ℕ} (D : DotDims ⟨2, ![n, K]⟩ ⟨2, ![K, C]⟩ ⟨2, ![n, C]⟩)
    (hD : D = DotDims.plain n K C) (prec : Option ContractPrecision)
    (X : FVec Ideal ⟨2, ![n, K]⟩ .f32) (W : FVec Ideal ⟨2, ![K, C]⟩ .f32) (b : FVec Ideal ⟨1, ![C]⟩ .f32)
    (h1 : (⟨1, ![C]⟩ : Shape).BroadcastsInDim ⟨2, ![1, C]⟩ ![1])
    (h2 : (⟨2, ![1, C]⟩ : Shape).BroadcastsInDim ⟨2, ![n, C]⟩ ![0, 1])
    (h0 : (⟨0, ![]⟩ : Shape).BroadcastsInDim ⟨2, ![n, C]⟩ ![]) (p : Fin n) (q : Fin C) :
    maximumf
        (addf (Host.dotGeneral D prec X W)
          (broadcastInDim ⟨2, ![n, C]⟩ ![0, 1] h2 (broadcastInDim ⟨2, ![1, C]⟩ ![1] h1 b)))
        (broadcastInDim ⟨2, ![n, C]⟩ ![] h0 (constant (F := Ideal) ⟨0, ![]⟩ .f32 0x00000000#32)) (ix2 p q)
      = reluAt X W b p q := by
  rw [maximumf_apply, host_affine_entry D hD prec X W b h1 h2 p q]
  rfl

/-! ## Three layers -/

/-- Entry `(p, q)` of a three-layer perceptron: two rectified layers and an affine one, each fed the table of the
    one before. -/
def mlp3At {n d0 d1 d2 d3 : ℕ} (X : (⟨2, ![n, d0]⟩ : Shape).Idx → EReal)
    (W1 : (⟨2, ![d0, d1]⟩ : Shape).Idx → EReal) (b1 : (⟨1, ![d1]⟩ : Shape).Idx → EReal)
    (W2 : (⟨2, ![d1, d2]⟩ : Shape).Idx → EReal) (b2 : (⟨1, ![d2]⟩ : Shape).Idx → EReal)
    (W3 : (⟨2, ![d2, d3]⟩ : Shape).Idx → EReal) (b3 : (⟨1, ![d3]⟩ : Shape).Idx → EReal) (p : Fin n) (q : Fin d3) : EReal :=
  affineAt (table (reluAt (table (reluAt X W1 b1)) W2 b2)) W3 b3 p q

/-- The perceptron is computed row by row: two inputs, of any heights, that agree on row `p` of one and row `p'` of
    the other give the same entry. -/
theorem mlp3At_congr {n n' d0 d1 d2 d3 : ℕ} (X : (⟨2, ![n, d0]⟩ : Shape).Idx → EReal) (X' : (⟨2, ![n', d0]⟩ : Shape).Idx → EReal)
    (W1 : (⟨2, ![d0, d1]⟩ : Shape).Idx → EReal) (b1 : (⟨1, ![d1]⟩ : Shape).Idx → EReal)
    (W2 : (⟨2, ![d1, d2]⟩ : Shape).Idx → EReal) (b2 : (⟨1, ![d2]⟩ : Shape).Idx → EReal)
    (W3 : (⟨2, ![d2, d3]⟩ : Shape).Idx → EReal) (b3 : (⟨1, ![d3]⟩ : Shape).Idx → EReal) (p : Fin n) (p' : Fin n') (q : Fin d3)
    (hX : ∀ k : Fin d0, X (ix2 p k) = X' (ix2 p' k)) :
    mlp3At X W1 b1 W2 b2 W3 b3 p q = mlp3At X' W1 b1 W2 b2 W3 b3 p' q := by
  unfold mlp3At
  refine affineAt_congr _ _ W3 b3 p p' q fun k => ?_
  rw [table_ix2, table_ix2]
  refine reluAt_congr _ _ W2 b2 p p' k fun k' => ?_
  rw [table_ix2, table_ix2]
  exact reluAt_congr X X' W1 b1 p p' k' hX

/-- A kernel body's spelling of the three layers, each fed the narrowed result of the one before, is the perceptron,
    entry by entry. -/
theorem body_mlp3_entry {n d0 d1 d2 d3 : ℕ} {ψ : FTy}
    (D1 : DotDims ⟨2, ![n, d0]⟩ ⟨2, ![d0, d1]⟩ ⟨2, ![n, d1]⟩) (hD1 : D1 = DotDims.plain n d0 d1)
    (D2 : DotDims ⟨2, ![n, d1]⟩ ⟨2, ![d1, d2]⟩ ⟨2, ![n, d2]⟩) (hD2 : D2 = DotDims.plain n d1 d2)
    (D3 : DotDims ⟨2, ![n, d2]⟩ ⟨2, ![d2, d3]⟩ ⟨2, ![n, d3]⟩) (hD3 : D3 = DotDims.plain n d2 d3)
    (prec : Option ContractPrecision) (X : FVec Ideal ⟨2, ![n, d0]⟩ .f32)
    (W1 : FVec Ideal ⟨2, ![d0, d1]⟩ .f32) (b1 : FVec Ideal ⟨1, ![d1]⟩ .f32)
    (W2 : FVec Ideal ⟨2, ![d1, d2]⟩ .f32) (b2 : FVec Ideal ⟨1, ![d2]⟩ .f32)
    (W3 : FVec Ideal ⟨2, ![d2, d3]⟩ .f32) (b3 : FVec Ideal ⟨1, ![d3]⟩ .f32) (hlt : ψ.bits < FTy.f32.bits)
    (hsc1 : (⟨1, ![d1]⟩ : Shape).ShapeCasts ⟨2, ![1, d1]⟩) (hbc1 : (⟨2, ![1, d1]⟩ : Shape).Broadcasts ⟨2, ![n, d1]⟩)
    (hsc2 : (⟨1, ![d2]⟩ : Shape).ShapeCasts ⟨2, ![1, d2]⟩) (hbc2 : (⟨2, ![1, d2]⟩ : Shape).Broadcasts ⟨2, ![n, d2]⟩)
    (hsc3 : (⟨1, ![d3]⟩ : Shape).ShapeCasts ⟨2, ![1, d3]⟩) (hbc3 : (⟨2, ![1, d3]⟩ : Shape).Broadcasts ⟨2, ![n, d3]⟩)
    (p : Fin n) (q : Fin d3) :
    addf
        (matmul D3 prec
          (truncf ψ
            (maximumf
              (addf
                (matmul D2 prec
                  (truncf ψ
                    (maximumf
                      (addf (matmul D1 prec (truncf ψ X hlt) (truncf ψ W1 hlt) (constant ⟨2, ![n, d1]⟩ .f32 0x00000000#32))
                        (broadcastTo ⟨2, ![n, d1]⟩ (shapeCast ⟨2, ![1, d1]⟩ b1 hsc1) hbc1))
                      (broadcast ⟨2, ![n, d1]⟩ (Scalar.ofBits (F := Ideal) .f32 0x00000000#32)))
                    hlt)
                  (truncf ψ W2 hlt) (constant ⟨2, ![n, d2]⟩ .f32 0x00000000#32))
                (broadcastTo ⟨2, ![n, d2]⟩ (shapeCast ⟨2, ![1, d2]⟩ b2 hsc2) hbc2))
              (broadcast ⟨2, ![n, d2]⟩ (Scalar.ofBits (F := Ideal) .f32 0x00000000#32)))
            hlt)
          (truncf ψ W3 hlt) (constant ⟨2, ![n, d3]⟩ .f32 0x00000000#32))
        (broadcastTo ⟨2, ![n, d3]⟩ (shapeCast ⟨2, ![1, d3]⟩ b3 hsc3) hbc3) (ix2 p q)
      = mlp3At X W1 b1 W2 b2 W3 b3 p q := by
  rw [body_affine_entry D3 hD3 prec _ W3 b3 hlt hsc3 hbc3 p q]
  unfold mlp3At
  refine affineAt_congr _ _ W3 b3 p p q fun k => ?_
  rw [table_ix2, body_relu_entry D2 hD2 prec _ W2 b2 hlt hsc2 hbc2 p k]
  refine reluAt_congr _ _ W2 b2 p p k fun k' => ?_
  rw [table_ix2, body_relu_entry D1 hD1 prec X W1 b1 hlt hsc1 hbc1 p k']

/-- A host program's spelling of the three layers is the perceptron, entry by entry. -/
theorem host_mlp3_entry {n d0 d1 d2 d3 : ℕ}
    (D1 : DotDims ⟨2, ![n, d0]⟩ ⟨2, ![d0, d1]⟩ ⟨2, ![n, d1]⟩) (hD1 : D1 = DotDims.plain n d0 d1)
    (D2 : DotDims ⟨2, ![n, d1]⟩ ⟨2, ![d1, d2]⟩ ⟨2, ![n, d2]⟩) (hD2 : D2 = DotDims.plain n d1 d2)
    (D3 : DotDims ⟨2, ![n, d2]⟩ ⟨2, ![d2, d3]⟩ ⟨2, ![n, d3]⟩) (hD3 : D3 = DotDims.plain n d2 d3)
    (prec : Option ContractPrecision) (X : FVec Ideal ⟨2, ![n, d0]⟩ .f32)
    (W1 : FVec Ideal ⟨2, ![d0, d1]⟩ .f32) (b1 : FVec Ideal ⟨1, ![d1]⟩ .f32)
    (W2 : FVec Ideal ⟨2, ![d1, d2]⟩ .f32) (b2 : FVec Ideal ⟨1, ![d2]⟩ .f32)
    (W3 : FVec Ideal ⟨2, ![d2, d3]⟩ .f32) (b3 : FVec Ideal ⟨1, ![d3]⟩ .f32)
    (h11 : (⟨1, ![d1]⟩ : Shape).BroadcastsInDim ⟨2, ![1, d1]⟩ ![1]) (h12 : (⟨2, ![1, d1]⟩ : Shape).BroadcastsInDim ⟨2, ![n, d1]⟩ ![0, 1])
    (h10 : (⟨0, ![]⟩ : Shape).BroadcastsInDim ⟨2, ![n, d1]⟩ ![])
    (h21 : (⟨1, ![d2]⟩ : Shape).BroadcastsInDim ⟨2, ![1, d2]⟩ ![1]) (h22 : (⟨2, ![1, d2]⟩ : Shape).BroadcastsInDim ⟨2, ![n, d2]⟩ ![0, 1])
    (h20 : (⟨0, ![]⟩ : Shape).BroadcastsInDim ⟨2, ![n, d2]⟩ ![])
    (h31 : (⟨1, ![d3]⟩ : Shape).BroadcastsInDim ⟨2, ![1, d3]⟩ ![1]) (h32 : (⟨2, ![1, d3]⟩ : Shape).BroadcastsInDim ⟨2, ![n, d3]⟩ ![0, 1])
    (p : Fin n) (q : Fin d3) :
    addf
        (Host.dotGeneral D3 prec
          (maximumf
            (addf
              (Host.dotGeneral D2 prec
                (maximumf
                  (addf (Host.dotGeneral D1 prec X W1)
                    (broadcastInDim ⟨2, ![n, d1]⟩ ![0, 1] h12 (broadcastInDim ⟨2, ![1, d1]⟩ ![1] h11 b1)))
                  (broadcastInDim ⟨2, ![n, d1]⟩ ![] h10 (constant (F := Ideal) ⟨0, ![]⟩ .f32 0x00000000#32)))
                W2)
              (broadcastInDim ⟨2, ![n, d2]⟩ ![0, 1] h22 (broadcastInDim ⟨2, ![1, d2]⟩ ![1] h21 b2)))
            (broadcastInDim ⟨2, ![n, d2]⟩ ![] h20 (constant (F := Ideal) ⟨0, ![]⟩ .f32 0x00000000#32)))
          W3)
        (broadcastInDim ⟨2, ![n, d3]⟩ ![0, 1] h32 (broadcastInDim ⟨2, ![1, d3]⟩ ![1] h31 b3)) (ix2 p q)
      = mlp3At X W1 b1 W2 b2 W3 b3 p q := by
  rw [host_affine_entry D3 hD3 prec _ W3 b3 h31 h32 p q]
  unfold mlp3At
  refine affineAt_congr _ _ W3 b3 p p q fun k => ?_
  rw [table_ix2, host_relu_entry D2 hD2 prec _ W2 b2 h21 h22 h20 p k]
  refine reluAt_congr _ _ W2 b2 p p k fun k' => ?_
  rw [table_ix2, host_relu_entry D1 hD1 prec X W1 b1 h11 h12 h10 p k']

end Cert.Lib.Perceptron

end
-- ==== Proof.DecoderSpec.lean ====
/-
  The decoder as mathematics, over the extended reals, for any sizes.

  Two results. The edge logits of a stack of graphs: entry (g, i, j) is the inner product of rows i and j of graph g's
  latent table, plus one bias. The node logits: a rectified input layer, then four rounds of message passing — a
  rectified message layer, an aggregation of messages along the edges (kept abstract here: a map of tables),
  a rectified update layer added back onto the state — and an affine read-out.

  Every dense layer is read entry by entry (LibPerceptron's affineAt / reluAt: row p of the input against column q
  of the weights, plus the bias at q, and for a rectified layer the larger of that and zero), so each layer depends on
  its input through one row only; that is what lets a row block of a table be computed from the same row block of
  its input.
-/
import Mathlib.Algebra.BigOperators.Fin
import Idealize.ShloMosaic.Lib.ValueIdx
import Idealize.ShloMosaic.PureOps.Ideal
import proofs.«102918_j30047591203218_2_alg».proof.Proof.LibPerceptron

noncomputable section

open scoped BigOperators

namespace Cert.Decoder

open Idealize.ShloMosaic Idealize.ShloMosaic.ValueIdx Cert.Lib.Perceptron

/-- An a × b table of extended reals. -/
abbrev Mat (a b : ℕ) : Type := (⟨2, ![a, b]⟩ : Shape).Idx → EReal
/-- A vector of a extended reals. -/
abbrev Vect (a : ℕ) : Type := (⟨1, ![a]⟩ : Shape).Idx → EReal
/-- A stack of g tables, each a × b. -/
abbrev Stack (g a b : ℕ) : Type := (⟨3, ![g, a, b]⟩ : Shape).Idx → EReal

/-- A rectified dense layer: max (X·W + b, 0), as a table. -/
def rectified {n K C : ℕ} (X : Mat n K) (W : Mat K C) (b : Vect C) : Mat n C := table (reluAt X W b)

/-- An affine layer: X·W + b, as a table. -/
def readout {n K C : ℕ} (X : Mat n K) (W : Mat K C) (b : Vect C) : Mat n C := table (affineAt X W b)

/-- A residual update: the state plus a rectified layer of the aggregated messages. -/
def residual {n K : ℕ} (S A : Mat n K) (W : Mat K K) (b : Vect K) : Mat n K := fun j => S j + rectified A W b j

theorem rectified_ix2 {n K C : ℕ} (X : Mat n K) (W : Mat K C) (b : Vect C) (p : Fin n) (q : Fin C) :
    rectified X W b (ix2 p q) = reluAt X W b p q := rfl

theorem readout_ix2 {n K C : ℕ} (X : Mat n K) (W : Mat K C) (b : Vect C) (p : Fin n) (q : Fin C) :
    readout X W b (ix2 p q) = affineAt X W b p q := rfl

theorem residual_ix2 {n K : ℕ} (S A : Mat n K) (W : Mat K K) (b : Vect K) (p : Fin n) (q : Fin K) :
    residual S A W b (ix2 p q) = S (ix2 p q) + reluAt A W b p q := rfl

/-- One round of message passing: messages are a rectified layer of the state, `agg` sums them along the edges, and
    the state takes a residual update from the sums. -/
def round {n K : ℕ} (agg : Mat n K → Mat n K) (S : Mat n K) (Wm : Mat K K) (bm : Vect K) (Wu : Mat K K) (bu : Vect K) :
    Mat n K :=
  residual S (agg (rectified S Wm bm)) Wu bu

/-- The node logits: input layer, four rounds, read-out. -/
def nodeLogits {n M H C : ℕ} (agg : Mat n H → Mat n H) (z : Mat n M) (Win : Mat M H) (bin : Vect H)
    (Wm : Fin 4 → Mat H H) (bm : Fin 4 → Vect H) (Wu : Fin 4 → Mat H H) (bu : Fin 4 → Vect H)
    (Wout : Mat H C) (bout : Vect C) : Mat n C :=
  readout
    (round agg (round agg (round agg (round agg (rectified z Win bin) (Wm 0) (bm 0) (Wu 0) (bu 0))
      (Wm 1) (bm 1) (Wu 1) (bu 1)) (Wm 2) (bm 2) (Wu 2) (bu 2)) (Wm 3) (bm 3) (Wu 3) (bu 3))
    Wout bout

/-- The edge logits: entry (g, i, j) is the inner product of rows i and j of table g, plus the one bias. -/
def edgeLogits {g n m : ℕ} (Z : Stack g n m) (β : Vect 1) : Stack g n n :=
  fun j => (∑ c : Fin m, Z (ix3 (j 0) (j 1) c) * Z (ix3 (j 0) (j 2) c)) + β (ix1 0)

theorem edgeLogits_ix3 {g n m : ℕ} (Z : Stack g n m) (β : Vect 1) (t : Fin g) (i j : Fin n) :
    edgeLogits Z β (ix3 t i j) = (∑ c : Fin m, Z (ix3 t i c) * Z (ix3 t j c)) + β (ix1 0) := rfl

end Cert.Decoder

end
-- ==== Proof.DecoderHost.lean ====
/-
  The parts of the decoder that both programs run as whole-array operations, named once: the two rows of the edge
  list, the aggregation of a message table along the edges, and the four slabs of a stacked weight array.

  Aggregation: every edge (u, v) looks up row u of the message table (a negative u counts from the end of the
  table) and adds it into row v of a table of zeros. It is kept as the array operations themselves — a look-up of rows
  and an add-into — and never opened: both programs apply the same operations to their message tables.
-/
import proofs.«102918_j30047591203218_2_alg».proof.KernelIdeal
import proofs.«102918_j30047591203218_2_alg».proof.Proof.Gen.KernelIdeal
import proofs.«102918_j30047591203218_2_alg».proof.Proof.DecoderSpec

noncomputable section

namespace Cert.Decoder

open Idealize.ShloMosaic Cert.KernelIdeal Cert.KernelIdeal.Gen

/-- The edge list: two rows of node numbers, sources above targets. -/
abbrev Edges : Type := (⟨S2x800000, .i32⟩ : BufTy).Contents (Elt Ideal)
/-- One row of the edge list. -/
abbrev Nodes : Type := (⟨S800000, .i32⟩ : BufTy).Contents (Elt Ideal)
/-- Four square weight matrices, stacked. -/
abbrev Slabs : Type := (⟨S4x128x128, .f32⟩ : BufTy).Contents (Elt Ideal)
/-- Four bias vectors, stacked. -/
abbrev Rows : Type := (⟨S4x128, .f32⟩ : BufTy).Contents (Elt Ideal)
/-- A table with one row per node. -/
abbrev NodeTable : Type := (⟨S50000x128, .f32⟩ : BufTy).Contents (Elt Ideal)

/-- The source node of every edge. -/
def sources (ei : Edges) : Nodes :=
  shapeCast S800000 (extractStridedSlice S1x800000 ![0, 0] ei slices_S2x800000_S1x800000_0_0) shapeCasts_S1x800000_S800000

/-- The target node of every edge. -/
def targets (ei : Edges) : Nodes :=
  shapeCast S800000 (extractStridedSlice S1x800000 ![1, 0] ei slices_S2x800000_S1x800000_1_0) shapeCasts_S1x800000_S800000

/-- The source numbers with a negative one counted from the end of the table, as a column. -/
def sourceColumn (ei : Edges) : (⟨S800000x1, .i32⟩ : BufTy).Contents (Elt Ideal) :=
  broadcastInDim S800000x1 ![0] bcast_S800000_S800000x1_0
    (select (cmpi .slt (sources ei) (broadcastInDim S800000 ![] bcast_S_S800000 (constantI S_ 32 0#32) : Nodes))
      (addi (sources ei) (broadcastInDim S800000 ![] bcast_S_S800000 (constantI S_ 32 50000#32) : Nodes)) (sources ei) : Nodes)

/-- The target numbers as a column. -/
def targetColumn (ei : Edges) : (⟨S800000x1, .i32⟩ : BufTy).Contents (Elt Ideal) :=
  broadcastInDim S800000x1 ![0] bcast_S800000_S800000x1_0 (targets ei)

/-- The messages summed along the edges: row v of the result is the sum of the rows u of the message table over
    the edges (u, v). -/
def aggregate (ei : Edges) (msg : NodeTable) : NodeTable :=
  Host.scatterAdd (F := Ideal) (φ := .f32) scatter_S50000x128_S800000x1_S800000x128_1_0_0_1
    (broadcastInDim S50000x128 ![] bcast_S_S50000x128 (constant (F := Ideal) S_ .f32 0x00000000#32) : NodeTable)
    (targetColumn ei)
    (Host.gather gather_S50000x128_S800000x1_S800000x128_1_0_n_n_0_1_1128 msg (sourceColumn ei)
      : (⟨S800000x128, .f32⟩ : BufTy).Contents (Elt Ideal))

/-- Slab r of a stack of four square matrices. -/
def slab (W : Slabs) : Fin 4 → (⟨S128x128, .f32⟩ : BufTy).Contents (Elt Ideal) :=
  ![shapeCast S128x128 (extractStridedSlice S1x128x128 ![0, 0, 0] W slices_S4x128x128_S1x128x128_0_0_0) shapeCasts_S1x128x128_S128x128,
    shapeCast S128x128 (extractStridedSlice S1x128x128 ![1, 0, 0] W slices_S4x128x128_S1x128x128_1_0_0) shapeCasts_S1x128x128_S128x128,
    shapeCast S128x128 (extractStridedSlice S1x128x128 ![2, 0, 0] W slices_S4x128x128_S1x128x128_2_0_0) shapeCasts_S1x128x128_S128x128,
    shapeCast S128x128 (extractStridedSlice S1x128x128 ![3, 0, 0] W slices_S4x128x128_S1x128x128_3_0_0) shapeCasts_S1x128x128_S128x128]

/-- Row r of a stack of four vectors. -/
def row (b : Rows) : Fin 4 → (⟨S128, .f32⟩ : BufTy).Contents (Elt Ideal) :=
  ![shapeCast S128 (extractStridedSlice S1x128 ![0, 0] b slices_S4x128_S1x128_0_0) shapeCasts_S1x128_S128,
    shapeCast S128 (extractStridedSlice S1x128 ![1, 0] b slices_S4x128_S1x128_1_0) shapeCasts_S1x128_S128,
    shapeCast S128 (extractStridedSlice S1x128 ![2, 0] b slices_S4x128_S1x128_2_0) shapeCasts_S1x128_S128,
    shapeCast S128 (extractStridedSlice S1x128 ![3, 0] b slices_S4x128_S1x128_3_0) shapeCasts_S1x128_S128]

/-- The node logits of this decoder: 50000 nodes, 64 latent and 128 hidden features, 7 classes, the messages
    aggregated along the given edges. -/
def decoderNodes (z : (⟨S50000x64, .f32⟩ : BufTy).Contents (Elt Ideal)) (ei : Edges)
    (Win : (⟨S64x128, .f32⟩ : BufTy).Contents (Elt Ideal)) (bin : (⟨S128, .f32⟩ : BufTy).Contents (Elt Ideal))
    (Wmsg : Slabs) (bmsg : Rows) (Wupd : Slabs) (bupd : Rows)
    (Wout : (⟨S128x7, .f32⟩ : BufTy).Contents (Elt Ideal)) (bout : (⟨S7, .f32⟩ : BufTy).Contents (Elt Ideal)) :
    (⟨S50000x7, .f32⟩ : BufTy).Contents (Elt Ideal) :=
  nodeLogits (n := 50000) (M := 64) (H := 128) (C := 7) (aggregate ei) z Win bin (slab Wmsg) (row bmsg) (slab Wupd) (row bupd) Wout bout

/-- The edge logits of this decoder: 32 graphs of 512 nodes with 64 latent features. -/
def decoderEdges (zd : (⟨S32x512x64, .f32⟩ : BufTy).Contents (Elt Ideal)) (bias : (⟨S1, .f32⟩ : BufTy).Contents (Elt Ideal)) :
    (⟨S32x512x512, .f32⟩ : BufTy).Contents (Elt Ideal) :=
  edgeLogits (g := 32) (n := 512) (m := 64) zd bias

end Cert.Decoder

end
-- ==== Proof.LibScatter.lean ====
import Idealize.ShloMosaic.PureOps

/-!
# A scatter read at one index

`Host.scatter` is a left fold, over the update indices in row-major order, of "replace the operand's element at
the update's result index by the body applied to it and the update". Read at ONE operand index `k` the fold is
easy whenever at most one update lands on `k`:

* no update lands on `k`: the element is the operand's;
* exactly one update `j` lands on `k`: the element is the body applied to the operand's element and update `j`.

Both are statements about a left fold of point updates over a duplicate-free list, proved once for an abstract
step function and then read off `Host.scatter`'s definition.
-/

namespace Idealize.ShloMosaic.ScatterRead

section Fold

variable {ι κ α : Type} (step : (κ → α) → ι → (κ → α)) (ρ : ι → Option κ) (g : ι → α) (f : α → α → α) (k : κ)

/-- A fold of steps none of which touches `k` leaves the element at `k` alone. -/
theorem foldl_apply_of_forall_ne (hmiss : ∀ r n, ρ n ≠ some k → step r n k = r k) :
    ∀ (L : List ι) (r : κ → α), (∀ n ∈ L, ρ n ≠ some k) → L.foldl step r k = r k
  | [], _, _ => rfl
  | a :: L, r, h => by
    rw [List.foldl_cons, foldl_apply_of_forall_ne hmiss L (step r a) fun n hn => h n (List.mem_cons_of_mem _ hn)]
    exact hmiss r a (h a List.mem_cons_self)

/-- A fold over a duplicate-free list in which exactly one step `j` touches `k` applies that step's body there. -/
theorem foldl_apply_of_unique (hmiss : ∀ r n, ρ n ≠ some k → step r n k = r k)
    (hhit : ∀ r n, ρ n = some k → step r n k = f (r k) (g n)) (j : ι) (hj : ρ j = some k) :
    ∀ (L : List ι) (r : κ → α), L.Nodup → j ∈ L → (∀ n ∈ L, ρ n = some k → n = j) →
      L.foldl step r k = f (r k) (g j)
  | [], _, _, hm, _ => absurd hm List.not_mem_nil
  | a :: L, r, hnd, hm, hu => by
    rw [List.foldl_cons]
    have hnd' := List.nodup_cons.mp hnd
    by_cases ha : a = j
    · subst ha
      rw [foldl_apply_of_forall_ne step ρ k hmiss L (step r a) fun n hn hρ => hnd'.1 (hu n (List.mem_cons_of_mem _ hn) hρ ▸ hn)]
      exact hhit r a hj
    · have hj' : j ∈ L := by
        rcases List.mem_cons.mp hm with h | h
        · exact absurd h.symm ha
        · exact h
      have hρa : ρ a ≠ some k := fun h => ha (hu a List.mem_cons_self h)
      rw [foldl_apply_of_unique hmiss hhit j hj L (step r a) hnd'.2 hj' fun n hn => hu n (List.mem_cons_of_mem _ hn),
        hmiss r a hρa]

end Fold

variable {s si u : Shape} {α : Type} {w : Nat}

/-- The two facts about one step of `Host.scatter`'s fold, read at a fixed operand index `k`. -/
private theorem step_miss (d : ScatterDims s si u) (f : α → α → α) (idx : IVec si w) (upd : u.Idx → α) (k : s.Idx)
    (r : s.Idx → α) (n : Fin u.numel) (h : d.resultIdx? (u.rowMajor.symm n) idx ≠ some k) :
    (match d.resultIdx? (u.rowMajor.symm n) idx with
      | some i => fun i' => if i' = i then f (r i) (upd (u.rowMajor.symm n)) else r i'
      | none => r) k = r k := by
  cases hρ : d.resultIdx? (u.rowMajor.symm n) idx with
  | none => rfl
  | some i =>
    have hki : k ≠ i := fun e => h (by rw [hρ, e])
    show (if k = i then _ else r k) = r k
    rw [if_neg hki]

private theorem step_hit (d : ScatterDims s si u) (f : α → α → α) (idx : IVec si w) (upd : u.Idx → α) (k : s.Idx)
    (r : s.Idx → α) (n : Fin u.numel) (h : d.resultIdx? (u.rowMajor.symm n) idx = some k) :
    (match d.resultIdx? (u.rowMajor.symm n) idx with
      | some i => fun i' => if i' = i then f (r i) (upd (u.rowMajor.symm n)) else r i'
      | none => r) k = f (r k) (upd (u.rowMajor.symm n)) := by
  rw [h]
  show (if k = k then _ else r k) = _
  rw [if_pos rfl]

/-- An operand index on which NO update lands keeps the operand's element. -/
theorem scatter_apply_of_forall_ne (d : ScatterDims s si u) (f : α → α → α) (x : s.Idx → α) (idx : IVec si w)
    (upd : u.Idx → α) (k : s.Idx) (h : ∀ j : u.Idx, d.resultIdx? j idx ≠ some k) :
    Host.scatter d f x idx upd k = x k := by
  unfold Host.scatter
  exact foldl_apply_of_forall_ne _ (fun n => d.resultIdx? (u.rowMajor.symm n) idx) k
    (fun r n hn => step_miss d f idx upd k r n hn) _ x fun n _ => h _

/-- An operand index on which EXACTLY ONE update `j` lands holds the body applied to the operand's element and that
    update. -/
theorem scatter_apply_of_unique (d : ScatterDims s si u) (f : α → α → α) (x : s.Idx → α) (idx : IVec si w)
    (upd : u.Idx → α) (k : s.Idx) (j : u.Idx) (hj : d.resultIdx? j idx = some k)
    (hu : ∀ j' : u.Idx, d.resultIdx? j' idx = some k → j' = j) :
    Host.scatter d f x idx upd k = f (x k) (upd j) := by
  unfold Host.scatter
  refine (foldl_apply_of_unique _ (fun n => d.resultIdx? (u.rowMajor.symm n) idx) (fun n => upd (u.rowMajor.symm n)) f k
    (fun r n hn => step_miss d f idx upd k r n hn) (fun r n hn => step_hit d f idx upd k r n hn) (u.rowMajor j)
    (by show d.resultIdx? (u.rowMajor.symm (u.rowMajor j)) idx = some k; rw [Equiv.symm_apply_apply]; exact hj)
    (List.finRange u.numel) x (List.nodup_finRange _) (List.mem_finRange _)
    (fun n _ hn => by rw [← hu _ hn, Equiv.apply_symm_apply])).trans ?_
  show f (x k) (upd (u.rowMajor.symm (u.rowMajor j))) = _
  rw [Equiv.symm_apply_apply]

end Idealize.ShloMosaic.ScatterRead
-- ==== Proof.PaddedReadout.lean ====
/-
  The padded read-out.

  The read-out layer has 128 inputs and 7 classes. The program that pads it writes the 128 × 7 weight matrix into a
  128 × 128 table of zeros, and the 7 biases into a vector of 128 zeros, computes the affine read-out with the padded
  operands (a table with 128 columns), and keeps its first 7 columns.

  Each write is a scatter with ONE start index, the constant 0, whose window is the whole update: update entry (k, q)
  lands on table entry (k, q) — the start contributes 0 on every axis and the window coordinate is the update's own —
  so distinct update entries land on distinct table entries, and a table entry in the first 7 columns holds exactly the
  update entry with the same coordinates. Likewise for the bias.

  Entry (p, q) of an affine layer pairs row p of the input with column q of the weights and adds entry q of the bias;
  for q < 7 the padded operands have the original column and entry there, so the first 7 columns of the padded
  read-out are the read-out itself.
-/
import proofs.«102918_j30047591203218_2_alg».proof.KernelIdeal
import proofs.«102918_j30047591203218_2_alg».proof.Proof.Gen.KernelIdeal
import proofs.«102918_j30047591203218_2_alg».proof.Proof.DecoderSpec
import proofs.«102918_j30047591203218_2_alg».proof.Proof.LibPerceptron
import proofs.«102918_j30047591203218_2_alg».proof.Proof.LibScatter
import Idealize.ShloMosaic.Lib.ValueLayout

noncomputable section

open scoped BigOperators

namespace Cert.Decoder

open Idealize.ShloMosaic Idealize.ShloMosaic.ValueIdx Idealize.ShloMosaic.ScatterRead Cert.KernelIdeal Cert.KernelIdeal.Gen
  Cert.Lib.Perceptron

/-- The read-out weights written into the first 7 columns of a 128 × 128 table of zeros. -/
def paddedWeights (Wout : (⟨S128x7, .f32⟩ : BufTy).Contents (Elt Ideal)) : (⟨S128x128, .f32⟩ : BufTy).Contents (Elt Ideal) :=
  Host.scatter scatter_S128x128_S1_S128x7_01_n_1_0 (fun _ b => b)
    (broadcastInDim S128x128 ![] bcast_S_S128x128 (constant (F := Ideal) S_ .f32 0x00000000#32))
    (broadcastInDim S1 ![] bcast_S_S1 (constantI S_ 32 0#32)) Wout

/-- The read-out bias written into the first 7 entries of a vector of 128 zeros. -/
def paddedBias (bout : (⟨S7, .f32⟩ : BufTy).Contents (Elt Ideal)) : (⟨S128, .f32⟩ : BufTy).Contents (Elt Ideal) :=
  Host.scatter scatter_S128_S1_S7_0_n_0_0 (fun _ b => b)
    (broadcastInDim S128 ![] bcast_S_S128 (constant (F := Ideal) S_ .f32 0x00000000#32))
    (broadcastInDim S1 ![] bcast_S_S1 (constantI S_ 32 0#32)) bout

/-- The one start index both writes use: the constant 0. -/
private abbrev zeroStart : IVec S1 32 := broadcastInDim S1 ![] bcast_S_S1 (constantI S_ 32 0#32)

/-! ## Where the weights land -/

/-- The start contributes nothing on either axis: the one start index is 0. -/
private theorem start_w (j : S128x7.Idx) (a : Fin 2) :
    scatter_S128x128_S1_S128x7_01_n_1_0.start j zeroStart a = 0 := by
  unfold ScatterDims.start
  split
  · rfl
  · rfl

/-- Update entry (k, q) of the weights lands on entry (k, q) of the table. -/
private theorem resultIdx_w (j : S128x7.Idx) :
    scatter_S128x128_S1_S128x7_01_n_1_0.resultIdx? j zeroStart
      = some (ix2 (j 0) ⟨(j 1).val, by have := idx2_lt1 j; omega⟩) := by
  have h0 := idx2_lt0 j
  have h1 := idx2_lt1 j
  have h : ∀ a, 0 ≤ scatter_S128x128_S1_S128x7_01_n_1_0.start j zeroStart a + scatter_S128x128_S1_S128x7_01_n_1_0.window j a ∧
      scatter_S128x128_S1_S128x7_01_n_1_0.start j zeroStart a + scatter_S128x128_S1_S128x7_01_n_1_0.window j a < S128x128.size a := by
    intro a
    rw [start_w j a]
    match a with
    | ⟨0, _⟩ =>
      show 0 ≤ (0 : Int) + ((j 0).val : Int) ∧ (0 : Int) + ((j 0).val : Int) < ((128 : Nat) : Int)
      omega
    | ⟨1, _⟩ =>
      show 0 ≤ (0 : Int) + ((j 1).val : Int) ∧ (0 : Int) + ((j 1).val : Int) < ((128 : Nat) : Int)
      omega
  unfold ScatterDims.resultIdx?
  rw [dif_pos h]
  refine congrArg some (funext fun a => Fin.ext ?_)
  show (scatter_S128x128_S1_S128x7_01_n_1_0.start j zeroStart a + scatter_S128x128_S1_S128x7_01_n_1_0.window j a).toNat = _
  rw [start_w j a]
  match a with
  | ⟨0, _⟩ => show ((0 : Int) + ((j 0).val : Int)).toNat = (j 0).val; omega
  | ⟨1, _⟩ => show ((0 : Int) + ((j 1).val : Int)).toNat = (j 1).val; omega

/-- The padded weights hold the weights on their first 7 columns. -/
theorem paddedWeights_apply (Wout : (⟨S128x7, .f32⟩ : BufTy).Contents (Elt Ideal)) (k : Fin 128) (q : Fin 7) :
    paddedWeights Wout (ix2 k ⟨q.val, by omega⟩) = Wout (ix2 k q) := by
  unfold paddedWeights
  refine scatter_apply_of_unique scatter_S128x128_S1_S128x7_01_n_1_0 (fun _ b => b) _ zeroStart Wout
    (ix2 k ⟨q.val, by omega⟩) (ix2 k q) (resultIdx_w (ix2 k q)) fun j' hj' => ?_
  rw [resultIdx_w j'] at hj'
  have e := Option.some.inj hj'
  have e0 : j' 0 = k := congrFun e 0
  have e1 : j' 1 = q := Fin.ext (by have := congrArg Fin.val (congrFun e 1); exact this)
  rw [eq_ix2 j', e0, e1]
  rfl

/-! ## Where the bias lands -/

private theorem start_b (j : S7.Idx) (a : Fin 1) :
    scatter_S128_S1_S7_0_n_0_0.start j zeroStart a = 0 := by
  unfold ScatterDims.start
  split
  · rfl
  · rfl

/-- Update entry q of the bias lands on entry q of the vector. -/
private theorem resultIdx_b (j : S7.Idx) :
    scatter_S128_S1_S7_0_n_0_0.resultIdx? j zeroStart
      = some (ix1 ⟨(j 0).val, by have : (j 0).val < 7 := (j 0).isLt; omega⟩) := by
  have h0 : (j 0).val < 7 := (j 0).isLt
  have h : ∀ a, 0 ≤ scatter_S128_S1_S7_0_n_0_0.start j zeroStart a + scatter_S128_S1_S7_0_n_0_0.window j a ∧
      scatter_S128_S1_S7_0_n_0_0.start j zeroStart a + scatter_S128_S1_S7_0_n_0_0.window j a < S128.size a := by
    intro a
    rw [start_b j a]
    match a with
    | ⟨0, _⟩ =>
      show 0 ≤ (0 : Int) + ((j 0).val : Int) ∧ (0 : Int) + ((j 0).val : Int) < ((128 : Nat) : Int)
      omega
  unfold ScatterDims.resultIdx?
  rw [dif_pos h]
  refine congrArg some (funext fun a => Fin.ext ?_)
  show (scatter_S128_S1_S7_0_n_0_0.start j zeroStart a + scatter_S128_S1_S7_0_n_0_0.window j a).toNat = _
  rw [start_b j a]
  match a with
  | ⟨0, _⟩ => show ((0 : Int) + ((j 0).val : Int)).toNat = (j 0).val; omega

/-- The padded bias holds the bias on its first 7 entries. -/
theorem paddedBias_apply (bout : (⟨S7, .f32⟩ : BufTy).Contents (Elt Ideal)) (q : Fin 7) :
    paddedBias bout (ix1 ⟨q.val, by omega⟩) = bout (ix1 q) := by
  unfold paddedBias
  refine scatter_apply_of_unique scatter_S128_S1_S7_0_n_0_0 (fun _ b => b) _ zeroStart bout
    (ix1 ⟨q.val, by omega⟩) (ix1 q) (resultIdx_b (ix1 q)) fun j' hj' => ?_
  rw [resultIdx_b j'] at hj'
  have e := Option.some.inj hj'
  have e0 : j' 0 = q := Fin.ext (by have := congrArg Fin.val (congrFun e 0); exact this)
  rw [eq_ix1 j', e0]
  rfl

/-! ## The read-out -/

/-- The first 7 columns of the read-out with the padded weights and bias are the read-out with the weights and bias:
    entry (p, q) with q < 7 pairs row p of the state with column q of the padded weights, which is column q of the
    weights, and adds entry q of the padded bias, which is entry q of the bias. -/
theorem sliced_readout (S : Mat 50000 128) (Wout : (⟨S128x7, .f32⟩ : BufTy).Contents (Elt Ideal))
    (bout : (⟨S7, .f32⟩ : BufTy).Contents (Elt Ideal)) :
    extractStridedSlice S50000x7 ![0, 0] (readout S (paddedWeights Wout) (paddedBias bout)) slices_S50000x128_S50000x7_0_0
      = readout S Wout bout := by
  funext j
  obtain ⟨p, q, rfl⟩ : ∃ (p : Fin 50000) (q : Fin 7), j = ix2 p q := ⟨j 0, j 1, eq_ix2 j⟩
  refine (slice2_axis1_apply 0 (readout S (paddedWeights Wout) (paddedBias bout)) slices_S50000x128_S50000x7_0_0 p q
    ⟨q.val, by omega⟩ (Nat.zero_add _).symm).trans ?_
  rw [readout_ix2, readout_ix2]
  unfold affineAt
  rw [paddedBias_apply bout q]
  refine congrArg (· + bout (ix1 q)) (Finset.sum_congr rfl fun k _ => ?_)
  rw [paddedWeights_apply Wout k q]

end Cert.Decoder

end
-- ==== Proof.KernelStretches.lean ====
/-
  The stretches of whole-array operations between the kernel launches, read one result at a time.

  Each stretch is a short straight line of array operations applied to the buffer contents it finds. A buffer the
  stretch does not write keeps its contents; a buffer it writes holds the operations' value of the contents found:
  the two rows of the edge list, a slab of a stacked weight array, a row of the stacked biases, the read-out weights
  and bias laid into tables of zeros, the messages aggregated along the edges, and at the end the first seven columns
  of the padded logits. The aggregation is kept as the look-up and add-into operations themselves and never opened.
-/
import proofs.«102918_j30047591203218_2_alg».proof.Proof.Gen.KernelIdeal.Frame
import proofs.«102918_j30047591203218_2_alg».proof.Proof.DecoderHost
import proofs.«102918_j30047591203218_2_alg».proof.Proof.PaddedReadout
import Idealize.ShloMosaic.Lib.StableHlo.Run

set_option maxRecDepth 16384

noncomputable section

namespace Cert.Decoder.Stretches

open Cert.KernelIdeal Cert.KernelIdeal.Gen Idealize.ShloMosaic Idealize.ShloMosaic.TcCoe Idealize.ShloMosaic.StableHlo Cert.Decoder

/-- Aggregation with the two rows of the edge list given separately. -/
def aggregateAt (src dst : Nodes) (msg : NodeTable) : NodeTable :=
  Host.scatterAdd (F := Ideal) (φ := .f32) scatter_S50000x128_S800000x1_S800000x128_1_0_0_1
    (broadcastInDim S50000x128 ![] bcast_S_S50000x128 (constant (F := Ideal) S_ .f32 0x00000000#32) : NodeTable)
    (broadcastInDim S800000x1 ![0] bcast_S800000_S800000x1_0 dst)
    (Host.gather gather_S50000x128_S800000x1_S800000x128_1_0_n_n_0_1_1128 msg
      (broadcastInDim S800000x1 ![0] bcast_S800000_S800000x1_0
        (select (cmpi .slt src (broadcastInDim S800000 ![] bcast_S_S800000 (constantI S_ 32 0#32) : Nodes))
          (addi src (broadcastInDim S800000 ![] bcast_S_S800000 (constantI S_ 32 50000#32) : Nodes)) src : Nodes))
      : (⟨S800000x128, .f32⟩ : BufTy).Contents (Elt Ideal))

theorem aggregate_eq (ei : Edges) (msg : NodeTable) : aggregate ei msg = aggregateAt (sources ei) (targets ei) msg := rfl

/-! ## What each stretch writes -/

/-- The buffers stretch 1 writes. -/
abbrev written1 : List (Ref sig .tc) := [main_v1, main_v2, main_v3, main_v4, main_cst, main_v5, main_c, main_v6, main_v7, main_cst_0, main_v8, main_c_1, main_v9, main_v10, main_v11, main_v12, main_v13, main_v14]
theorem writes1 : (hostOps1 : List (HloOp τ sig (Elt Ideal))).Forall fun op => op.writes ⊆ (written1.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer stretch 1 does not write keeps its contents. -/
theorem kept1 (Wp : Valuation τ sig (Elt Ideal)) (r : Ref sig .tc) (h : r ∉ written1) :
    StableHlo.after (hostOps1 (F := Ideal)) Wp (Proc.devRef .tc r) = Wp (Proc.devRef .tc r) :=
  StableHlo.after_of_writes_sub hostOps1 _ writes1 h

/-- The buffers stretch 2 writes. -/
abbrev written2 : List (Ref sig .tc) := [main_c_2, main_v16, main_v17, main_c_3, main_v18, main_v19, main_v20, main_v21, main_v22, main_v23, main_cst_4, main_v24, main_v25, main_v26, main_v27, main_v28, main_v29, main_v30, main_v31, main_v32, main_v33, main_v34]
theorem writes2 : (hostOps2 : List (HloOp τ sig (Elt Ideal))).Forall fun op => op.writes ⊆ (written2.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer stretch 2 does not write keeps its contents. -/
theorem kept2 (Wp : Valuation τ sig (Elt Ideal)) (r : Ref sig .tc) (h : r ∉ written2) :
    StableHlo.after (hostOps2 (F := Ideal)) Wp (Proc.devRef .tc r) = Wp (Proc.devRef .tc r) :=
  StableHlo.after_of_writes_sub hostOps2 _ writes2 h

/-- The buffers stretch 3 writes. -/
abbrev written3 : List (Ref sig .tc) := [main_c_5, main_v36, main_v37, main_c_6, main_v38, main_v39, main_v40, main_v41, main_v42, main_v43, main_cst_7, main_v44, main_v45, main_v46, main_v47, main_v48, main_v49, main_v50, main_v51, main_v52, main_v53, main_v54]
theorem writes3 : (hostOps3 : List (HloOp τ sig (Elt Ideal))).Forall fun op => op.writes ⊆ (written3.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer stretch 3 does not write keeps its contents. -/
theorem kept3 (Wp : Valuation τ sig (Elt Ideal)) (r : Ref sig .tc) (h : r ∉ written3) :
    StableHlo.after (hostOps3 (F := Ideal)) Wp (Proc.devRef .tc r) = Wp (Proc.devRef .tc r) :=
  StableHlo.after_of_writes_sub hostOps3 _ writes3 h

/-- The buffers stretch 4 writes. -/
abbrev written4 : List (Ref sig .tc) := [main_c_8, main_v56, main_v57, main_c_9, main_v58, main_v59, main_v60, main_v61, main_v62, main_v63, main_cst_10, main_v64, main_v65, main_v66, main_v67, main_v68, main_v69, main_v70, main_v71, main_v72, main_v73, main_v74]
theorem writes4 : (hostOps4 : List (HloOp τ sig (Elt Ideal))).Forall fun op => op.writes ⊆ (written4.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer stretch 4 does not write keeps its contents. -/
theorem kept4 (Wp : Valuation τ sig (Elt Ideal)) (r : Ref sig .tc) (h : r ∉ written4) :
    StableHlo.after (hostOps4 (F := Ideal)) Wp (Proc.devRef .tc r) = Wp (Proc.devRef .tc r) :=
  StableHlo.after_of_writes_sub hostOps4 _ writes4 h

/-- The buffers stretch 5 writes. -/
abbrev written5 : List (Ref sig .tc) := [main_c_11, main_v76, main_v77, main_c_12, main_v78, main_v79, main_v80, main_v81, main_v82, main_v83, main_cst_13, main_v84, main_v85, main_v86, main_v87, main_v88, main_v89, main_v90]
theorem writes5 : (hostOps5 : List (HloOp τ sig (Elt Ideal))).Forall fun op => op.writes ⊆ (written5.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)
/-- A buffer stretch 5 does not write keeps its contents. -/
theorem kept5 (Wp : Valuation τ sig (Elt Ideal)) (r : Ref sig .tc) (h : r ∉ written5) :
    StableHlo.after (hostOps5 (F := Ideal)) Wp (Proc.devRef .tc r) = Wp (Proc.devRef .tc r) :=
  StableHlo.after_of_writes_sub hostOps5 _ writes5 h

/-- The buffers stretch 6 writes. -/
abbrev written6 : List (Ref sig .tc) := [main_v92]
theorem writes6 : (hostOps6 : List (HloOp τ sig (Elt Ideal))).Forall fun op => op.writes ⊆ (written6.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  exact List.mem_map_of_mem (by decide)
/-- A buffer stretch 6 does not write keeps its contents. -/
theorem kept6 (Wp : Valuation τ sig (Elt Ideal)) (r : Ref sig .tc) (h : r ∉ written6) :
    StableHlo.after (hostOps6 (F := Ideal)) Wp (Proc.devRef .tc r) = Wp (Proc.devRef .tc r) :=
  StableHlo.after_of_writes_sub hostOps6 _ writes6 h

/-! ## What each stretch computes -/

variable (Wp : Valuation τ sig (Elt Ideal))

theorem s1_v2 : StableHlo.after (hostOps1 (F := Ideal)) Wp (Proc.devRef .tc main_v2) = sources (Wp (Proc.devRef .tc main_arg1)) := by
  dsimp only [hostOps1]; after_results_simp <;> rfl

theorem s1_v4 : StableHlo.after (hostOps1 (F := Ideal)) Wp (Proc.devRef .tc main_v4) = targets (Wp (Proc.devRef .tc main_arg1)) := by
  dsimp only [hostOps1]; after_results_simp <;> rfl

theorem s1_v7 : StableHlo.after (hostOps1 (F := Ideal)) Wp (Proc.devRef .tc main_v7) = paddedWeights (Wp (Proc.devRef .tc main_arg10)) := by
  dsimp only [hostOps1]; after_results_simp <;> rfl

theorem s1_v10 : StableHlo.after (hostOps1 (F := Ideal)) Wp (Proc.devRef .tc main_v10) = paddedBias (Wp (Proc.devRef .tc main_arg11)) := by
  dsimp only [hostOps1]; after_results_simp <;> rfl

theorem s1_v12 : StableHlo.after (hostOps1 (F := Ideal)) Wp (Proc.devRef .tc main_v12) = slab (Wp (Proc.devRef .tc main_arg6)) 0 := by
  dsimp only [hostOps1]; after_results_simp <;> rfl

theorem s1_v14 : StableHlo.after (hostOps1 (F := Ideal)) Wp (Proc.devRef .tc main_v14) = row (Wp (Proc.devRef .tc main_arg7)) 0 := by
  dsimp only [hostOps1]; after_results_simp <;> rfl

theorem s2_v26 : StableHlo.after (hostOps2 (F := Ideal)) Wp (Proc.devRef .tc main_v26) = aggregateAt (Wp (Proc.devRef .tc main_v2)) (Wp (Proc.devRef .tc main_v4)) (Wp (Proc.devRef .tc main_v15_1)) := by
  dsimp only [hostOps2]; after_results_simp <;> rfl

theorem s2_v28 : StableHlo.after (hostOps2 (F := Ideal)) Wp (Proc.devRef .tc main_v28) = slab (Wp (Proc.devRef .tc main_arg8)) 0 := by
  dsimp only [hostOps2]; after_results_simp <;> rfl

theorem s2_v30 : StableHlo.after (hostOps2 (F := Ideal)) Wp (Proc.devRef .tc main_v30) = row (Wp (Proc.devRef .tc main_arg9)) 0 := by
  dsimp only [hostOps2]; after_results_simp <;> rfl

theorem s2_v32 : StableHlo.after (hostOps2 (F := Ideal)) Wp (Proc.devRef .tc main_v32) = slab (Wp (Proc.devRef .tc main_arg6)) 1 := by
  dsimp only [hostOps2]; after_results_simp <;> rfl

theorem s2_v34 : StableHlo.after (hostOps2 (F := Ideal)) Wp (Proc.devRef .tc main_v34) = row (Wp (Proc.devRef .tc main_arg7)) 1 := by
  dsimp only [hostOps2]; after_results_simp <;> rfl

theorem s3_v46 : StableHlo.after (hostOps3 (F := Ideal)) Wp (Proc.devRef .tc main_v46) = aggregateAt (Wp (Proc.devRef .tc main_v2)) (Wp (Proc.devRef .tc main_v4)) (Wp (Proc.devRef .tc main_v35_1)) := by
  dsimp only [hostOps3]; after_results_simp <;> rfl

theorem s3_v48 : StableHlo.after (hostOps3 (F := Ideal)) Wp (Proc.devRef .tc main_v48) = slab (Wp (Proc.devRef .tc main_arg8)) 1 := by
  dsimp only [hostOps3]; after_results_simp <;> rfl

theorem s3_v50 : StableHlo.after (hostOps3 (F := Ideal)) Wp (Proc.devRef .tc main_v50) = row (Wp (Proc.devRef .tc main_arg9)) 1 := by
  dsimp only [hostOps3]; after_results_simp <;> rfl

theorem s3_v52 : StableHlo.after (hostOps3 (F := Ideal)) Wp (Proc.devRef .tc main_v52) = slab (Wp (Proc.devRef .tc main_arg6)) 2 := by
  dsimp only [hostOps3]; after_results_simp <;> rfl

theorem s3_v54 : StableHlo.after (hostOps3 (F := Ideal)) Wp (Proc.devRef .tc main_v54) = row (Wp (Proc.devRef .tc main_arg7)) 2 := by
  dsimp only [hostOps3]; after_results_simp <;> rfl

theorem s4_v66 : StableHlo.after (hostOps4 (F := Ideal)) Wp (Proc.devRef .tc main_v66) = aggregateAt (Wp (Proc.devRef .tc main_v2)) (Wp (Proc.devRef .tc main_v4)) (Wp (Proc.devRef .tc main_v55_1)) := by
  dsimp only [hostOps4]; after_results_simp <;> rfl

theorem s4_v68 : StableHlo.after (hostOps4 (F := Ideal)) Wp (Proc.devRef .tc main_v68) = slab (Wp (Proc.devRef .tc main_arg8)) 2 := by
  dsimp only [hostOps4]; after_results_simp <;> rfl

theorem s4_v70 : StableHlo.after (hostOps4 (F := Ideal)) Wp (Proc.devRef .tc main_v70) = row (Wp (Proc.devRef .tc main_arg9)) 2 := by
  dsimp only [hostOps4]; after_results_simp <;> rfl

theorem s4_v72 : StableHlo.after (hostOps4 (F := Ideal)) Wp (Proc.devRef .tc main_v72) = slab (Wp (Proc.devRef .tc main_arg6)) 3 := by
  dsimp only [hostOps4]; after_results_simp <;> rfl

theorem s4_v74 : StableHlo.after (hostOps4 (F := Ideal)) Wp (Proc.devRef .tc main_v74) = row (Wp (Proc.devRef .tc main_arg7)) 3 := by
  dsimp only [hostOps4]; after_results_simp <;> rfl

theorem s5_v86 : StableHlo.after (hostOps5 (F := Ideal)) Wp (Proc.devRef .tc main_v86) = aggregateAt (Wp (Proc.devRef .tc main_v2)) (Wp (Proc.devRef .tc main_v4)) (Wp (Proc.devRef .tc main_v75_1)) := by
  dsimp only [hostOps5]; after_results_simp <;> rfl

theorem s5_v88 : StableHlo.after (hostOps5 (F := Ideal)) Wp (Proc.devRef .tc main_v88) = slab (Wp (Proc.devRef .tc main_arg8)) 3 := by
  dsimp only [hostOps5]; after_results_simp <;> rfl

theorem s5_v90 : StableHlo.after (hostOps5 (F := Ideal)) Wp (Proc.devRef .tc main_v90) = row (Wp (Proc.devRef .tc main_arg9)) 3 := by
  dsimp only [hostOps5]; after_results_simp <;> rfl

theorem s6_v92 : StableHlo.after (hostOps6 (F := Ideal)) Wp (Proc.devRef .tc main_v92) = extractStridedSlice S50000x7 ![0, 0] (Wp (Proc.devRef .tc main_v91)) slices_S50000x128_S50000x7_0_0 := by
  dsimp only [hostOps6]; after_results_simp <;> rfl

end Cert.Decoder.Stretches

end
-- ==== Proof.LibRowDots.lean ====
/-
  A matrix product that pairs the ROWS of its two operands, read at an entry, for any sizes.

  When the dimension numbers of a matrix product contract the second axis of an `a × k` left operand with the second
  axis of a `b × k` right operand (no batch axes; the first axis of each operand is kept), entry `(p, q)` of the
  `a × b` result, accumulated from zero, is the inner product of row `p` of the left operand with row `q` of the right
  one: the sum over the shared coordinate `c` of `A (p, c) * B (q, c)`, in the coordinate's order. This is the product
  of the left operand with the transpose of the right one, without a transpose being formed.
-/
import Idealize.ShloMosaic.Lib.Pipeline.Value
import Idealize.ShloMosaic.Lib.ValueIdx
import Idealize.ShloMosaic.PureOps.Ideal.Laws

noncomputable section

open scoped BigOperators

namespace Cert.Lib.RowDots

open Idealize.ShloMosaic Idealize.ShloMosaic.ValueIdx

variable {a b k : ℕ}

/-- A coordinate of an index read at two positions that are the same number. -/
theorem coord_congr {s : Shape} (j : s.Idx) (p q : ℕ) (hp : p < s.rank) (hq : q < s.rank) (h : p = q) :
    (j ⟨p, hp⟩).val = (j ⟨q, hq⟩).val := by subst h; rfl

/-- The left operand's entry paired with result entry `j`: its kept axis reads the result's first coordinate. -/
theorem lhs_kept (D : DotDims ⟨2, ![a, k]⟩ ⟨2, ![b, k]⟩ ⟨2, ![a, b]⟩) (hlb : D.lhsBatch = []) (hln : D.lhsNonContracting = [0])
    (j : (⟨2, ![a, b]⟩ : Shape).Idx) (c : D.contr.Idx) : (D.lhsIdx j c 0).val = (j 0).val := by
  unfold DotDims.lhsIdx
  rw [dif_neg (by rw [hlb]; exact List.not_mem_nil), dif_pos (by rw [hln]; exact List.mem_singleton.mpr rfl)]
  simp only [Fin.val_cast]
  exact coord_congr j _ 0 _ (show 0 < 2 by omega) (by simp [hlb, hln])

/-- The right operand's entry paired with result entry `j`: its kept axis reads the result's second coordinate. -/
theorem rhs_kept (D : DotDims ⟨2, ![a, k]⟩ ⟨2, ![b, k]⟩ ⟨2, ![a, b]⟩) (hlb : D.lhsBatch = []) (hln : D.lhsNonContracting = [0])
    (hrb : D.rhsBatch = []) (hrn : D.rhsNonContracting = [0])
    (j : (⟨2, ![a, b]⟩ : Shape).Idx) (c : D.contr.Idx) : (D.rhsIdx j c 0).val = (j 1).val := by
  unfold DotDims.rhsIdx
  rw [dif_neg (by rw [hrb]; exact List.not_mem_nil), dif_pos (by rw [hrn]; exact List.mem_singleton.mpr rfl)]
  simp only [Fin.val_cast]
  exact coord_congr j _ 1 _ (show 1 < 2 by omega) (by simp [hlb, hln, hrn])

/-- Entry `(p, q)` of a product from zero that contracts the second axis of both operands: row `p` of the left
    operand against row `q` of the right one. -/
theorem matmul_rows_apply {φ₁ φ₂ : FTy} (D : DotDims ⟨2, ![a, k]⟩ ⟨2, ![b, k]⟩ ⟨2, ![a, b]⟩)
    (hlb : D.lhsBatch = []) (hln : D.lhsNonContracting = [0]) (hlc : D.lhsContracting = [1])
    (hrb : D.rhsBatch = []) (hrn : D.rhsNonContracting = [0]) (hrc : D.rhsContracting = [1])
    (hrank : D.contr.rank = 1) (hsize : D.contr.size ⟨0, by omega⟩ = k) (prec : Option ContractPrecision)
    (A : FVec Ideal ⟨2, ![a, k]⟩ φ₁) (B : FVec Ideal ⟨2, ![b, k]⟩ φ₂) (p : Fin a) (q : Fin b) :
    matmul D prec A B (constant ⟨2, ![a, b]⟩ .f32 0x00000000#32) (ix2 p q) = ∑ c : Fin k, A (ix2 p c) * B (ix2 q c) := by
  show FloatOps.matmul D prec A B _ (ix2 p q) = _
  rw [Ideal.matmul_constant_zero_apply, ← Equiv.sum_comp (contrEquiv1 D k hrank hsize).symm]
  refine Finset.sum_congr rfl fun c _ => ?_
  have hc := contrEquiv1_symm_val D k hrank hsize c
  have el : D.lhsIdx (ix2 p q) ((contrEquiv1 D k hrank hsize).symm c) = ix2 p c := funext fun ax => Fin.ext (by
    match ax with
    | ⟨0, _⟩ => exact lhs_kept D hlb hln _ _
    | ⟨1, _⟩ => exact (D.lhsIdx_val_of_single hlc _ _).trans hc)
  have er : D.rhsIdx (ix2 p q) ((contrEquiv1 D k hrank hsize).symm c) = ix2 q c := funext fun ax => Fin.ext (by
    match ax with
    | ⟨0, _⟩ => exact rhs_kept D hlb hln hrb hrn _ _
    | ⟨1, _⟩ => exact (D.rhsIdx_val_of_single hrc _ _).trans hc)
  rw [el, er]

end Cert.Lib.RowDots

end
-- ==== Proof.EdgeRegion.lean ====
/-
  The edge kernel's launch leaves the decoder's edge logits in its result array.

  The launch runs over 32 points, one per graph. At point t the body reads block t of the stack of latent tables — the
  512 × 64 table of graph t, as a 1 × 512 × 64 block — and the one bias; it multiplies the table with itself, pairing
  rows (entry (i, j) is the inner product of rows i and j), adds the bias to every entry, and writes the 512 × 512
  result back as block t of the 32 × 512 × 512 result array. So block t of the result is block t of the decoder's
  edge logits of the whole stack, and the 32 blocks tile the result array: entry (g, i, j) lies in block g.
-/
import proofs.«102918_j30047591203218_2_alg».proof.Proof.Gen.KernelIdeal.Frame
import proofs.«102918_j30047591203218_2_alg».proof.Proof.Gen.KernelIdeal.Points
import Idealize.ShloMosaic.Lib.Pipeline.Value
import Idealize.ShloMosaic.Lib.ValueIdx
import Idealize.ShloMosaic.Lib.ValueLayout
import proofs.«102918_j30047591203218_2_alg».proof.Proof.LibRowDots
import proofs.«102918_j30047591203218_2_alg».proof.Proof.DecoderHost

noncomputable section

open scoped BigOperators

namespace Cert.Decoder

open Idealize.ShloMosaic Idealize.ShloMosaic.TcCoe Idealize.ShloMosaic.ValueIdx
open Cert.KernelIdeal Cert.KernelIdeal.Gen Cert.Lib.RowDots
open Idealize.ShloMosaic.Pipeline (Dat)

/-! ## The body's arithmetic at an entry -/

/-- What the body stores, at entry (u, i, j) of its 1 × 512 × 512 block: row i of the loaded table against row j,
    plus the bias. -/
theorem edge_payload (x0 : Vec Ideal S1x512x64 .f32) (x1 : Vec Ideal S1 .f32) (u : Fin 1) (i j : Fin 512) :
    k0_pay1 (F := Ideal) x0 x1 (ix3 u i j)
      = (∑ c : Fin 64, x0 (ix3 (0 : Fin 1) i c) * x0 (ix3 (0 : Fin 1) j c)) + x1 (ix1 0) := by
  unfold k0_pay1
  rw [shapeCast_ab_1ab_apply, addf_apply, broadcast_apply]
  rw [matmul_rows_apply dot_S512x64_S512x64_S512x512_1_1_0_0_n_n rfl rfl rfl rfl rfl rfl rfl rfl]
  simp only [shapeCast_1ab_ab_apply]
  congr 1
  exact congrArg x1 (funext fun a => Fin.ext (by match a with | ⟨0, _⟩ => rfl))

/-- When the loaded table is table g of a stack Z and the loaded bias is β, the body stores the edge logits of Z
    for graph g. -/
theorem edge_block (Z : Stack 32 512 64) (β : Vect 1) (g : Fin 32) (x0 : Vec Ideal S1x512x64 .f32)
    (x1 : Vec Ideal S1 .f32) (h0 : ∀ (i : Fin 512) (c : Fin 64), x0 (ix3 (0 : Fin 1) i c) = Z (ix3 g i c))
    (h1 : x1 (ix1 0) = β (ix1 0)) (y : S1x512x512.Idx) :
    k0_pay1 (F := Ideal) x0 x1 y = edgeLogits Z β (ix3 g (y 1) (y 2)) := by
  obtain ⟨u, i, j, rfl⟩ : ∃ (u : Fin 1) (i j : Fin 512), y = ix3 u i j := ⟨y 0, y 1, y 2, eq_ix3 y⟩
  rw [edge_payload, h1]
  simp only [h0]
  rfl

/-! ## The blocks -/

theorem zeros3 : (![0, 0, 0] : Fin 3 → Nat) = fun _ => 0 := funext fun a => by fin_cases a <;> rfl
theorem zeros1 : (![0] : Fin 1 → Nat) = fun _ => 0 := funext fun a => by fin_cases a <;> rfl

/-- The index maps over the grid: at point t the table's and the result's block index is (t, 0, 0) and the
    bias's is 0. -/
theorem block_index : ∀ t : Fin cfg0.N,
    win0_0.index t (0 : Fin 3) = t.val ∧ win0_0.index t (1 : Fin 3) = 0 ∧ win0_0.index t (2 : Fin 3) = 0
    ∧ win0_1.index t (0 : Fin 1) = 0
    ∧ win0_2.index t (0 : Fin 3) = t.val ∧ win0_2.index t (1 : Fin 3) = 0 ∧ win0_2.index t (2 : Fin 3) = 0 :=
  (by decide +kernel : ∀ t : Fin grid0.N, _)

theorem points : cfg0.N = 32 := N_0

section Region

variable (V : (c : Dev nD) → (b : Ref sig .tc) → Buf (Elt Ideal) ((c : Thread nD τ).loc b))

/-- What point t writes back is block t of the edge logits of the stack and bias as the launch finds them. -/
theorem edge_flushed (c : Dev nD) (t : Fin cfg0.N) :
    (dat0 (F := Ideal) V c).flushed 2 t
      = ((cfg0.win 2).blk t).view.read (Elt Ideal) (decoderEdges (V c main_arg2) (V c main_arg3)) := by
  show (cfg0.win 2).cut (grid0.coords t) ((dat0 V c).after 2 t) = _
  rw [after0_2]
  unfold out0_2
  rw [View.canon_unit_zero zeros3]
  simp only [View.ld_unit_zero (S := S1x512x64) zeros3, View.ld_unit_zero (S := S1) zeros1]
  obtain ⟨a0, a1, a2, b0, r0, r1, r2⟩ := block_index t
  have ht : t.val < 32 := Nat.lt_of_lt_of_eq t.isLt points
  funext y
  refine (edge_block (V c main_arg2) (V c main_arg3) ⟨t.val, ht⟩ _ _ ?_ ?_ _).trans ?_
  · intro i k
    show V c main_arg2 (((cfg0.win 0).blk t).view.emb (ix3 (0 : Fin 1) i k)) = V c main_arg2 (ix3 ⟨t.val, ht⟩ i k)
    refine congrArg (V c main_arg2) (funext fun a => Fin.ext ?_)
    match a with
    | ⟨0, _⟩ => show win0_0.index t (0 : Fin 3) * 1 + 1 * 0 = t.val; omega
    | ⟨1, _⟩ => show win0_0.index t (1 : Fin 3) * 512 + 1 * i.val = i.val; omega
    | ⟨2, _⟩ => show win0_0.index t (2 : Fin 3) * 64 + 1 * k.val = k.val; omega
  · show V c main_arg3 (((cfg0.win 1).blk t).view.emb (ix1 (0 : Fin 1))) = V c main_arg3 (ix1 0)
    refine congrArg (V c main_arg3) (funext fun a => Fin.ext ?_)
    match a with
    | ⟨0, _⟩ => show win0_1.index t (0 : Fin 1) * 1 + 1 * 0 = 0; omega
  · show edgeLogits (V c main_arg2) (V c main_arg3) _ = edgeLogits (V c main_arg2) (V c main_arg3) (((cfg0.win 2).blk t).view.emb y)
    refine congrArg (edgeLogits (V c main_arg2) (V c main_arg3)) (funext fun a => Fin.ext ?_)
    have hy : (y 0).val < 1 := (y 0).isLt
    match a with
    | ⟨0, _⟩ => show t.val = win0_2.index t (0 : Fin 3) * 1 + 1 * (y 0).val; omega
    | ⟨1, _⟩ => show (y 1).val = win0_2.index t (1 : Fin 3) * 512 + 1 * (y 1).val; omega
    | ⟨2, _⟩ => show (y 2).val = win0_2.index t (2 : Fin 3) * 512 + 1 * (y 2).val; omega

/-- An entry of the result array lies in point t's block iff each coordinate is in the block's range on its axis. -/
theorem mem_result_block (t : Fin cfg0.N) (i : S32x512x512.Idx) :
    i ∈ ((cfg0.win 2).blk t).view.set ↔ ∀ a : Fin 3, win0_2.index t a * S1x512x512.size a ≤ (i a).val
      ∧ (i a).val < win0_2.index t a * S1x512x512.size a + S1x512x512.size a := by
  show i ∈ ((View.whole main_v0).slice (win0_2.rect t)).set ↔ _
  rw [View.set_slice_whole, Rect.mem_set_unit]
  exact Iff.rfl

/-- After the launch the result array holds the decoder's edge logits of the stack and the bias as the launch found
    them: every point writes its block of them, and entry (g, i, j) lies in the block of point g. -/
theorem edge_region (c : Dev nD) :
    (dat0 (F := Ideal) V c).arrAt 2 cfg0.N = decoderEdges (V c main_arg2) (V c main_arg3) :=
  (dat0 V c).arrAt_eq_of_cover 2 (decoderEdges (V c main_arg2) (V c main_arg3)) (fun t _ => edge_flushed V c t)
    fun (i : S32x512x512.Idx) => by
      have h0 : (i 0).val < 32 := (i 0).isLt
      have h1 : (i 1).val < 512 := (i 1).isLt
      have h2 : (i 2).val < 512 := (i 2).isLt
      have hN : (i 0).val < cfg0.N := Nat.lt_of_lt_of_eq h0 points.symm
      refine ⟨⟨(i 0).val, hN⟩, flush0_2 _, ?_⟩
      rw [mem_result_block]
      obtain ⟨-, -, -, -, r0, r1, r2⟩ := block_index ⟨(i 0).val, hN⟩
      intro a
      match a with
      | ⟨0, _⟩ =>
        show win0_2.index ⟨(i 0).val, hN⟩ (0 : Fin 3) * 1 ≤ (i 0).val
          ∧ (i 0).val < win0_2.index ⟨(i 0).val, hN⟩ (0 : Fin 3) * 1 + 1
        rw [r0]; show (i 0).val * 1 ≤ (i 0).val ∧ (i 0).val < (i 0).val * 1 + 1; omega
      | ⟨1, _⟩ =>
        show win0_2.index ⟨(i 0).val, hN⟩ (1 : Fin 3) * 512 ≤ (i 1).val
          ∧ (i 1).val < win0_2.index ⟨(i 0).val, hN⟩ (1 : Fin 3) * 512 + 512
        rw [r1]; omega
      | ⟨2, _⟩ =>
        show win0_2.index ⟨(i 0).val, hN⟩ (2 : Fin 3) * 512 ≤ (i 2).val
          ∧ (i 2).val < win0_2.index ⟨(i 0).val, hN⟩ (2 : Fin 3) * 512 + 512
        rw [r2]; omega

end Region

end Cert.Decoder

end
-- ==== Proof.LibPlainLayer.lean ====
/-
  A dense layer in a vector program's spelling, with full-precision operands, read at an entry, for any sizes.

  The product of an n × K input and a K × C weight matrix accumulated into zero, plus the bias vector laid out as a
  1 × C row and spread down the n rows, is at (p, q) the sum over k of X (p, k) * W (k, q), plus b q
  (LibPerceptron's affineAt); followed by the maximum with a zero spread over the whole shape it is the rectified
  layer (reluAt). The operands enter the product as they are, in any float format.
-/
import Mathlib.Algebra.BigOperators.Fin
import Idealize.ShloMosaic.Lib.Pipeline.Value
import Idealize.ShloMosaic.Lib.ValueIdx
import Idealize.ShloMosaic.Lib.ValueLayout
import Idealize.ShloMosaic.PureOps.Ideal.Laws
import proofs.«102918_j30047591203218_2_alg».proof.Proof.LibTwoBlocks
import proofs.«102918_j30047591203218_2_alg».proof.Proof.LibDenseLayer
import proofs.«102918_j30047591203218_2_alg».proof.Proof.LibPerceptron

noncomputable section

open scoped BigOperators

namespace Cert.Lib.PlainLayer

open Idealize.ShloMosaic Idealize.ShloMosaic.ValueIdx Cert.Lib.TwoBlocks Cert.Lib.DenseLayer Cert.Lib.Perceptron

/-- The product into zero plus the bias row spread down the rows is the affine part, entry by entry. -/
theorem plain_affine_entry {n K C : ℕ} (D : DotDims ⟨2, ![n, K]⟩ ⟨2, ![K, C]⟩ ⟨2, ![n, C]⟩)
    (hD : D = DotDims.plain n K C) (prec : Option ContractPrecision)
    (X : FVec Ideal ⟨2, ![n, K]⟩ .f32) (W : FVec Ideal ⟨2, ![K, C]⟩ .f32) (b : FVec Ideal ⟨1, ![C]⟩ .f32)
    (hsc : (⟨1, ![C]⟩ : Shape).ShapeCasts ⟨2, ![1, C]⟩)
    (hbc : (⟨2, ![1, C]⟩ : Shape).Broadcasts ⟨2, ![n, C]⟩) (p : Fin n) (q : Fin C) :
    addf (matmul D prec X W (constant ⟨2, ![n, C]⟩ .f32 0x00000000#32))
        (broadcastTo ⟨2, ![n, C]⟩ (shapeCast ⟨2, ![1, C]⟩ b hsc) hbc) (ix2 p q)
      = affineAt X W b p q := by
  rw [addf_apply, plain_matmul_zero_apply D hD prec _ _ p q, broadcastTo_1b_ab_apply, shapeCast_a_1a_apply]
  rfl

/-- The same followed by the maximum with zero spread over the whole shape is the rectified layer. -/
theorem plain_relu_entry {n K C : ℕ} (D : DotDims ⟨2, ![n, K]⟩ ⟨2, ![K, C]⟩ ⟨2, ![n, C]⟩)
    (hD : D = DotDims.plain n K C) (prec : Option ContractPrecision)
    (X : FVec Ideal ⟨2, ![n, K]⟩ .f32) (W : FVec Ideal ⟨2, ![K, C]⟩ .f32) (b : FVec Ideal ⟨1, ![C]⟩ .f32)
    (hsc : (⟨1, ![C]⟩ : Shape).ShapeCasts ⟨2, ![1, C]⟩)
    (hbc : (⟨2, ![1, C]⟩ : Shape).Broadcasts ⟨2, ![n, C]⟩) (p : Fin n) (q : Fin C) :
    maximumf
        (addf (matmul D prec X W (constant ⟨2, ![n, C]⟩ .f32 0x00000000#32))
          (broadcastTo ⟨2, ![n, C]⟩ (shapeCast ⟨2, ![1, C]⟩ b hsc) hbc))
        (broadcast ⟨2, ![n, C]⟩ (Scalar.ofBits (F := Ideal) .f32 0x00000000#32)) (ix2 p q)
      = reluAt X W b p q := by
  rw [maximumf_apply, plain_affine_entry D hD prec X W b hsc hbc p q]
  rfl

end Cert.Lib.PlainLayer

end
-- ==== Proof.InputRegion.lean ====
/-
  The first node launch: the input layer and the first message layer.

  The launch walks the 50000 rows of the latent table in ten blocks of 5000. At a block it computes, for its rows,
  the rectified input layer (rows of the latent table against the input weights, plus the bias, floored at zero)
  and from that the rectified message layer, and writes both back as the same rows of the state table and of the
  message table. A dense layer's entry (p, q) reads row p of its input only, so a block of rows of the result is the
  layer applied to the same block of rows of the input: block t of what is written is block t of the layer of the
  WHOLE table. The ten blocks cover the table, so after the launch the state table is the rectified input layer of
  the latent table and the message table is the rectified message layer of that.
-/
import proofs.«102918_j30047591203218_2_alg».proof.Proof.Gen.KernelIdeal.Frame
import proofs.«102918_j30047591203218_2_alg».proof.Proof.DecoderSpec
import proofs.«102918_j30047591203218_2_alg».proof.Proof.LibPlainLayer
import Idealize.ShloMosaic.Lib.Pipeline.Value
import Idealize.ShloMosaic.Lib.ValueIdx
import Idealize.ShloMosaic.Lib.ValueLayout

set_option maxRecDepth 16384

noncomputable section

namespace Cert.Decoder.Region1

open Cert.KernelIdeal Cert.KernelIdeal.Gen Idealize.ShloMosaic Idealize.ShloMosaic.ValueIdx Idealize.ShloMosaic.TcCoe
open Cert.Lib.Perceptron Cert.Lib.PlainLayer Cert.Decoder
open Idealize.ShloMosaic.Pipeline (Dat)

theorem hz2 : (![0, 0] : Fin 2 → Nat) = fun _ => 0 := funext fun a => by fin_cases a <;> rfl
theorem hz1 : (![0] : Fin 1 → Nat) = fun _ => 0 := funext fun a => by fin_cases a; rfl

theorem pay_state (x0 : Vec Ideal S5000x64 .f32) (x1 : Vec Ideal S64x128 .f32) (x2 : Vec Ideal S128 .f32)
    (p : Fin 5000) (q : Fin 128) : k1_pay1 (F := Ideal) x0 x1 x2 (ix2 p q) = reluAt x0 x1 x2 p q := by
  unfold k1_pay1
  exact plain_relu_entry _ rfl _ x0 x1 x2 _ _ p q

theorem pay_msg (x0 : Vec Ideal S5000x64 .f32) (x1 : Vec Ideal S64x128 .f32) (x2 : Vec Ideal S128 .f32)
    (x3 : Vec Ideal S128x128 .f32) (x4 : Vec Ideal S128 .f32)
    (p : Fin 5000) (q : Fin 128) :
    k1_pay2 (F := Ideal) x0 x1 x2 x3 x4 (ix2 p q) = reluAt (table (reluAt x0 x1 x2)) x3 x4 p q := by
  unfold k1_pay2
  rw [truncf_apply, shapeCast_self, shapeCast_self]
  refine (plain_relu_entry _ rfl _ (k1_pay1 (F := Ideal) x0 x1 x2) x3 x4 _ _ p q).trans ?_
  refine reluAt_congr _ _ x3 x4 p p q fun k => ?_
  rw [table_ix2]
  exact pay_state x0 x1 x2 p k

variable (V : (c : Dev nD) → (b : Ref sig .tc) → Buf (Elt Ideal) ((c : Thread nD τ).loc b))

/-- The printed index maps over the grid. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

theorem blk_arg4 (c : Dev nD) (t : Fin cfg1.N) : iblk1 V c 1 t = V c main_arg4 := by
  obtain ⟨-, -, e2, e3, -⟩ := idx_facts t
  funext y
  show V c main_arg4 (((cfg1.win 1).blk t).view.emb y) = V c main_arg4 y
  refine congrArg _ (funext fun a => Fin.ext ?_)
  match a with
  | ⟨0, _⟩ => show win1_1.index t (0 : Fin 2) * 64 + 1 * (y 0).val = (y 0).val; omega
  | ⟨1, _⟩ => show win1_1.index t (1 : Fin 2) * 128 + 1 * (y 1).val = (y 1).val; omega

theorem blk_arg5 (c : Dev nD) (t : Fin cfg1.N) : iblk1 V c 2 t = V c main_arg5 := by
  obtain ⟨-, -, -, -, e4, -⟩ := idx_facts t
  funext y
  show V c main_arg5 (((cfg1.win 2).blk t).view.emb y) = V c main_arg5 y
  refine congrArg _ (funext fun a => Fin.ext ?_)
  match a with
  | ⟨0, _⟩ => show win1_2.index t (0 : Fin 1) * 128 + 1 * (y 0).val = (y 0).val; omega

theorem blk_v12 (c : Dev nD) (t : Fin cfg1.N) : iblk1 V c 3 t = V c main_v12 := by
  obtain ⟨-, -, -, -, -, e5, e6, -⟩ := idx_facts t
  funext y
  show V c main_v12 (((cfg1.win 3).blk t).view.emb y) = V c main_v12 y
  refine congrArg _ (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

theorem blk_v14 (c : Dev nD) (t : Fin cfg1.N) : iblk1 V c 4 t = V c main_v14 := by
  obtain ⟨-, -, -, -, -, -, -, e7, -⟩ := idx_facts t
  funext y
  show V c main_v14 (((cfg1.win 4).blk t).view.emb y) = V c main_v14 y
  refine congrArg _ (funext fun a => Fin.ext ?_)
  match a with
  | ⟨0, _⟩ => show win1_4.index t (0 : Fin 1) * 128 + 1 * (y 0).val = (y 0).val; omega

/-- Row p of point t's block of the latent table is row (t's block number) * 5000 + p of the table. -/
theorem row_arg0 (c : Dev nD) (t : Fin cfg1.N) (p : Fin 5000) (r : Fin 50000)
    (hr : r.val = win1_0.index t (0 : Fin 2) * 5000 + p.val) (k : Fin 64) :
    iblk1 V c 0 t (ix2 p k) = V c main_arg0 (ix2 r k) := by
  obtain ⟨-, e1, -⟩ := idx_facts t
  show V c main_arg0 (((cfg1.win 0).blk t).view.emb (ix2 p k)) = V c main_arg0 (ix2 r k)
  refine congrArg _ (funext fun a => Fin.ext ?_)
  match a with
  | ⟨0, _⟩ => show win1_0.index t (0 : Fin 2) * 5000 + 1 * p.val = r.val; omega
  | ⟨1, _⟩ => show win1_0.index t (1 : Fin 2) * 64 + 1 * k.val = k.val; omega

theorem pay_state_idx (x0 : Vec Ideal S5000x64 .f32) (x1 : Vec Ideal S64x128 .f32) (x2 : Vec Ideal S128 .f32)
    (y : S5000x128.Idx) : k1_pay1 (F := Ideal) x0 x1 x2 y = reluAt x0 x1 x2 (y 0) (y 1) := by
  obtain ⟨p, q, rfl⟩ : ∃ (p : Fin 5000) (q : Fin 128), y = ix2 p q := ⟨y 0, y 1, eq_ix2 y⟩
  exact pay_state x0 x1 x2 p q

theorem pay_msg_idx (x0 : Vec Ideal S5000x64 .f32) (x1 : Vec Ideal S64x128 .f32) (x2 : Vec Ideal S128 .f32)
    (x3 : Vec Ideal S128x128 .f32) (x4 : Vec Ideal S128 .f32) (y : S5000x128.Idx) :
    k1_pay2 (F := Ideal) x0 x1 x2 x3 x4 y = reluAt (table (reluAt x0 x1 x2)) x3 x4 (y 0) (y 1) := by
  obtain ⟨p, q, rfl⟩ : ∃ (p : Fin 5000) (q : Fin 128), y = ix2 p q := ⟨y 0, y 1, eq_ix2 y⟩
  exact pay_msg x0 x1 x2 x3 x4 p q

set_option maxHeartbeats 1000000 in
/-- What point t writes back to the state table is its block of the rectified input layer of the whole table. -/
theorem flushed5_eq (c : Dev nD) (t : Fin cfg1.N) :
    (dat1 V c).flushed 5 t
      = ((cfg1.win 5).blk t).view.read (Elt Ideal) (rectified (V c main_arg0) (V c main_arg4) (V c main_arg5)) := by
  show (cfg1.win 5).cut (grid1.coords t) ((dat1 V c).after 5 t) = _
  rw [after1_5]
  unfold out1_5
  rw [View.canon_unit_zero hz2]
  simp only [View.ld_unit_zero (S := S5000x64) hz2, View.ld_unit_zero (S := S64x128) hz2, View.ld_unit_zero (S := S128) hz1]
  rw [blk_arg4 V c t, blk_arg5 V c t]
  obtain ⟨e0, -, -, -, -, -, -, -, e8, e9, -⟩ := idx_facts t
  funext j
  refine (pay_state_idx _ _ _ j).trans ?_
  show reluAt (iblk1 V c 0 t) (V c main_arg4) (V c main_arg5) (j 0) (j 1)
    = reluAt (V c main_arg0) (V c main_arg4) (V c main_arg5) ((((cfg1.win 5).blk t).view.emb j) 0) ((((cfg1.win 5).blk t).view.emb j) 1)
  have e1 : (((cfg1.win 5).blk t).view.emb j) 1 = j 1 :=
    Fin.ext (by show win1_5.index t (1 : Fin 2) * 128 + 1 * (j 1).val = (j 1).val; omega)
  rw [e1]
  refine reluAt_congr _ _ _ _ (j 0) _ (j 1) fun k => ?_
  exact row_arg0 V c t (j 0) _ (by show win1_5.index t (0 : Fin 2) * 5000 + 1 * (j 0).val = win1_0.index t (0 : Fin 2) * 5000 + (j 0).val; omega) k

set_option maxHeartbeats 1000000 in
/-- What point t writes back to the message table is its block of the rectified message layer of the whole state. -/
theorem flushed6_eq (c : Dev nD) (t : Fin cfg1.N) :
    (dat1 V c).flushed 6 t
      = ((cfg1.win 6).blk t).view.read (Elt Ideal)
          (rectified (rectified (V c main_arg0) (V c main_arg4) (V c main_arg5)) (V c main_v12) (V c main_v14)) := by
  show (cfg1.win 6).cut (grid1.coords t) ((dat1 V c).after 6 t) = _
  rw [after1_6]
  unfold out1_6
  rw [View.canon_unit_zero hz2]
  simp only [View.ld_unit_zero (S := S5000x64) hz2, View.ld_unit_zero (S := S64x128) hz2, View.ld_unit_zero (S := S128) hz1,
    View.ld_unit_zero (S := S128x128) hz2]
  rw [blk_arg4 V c t, blk_arg5 V c t, blk_v12 V c t, blk_v14 V c t]
  obtain ⟨e0, -, -, -, -, -, -, -, -, -, e10, e11⟩ := idx_facts t
  funext j
  refine (pay_msg_idx _ _ _ _ _ j).trans ?_
  show reluAt (table (reluAt (iblk1 V c 0 t) (V c main_arg4) (V c main_arg5))) (V c main_v12) (V c main_v14) (j 0) (j 1)
    = reluAt (rectified (V c main_arg0) (V c main_arg4) (V c main_arg5)) (V c main_v12) (V c main_v14)
        ((((cfg1.win 6).blk t).view.emb j) 0) ((((cfg1.win 6).blk t).view.emb j) 1)
  have e1 : (((cfg1.win 6).blk t).view.emb j) 1 = j 1 :=
    Fin.ext (by show win1_6.index t (1 : Fin 2) * 128 + 1 * (j 1).val = (j 1).val; omega)
  rw [e1]
  refine reluAt_congr _ _ _ _ (j 0) _ (j 1) fun k => ?_
  show reluAt (iblk1 V c 0 t) (V c main_arg4) (V c main_arg5) (j 0) k
    = reluAt (V c main_arg0) (V c main_arg4) (V c main_arg5) ((((cfg1.win 6).blk t).view.emb j) 0) k
  refine reluAt_congr _ _ _ _ (j 0) _ k fun k' => ?_
  exact row_arg0 V c t (j 0) _ (by show win1_6.index t (0 : Fin 2) * 5000 + 1 * (j 0).val = win1_0.index t (0 : Fin 2) * 5000 + (j 0).val; omega) k'

theorem mem_blk5 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v15_0).slice (win1_5.rect t)).set ↔ _
  rw [View.set_slice_whole, Rect.mem_set_unit]
  exact Iff.rfl

theorem mem_blk6 (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v15_1).slice (win1_6.rect t)).set ↔ _
  rw [View.set_slice_whole, Rect.mem_set_unit]
  exact Iff.rfl

/-- Every block of rows is some point's. -/
theorem idx_onto : ∀ q0 : Fin 10, ∃ t : Fin cfg1.N, win1_5.index t = ![q0.val, 0] ∧ win1_6.index t = ![q0.val, 0] :=
  (by decide +kernel : ∀ q0 : Fin 10, ∃ t : Fin grid1.N, win1_5.index t = ![q0.val, 0] ∧ win1_6.index t = ![q0.val, 0])

theorem cover5 (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht, -⟩ := idx_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk5]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

theorem cover6 (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  obtain ⟨t, -, ht⟩ := idx_onto ⟨(i 0).val / 5000, by omega⟩
  have q0 : win1_6.index t (0 : Fin 2) = (i 0).val / 5000 := congrFun ht 0
  have q1 : win1_6.index t (1 : Fin 2) = 0 := congrFun ht 1
  refine ⟨t, flush1_6 t, ?_⟩
  rw [mem_blk6]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- After the launch the state table is the rectified input layer of the latent table. -/
theorem state_array (c : Dev nD) :
    (dat1 V c).arrAt 5 cfg1.N = rectified (V c main_arg0) (V c main_arg4) (V c main_arg5) :=
  (dat1 V c).arrAt_eq_of_cover 5 _ (fun t _ => flushed5_eq V c t) cover5

/-- After the launch the message table is the rectified message layer of that state. -/
theorem message_array (c : Dev nD) :
    (dat1 V c).arrAt 6 cfg1.N
      = rectified (rectified (V c main_arg0) (V c main_arg4) (V c main_arg5)) (V c main_v12) (V c main_v14) :=
  (dat1 V c).arrAt_eq_of_cover 6 _ (fun t _ => flushed6_eq V c t) cover6

end Cert.Decoder.Region1

end
-- ==== Proof.RoundRegion2.lean ====
/-
  A node launch that finishes one round of message passing and starts the next.

  The launch walks the 50000 rows of the state table and of the table of aggregated messages in ten blocks of 5000. At
  a block it adds to the state's rows the rectified update layer of the aggregated rows (rows against the update
  weights, plus the bias, floored at zero), which is the new state, and computes from the new state's rows the next
  round's rectified message layer; both are written back as the same rows of two tables. An entry (p, q) of either
  reads row p of the inputs only, so block t of what is written is block t of the residual update — and of the message
  layer of the residual update — of the WHOLE tables; the ten blocks cover the tables.
-/
import proofs.«102918_j30047591203218_2_alg».proof.Proof.Gen.KernelIdeal.Frame
import proofs.«102918_j30047591203218_2_alg».proof.Proof.DecoderSpec
import proofs.«102918_j30047591203218_2_alg».proof.Proof.LibPlainLayer
import Idealize.ShloMosaic.Lib.Pipeline.Value
import Idealize.ShloMosaic.Lib.ValueIdx
import Idealize.ShloMosaic.Lib.ValueLayout

set_option maxRecDepth 16384

noncomputable section

namespace Cert.Decoder.Round2

open Cert.KernelIdeal Cert.KernelIdeal.Gen Idealize.ShloMosaic Idealize.ShloMosaic.ValueIdx Idealize.ShloMosaic.TcCoe
open Cert.Lib.Perceptron Cert.Lib.PlainLayer Cert.Decoder
open Idealize.ShloMosaic.Pipeline (Dat)

theorem hz2 : (![0, 0] : Fin 2 → Nat) = fun _ => 0 := funext fun a => by fin_cases a <;> rfl
theorem hz1 : (![0] : Fin 1 → Nat) = fun _ => 0 := funext fun a => by fin_cases a; rfl

/-- The new state at an entry: the old state's entry plus the rectified update layer of the aggregated rows. -/
theorem pay_state (a : Vec Ideal S5000x128 .f32) (w : Vec Ideal S128x128 .f32) (b : Vec Ideal S128 .f32)
    (s : Vec Ideal S5000x128 .f32) (p : Fin 5000) (q : Fin 128) :
    k2_pay1 (F := Ideal) a w b s (ix2 p q) = s (ix2 p q) + reluAt a w b p q := by
  unfold k2_pay1
  simp only [shapeCast_self]
  rw [addf_apply]
  exact congrArg (s (ix2 p q) + ·) (plain_relu_entry _ rfl _ a w b _ _ p q)

/-- The next message at an entry: the rectified message layer of the new state's rows. -/
theorem pay_msg (a : Vec Ideal S5000x128 .f32) (w : Vec Ideal S128x128 .f32) (b : Vec Ideal S128 .f32)
    (s : Vec Ideal S5000x128 .f32) (w' : Vec Ideal S128x128 .f32) (b' : Vec Ideal S128 .f32) (p : Fin 5000) (q : Fin 128) :
    k2_pay2 (F := Ideal) a w b s w' b' (ix2 p q)
      = reluAt (table fun p' k => s (ix2 p' k) + reluAt a w b p' k) w' b' p q := by
  unfold k2_pay2
  rw [truncf_apply]
  simp only [shapeCast_self]
  refine (plain_relu_entry _ rfl _ (k2_pay1 (F := Ideal) a w b s) w' b' _ _ p q).trans ?_
  refine reluAt_congr _ _ w' b' p p q fun k => ?_
  rw [table_ix2]
  exact pay_state a w b s p k

theorem pay_state_idx (a : Vec Ideal S5000x128 .f32) (w : Vec Ideal S128x128 .f32) (b : Vec Ideal S128 .f32)
    (s : Vec Ideal S5000x128 .f32) (y : S5000x128.Idx) :
    k2_pay1 (F := Ideal) a w b s y = s y + reluAt a w b (y 0) (y 1) := by
  obtain ⟨p, q, rfl⟩ : ∃ (p : Fin 5000) (q : Fin 128), y = ix2 p q := ⟨y 0, y 1, eq_ix2 y⟩
  exact pay_state a w b s p q

theorem pay_msg_idx (a : Vec Ideal S5000x128 .f32) (w : Vec Ideal S128x128 .f32) (b : Vec Ideal S128 .f32)
    (s : Vec Ideal S5000x128 .f32) (w' : Vec Ideal S128x128 .f32) (b' : Vec Ideal S128 .f32) (y : S5000x128.Idx) :
    k2_pay2 (F := Ideal) a w b s w' b' y
      = reluAt (table fun p' k => s (ix2 p' k) + reluAt a w b p' k) w' b' (y 0) (y 1) := by
  obtain ⟨p, q, rfl⟩ : ∃ (p : Fin 5000) (q : Fin 128), y = ix2 p q := ⟨y 0, y 1, eq_ix2 y⟩
  exact pay_msg a w b s w' b' p q

/-- A block's new-state entry is the whole tables' residual update at the array entry it lands on, when the
    block's row p is row r of both tables. -/
theorem state_entry_at (a : Vec Ideal S5000x128 .f32) (w : Vec Ideal S128x128 .f32) (b : Vec Ideal S128 .f32)
    (s : Vec Ideal S5000x128 .f32) (S A : Mat 50000 128) (p : Fin 5000) (q : Fin 128) (r : Fin 50000)
    (hs : s (ix2 p q) = S (ix2 r q)) (ha : ∀ k : Fin 128, a (ix2 p k) = A (ix2 r k)) :
    k2_pay1 (F := Ideal) a w b s (ix2 p q) = residual S A w b (ix2 r q) := by
  rw [pay_state, residual_ix2, hs]
  exact congrArg (S (ix2 r q) + ·) (reluAt_congr _ _ w b p r q ha)

/-- The same for the next message. -/
theorem msg_entry_at (a : Vec Ideal S5000x128 .f32) (w : Vec Ideal S128x128 .f32) (b : Vec Ideal S128 .f32)
    (s : Vec Ideal S5000x128 .f32) (w' : Vec Ideal S128x128 .f32) (b' : Vec Ideal S128 .f32)
    (S A : Mat 50000 128) (p : Fin 5000) (q : Fin 128) (r : Fin 50000)
    (hs : ∀ k : Fin 128, s (ix2 p k) = S (ix2 r k)) (ha : ∀ k : Fin 128, a (ix2 p k) = A (ix2 r k)) :
    k2_pay2 (F := Ideal) a w b s w' b' (ix2 p q) = rectified (residual S A w b) w' b' (ix2 r q) := by
  rw [pay_msg, rectified_ix2]
  refine reluAt_congr _ _ w' b' p r q fun k => ?_
  rw [table_ix2, residual_ix2, hs k]
  exact congrArg (S (ix2 r k) + ·) (reluAt_congr _ _ w b p r k ha)

theorem state_entry (a : Vec Ideal S5000x128 .f32) (w : Vec Ideal S128x128 .f32) (b : Vec Ideal S128 .f32)
    (s : Vec Ideal S5000x128 .f32) (S A : Mat 50000 128) (y : S5000x128.Idx) (i : S50000x128.Idx)
    (hq : i 1 = y 1) (hs : s y = S i) (ha : ∀ k : Fin 128, a (ix2 (y 0) k) = A (ix2 (i 0) k)) :
    k2_pay1 (F := Ideal) a w b s y = residual S A w b i := by
  obtain ⟨p, q, rfl⟩ : ∃ (p : Fin 5000) (q : Fin 128), y = ix2 p q := ⟨y 0, y 1, eq_ix2 y⟩
  obtain ⟨r, q', rfl⟩ : ∃ (r : Fin 50000) (q' : Fin 128), i = ix2 r q' := ⟨i 0, i 1, eq_ix2 i⟩
  have hq' : q' = q := hq
  subst hq'
  exact state_entry_at a w b s S A p q' r hs ha

theorem msg_entry (a : Vec Ideal S5000x128 .f32) (w : Vec Ideal S128x128 .f32) (b : Vec Ideal S128 .f32)
    (s : Vec Ideal S5000x128 .f32) (w' : Vec Ideal S128x128 .f32) (b' : Vec Ideal S128 .f32)
    (S A : Mat 50000 128) (y : S5000x128.Idx) (i : S50000x128.Idx)
    (hq : i 1 = y 1) (hs : ∀ k : Fin 128, s (ix2 (y 0) k) = S (ix2 (i 0) k))
    (ha : ∀ k : Fin 128, a (ix2 (y 0) k) = A (ix2 (i 0) k)) :
    k2_pay2 (F := Ideal) a w b s w' b' y = rectified (residual S A w b) w' b' i := by
  obtain ⟨p, q, rfl⟩ : ∃ (p : Fin 5000) (q : Fin 128), y = ix2 p q := ⟨y 0, y 1, eq_ix2 y⟩
  obtain ⟨r, q', rfl⟩ : ∃ (r : Fin 50000) (q' : Fin 128), i = ix2 r q' := ⟨i 0, i 1, eq_ix2 i⟩
  have hq' : q' = q := hq
  subst hq'
  exact msg_entry_at a w b s w' b' S A p q' r hs ha

variable (V : (c : Dev nD) → (b : Ref sig .tc) → Buf (Elt Ideal) ((c : Thread nD τ).loc b))

/-- The printed index maps over the grid. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 1) = 0
    ∧ win2_6.index t (0 : Fin 2) = t.val ∧ win2_6.index t (1 : Fin 2) = 0
    ∧ win2_7.index t (0 : Fin 2) = t.val ∧ win2_7.index t (1 : Fin 2) = 0 :=
  (by decide +kernel : ∀ t : Fin grid2.N, _)

theorem blk_wu (c : Dev nD) (t : Fin cfg2.N) : iblk2 V c 2 t = V c main_v28 := by
  obtain ⟨-, -, -, -, e4, e5, -⟩ := idx_facts t
  funext y
  show V c main_v28 (((cfg2.win 2).blk t).view.emb y) = V c main_v28 y
  refine congrArg _ (funext fun a => Fin.ext ?_)
  match a with
  | ⟨0, _⟩ => show win2_2.index t (0 : Fin 2) * 128 + 1 * (y 0).val = (y 0).val; omega
  | ⟨1, _⟩ => show win2_2.index t (1 : Fin 2) * 128 + 1 * (y 1).val = (y 1).val; omega

theorem blk_bu (c : Dev nD) (t : Fin cfg2.N) : iblk2 V c 3 t = V c main_v30 := by
  obtain ⟨-, -, -, -, -, -, e6, -⟩ := idx_facts t
  funext y
  show V c main_v30 (((cfg2.win 3).blk t).view.emb y) = V c main_v30 y
  refine congrArg _ (funext fun a => Fin.ext ?_)
  match a with
  | ⟨0, _⟩ => show win2_3.index t (0 : Fin 1) * 128 + 1 * (y 0).val = (y 0).val; omega

theorem blk_wn (c : Dev nD) (t : Fin cfg2.N) : iblk2 V c 4 t = V c main_v32 := by
  obtain ⟨-, -, -, -, -, -, -, e7, e8, -⟩ := idx_facts t
  funext y
  show V c main_v32 (((cfg2.win 4).blk t).view.emb y) = V c main_v32 y
  refine congrArg _ (funext fun a => Fin.ext ?_)
  match a with
  | ⟨0, _⟩ => show win2_4.index t (0 : Fin 2) * 128 + 1 * (y 0).val = (y 0).val; omega
  | ⟨1, _⟩ => show win2_4.index t (1 : Fin 2) * 128 + 1 * (y 1).val = (y 1).val; omega

theorem blk_bn (c : Dev nD) (t : Fin cfg2.N) : iblk2 V c 5 t = V c main_v34 := by
  obtain ⟨-, -, -, -, -, -, -, -, -, e9, -⟩ := idx_facts t
  funext y
  show V c main_v34 (((cfg2.win 5).blk t).view.emb y) = V c main_v34 y
  refine congrArg _ (funext fun a => Fin.ext ?_)
  match a with
  | ⟨0, _⟩ => show win2_5.index t (0 : Fin 1) * 128 + 1 * (y 0).val = (y 0).val; omega

/-- Row p of point t's block of the state table is row (t's block number) * 5000 + p of the table. -/
theorem row_state (c : Dev nD) (t : Fin cfg2.N) (p : Fin 5000) (r : Fin 50000)
    (hr : r.val = win2_0.index t (0 : Fin 2) * 5000 + p.val) (k : Fin 128) :
    iblk2 V c 0 t (ix2 p k) = V c main_v15_0 (ix2 r k) := by
  obtain ⟨-, e1, -⟩ := idx_facts t
  show V c main_v15_0 (((cfg2.win 0).blk t).view.emb (ix2 p k)) = V c main_v15_0 (ix2 r k)
  refine congrArg _ (funext fun a => Fin.ext ?_)
  match a with
  | ⟨0, _⟩ => show win2_0.index t (0 : Fin 2) * 5000 + 1 * p.val = r.val; omega
  | ⟨1, _⟩ => show win2_0.index t (1 : Fin 2) * 128 + 1 * k.val = k.val; omega

/-- The same for the table of aggregated messages. -/
theorem row_agg (c : Dev nD) (t : Fin cfg2.N) (p : Fin 5000) (r : Fin 50000)
    (hr : r.val = win2_1.index t (0 : Fin 2) * 5000 + p.val) (k : Fin 128) :
    iblk2 V c 1 t (ix2 p k) = V c main_v26 (ix2 r k) := by
  obtain ⟨-, -, -, e3, -⟩ := idx_facts t
  show V c main_v26 (((cfg2.win 1).blk t).view.emb (ix2 p k)) = V c main_v26 (ix2 r k)
  refine congrArg _ (funext fun a => Fin.ext ?_)
  match a with
  | ⟨0, _⟩ => show win2_1.index t (0 : Fin 2) * 5000 + 1 * p.val = r.val; omega
  | ⟨1, _⟩ => show win2_1.index t (1 : Fin 2) * 128 + 1 * k.val = k.val; omega

set_option maxHeartbeats 1000000 in
/-- What point t writes back to the state table is its block of the residual update of the whole tables. -/
theorem flushed6_eq (c : Dev nD) (t : Fin cfg2.N) :
    (dat2 V c).flushed 6 t
      = ((cfg2.win 6).blk t).view.read (Elt Ideal) (residual (V c main_v15_0) (V c main_v26) (V c main_v28) (V c main_v30)) := by
  show (cfg2.win 6).cut (grid2.coords t) ((dat2 V c).after 6 t) = _
  rw [after2_6]
  unfold out2_6
  rw [View.canon_unit_zero hz2]
  simp only [View.ld_unit_zero (S := S5000x128) hz2, View.ld_unit_zero (S := S128x128) hz2, View.ld_unit_zero (S := S128) hz1]
  rw [blk_wu V c t, blk_bu V c t]
  obtain ⟨e0, e1, e2, e3, -, -, -, -, -, -, e10, e11, -⟩ := idx_facts t
  funext j
  have e1' : (((cfg2.win 6).blk t).view.emb j) 1 = j 1 :=
    Fin.ext (by show win2_6.index t (1 : Fin 2) * 128 + 1 * (j 1).val = (j 1).val; omega)
  have es : iblk2 V c 0 t j = V c main_v15_0 (((cfg2.win 6).blk t).view.emb j) := by
    show V c main_v15_0 (((cfg2.win 0).blk t).view.emb j) = V c main_v15_0 (((cfg2.win 6).blk t).view.emb j)
    refine congrArg _ (funext fun a => Fin.ext ?_)
    match a with
    | ⟨0, _⟩ => show win2_0.index t (0 : Fin 2) * 5000 + 1 * (j 0).val = win2_6.index t (0 : Fin 2) * 5000 + 1 * (j 0).val; omega
    | ⟨1, _⟩ => show win2_0.index t (1 : Fin 2) * 128 + 1 * (j 1).val = win2_6.index t (1 : Fin 2) * 128 + 1 * (j 1).val; omega
  exact state_entry (iblk2 V c 1 t) (V c main_v28) (V c main_v30) (iblk2 V c 0 t) (V c main_v15_0) (V c main_v26) j
    (((cfg2.win 6).blk t).view.emb j) e1' es
    (fun k => row_agg V c t (j 0) _ (by show win2_6.index t (0 : Fin 2) * 5000 + 1 * (j 0).val = win2_1.index t (0 : Fin 2) * 5000 + (j 0).val; omega) k)

set_option maxHeartbeats 1000000 in
/-- What point t writes back to the message table is its block of the message layer of that residual update. -/
theorem flushed7_eq (c : Dev nD) (t : Fin cfg2.N) :
    (dat2 V c).flushed 7 t
      = ((cfg2.win 7).blk t).view.read (Elt Ideal)
          (rectified (residual (V c main_v15_0) (V c main_v26) (V c main_v28) (V c main_v30)) (V c main_v32) (V c main_v34)) := by
  show (cfg2.win 7).cut (grid2.coords t) ((dat2 V c).after 7 t) = _
  rw [after2_7]
  unfold out2_7
  rw [View.canon_unit_zero hz2]
  simp only [View.ld_unit_zero (S := S5000x128) hz2, View.ld_unit_zero (S := S128x128) hz2, View.ld_unit_zero (S := S128) hz1]
  rw [blk_wu V c t, blk_bu V c t, blk_wn V c t, blk_bn V c t]
  obtain ⟨e0, e1, e2, e3, -, -, -, -, -, -, -, -, e12, e13⟩ := idx_facts t
  funext j
  have e1' : (((cfg2.win 7).blk t).view.emb j) 1 = j 1 :=
    Fin.ext (by show win2_7.index t (1 : Fin 2) * 128 + 1 * (j 1).val = (j 1).val; omega)
  have hr0 : ((((cfg2.win 7).blk t).view.emb j) 0).val = win2_0.index t (0 : Fin 2) * 5000 + (j 0).val := by
    show win2_7.index t (0 : Fin 2) * 5000 + 1 * (j 0).val = win2_0.index t (0 : Fin 2) * 5000 + (j 0).val; omega
  have hr1 : ((((cfg2.win 7).blk t).view.emb j) 0).val = win2_1.index t (0 : Fin 2) * 5000 + (j 0).val := by
    show win2_7.index t (0 : Fin 2) * 5000 + 1 * (j 0).val = win2_1.index t (0 : Fin 2) * 5000 + (j 0).val; omega
  exact msg_entry (iblk2 V c 1 t) (V c main_v28) (V c main_v30) (iblk2 V c 0 t) (V c main_v32) (V c main_v34) (V c main_v15_0) (V c main_v26) j
    (((cfg2.win 7).blk t).view.emb j) e1'
    (fun k => row_state V c t (j 0) _ hr0 k) (fun k => row_agg V c t (j 0) _ hr1 k)

theorem mem_blk6 (t : Fin cfg2.N) (i : S50000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v35_0).slice (win2_6.rect t)).set ↔ _
  rw [View.set_slice_whole, Rect.mem_set_unit]
  exact Iff.rfl

theorem mem_blk7 (t : Fin cfg2.N) (i : S50000x128.Idx) :
    i ∈ ((cfg2.win 7).blk t).view.set ↔ ∀ a : Fin 2, win2_7.index t a * S5000x128.size a ≤ (i a).val ∧ (i a).val < win2_7.index t a * S5000x128.size a + S5000x128.size a := by
  show i ∈ ((View.whole main_v35_1).slice (win2_7.rect t)).set ↔ _
  rw [View.set_slice_whole, Rect.mem_set_unit]
  exact Iff.rfl

/-- Every block of rows is some point's. -/
theorem idx_onto : ∀ q0 : Fin 10, ∃ t : Fin cfg2.N, win2_6.index t = ![q0.val, 0] ∧ win2_7.index t = ![q0.val, 0] :=
  (by decide +kernel : ∀ q0 : Fin 10, ∃ t : Fin grid2.N, win2_6.index t = ![q0.val, 0] ∧ win2_7.index t = ![q0.val, 0])

theorem cover6 (i : S50000x128.Idx) : ∃ t : Fin cfg2.N, (cfg2.win 6).flush t = true ∧ i ∈ ((cfg2.win 6).blk t).view.set := by
  have hi0 : (i 0).val < 50000 := (i 0).isLt
  have hi1 : (i 1).val < 128 := (i 1).isLt
  obtain ⟨t, ht, -⟩ := idx_onto ⟨(i 0).val / 5000, by omega⟩
  have q0 : win2_6.index t (0 : Fin 2) = (i 0).val / 5000 := congrFun ht 0
  have q1 : win2_6.index t (1 : Fin 2) = 0 := congrFun ht 1
  refine ⟨t, flush2_6 t, ?_⟩
  rw [mem_blk6]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 128 ≤ (i 1).val ∧ (i 1).val < win2_6.index t (1 : Fin 2) * 128 + 128; omega

theorem cover7 (i : S50000x128.Idx) : ∃ t : Fin cfg2.N, (cfg2.win 7).flush t = true ∧ i ∈ ((cfg2.win 7).blk t).view.set := by
  have hi0 : (i 0).val < 50000 := (i 0).isLt
  have hi1 : (i 1).val < 128 := (i 1).isLt
  obtain ⟨t, -, ht⟩ := idx_onto ⟨(i 0).val / 5000, by omega⟩
  have q0 : win2_7.index t (0 : Fin 2) = (i 0).val / 5000 := congrFun ht 0
  have q1 : win2_7.index t (1 : Fin 2) = 0 := congrFun ht 1
  refine ⟨t, flush2_7 t, ?_⟩
  rw [mem_blk7]
  intro a
  match a with
  | ⟨0, _⟩ => show win2_7.index t (0 : Fin 2) * 5000 ≤ (i 0).val ∧ (i 0).val < win2_7.index t (0 : Fin 2) * 5000 + 5000; omega
  | ⟨1, _⟩ => show win2_7.index t (1 : Fin 2) * 128 ≤ (i 1).val ∧ (i 1).val < win2_7.index t (1 : Fin 2) * 128 + 128; omega

/-- After the launch the new state table is the residual update of the old state by the aggregated messages. -/
theorem state_array (c : Dev nD) :
    (dat2 V c).arrAt 6 cfg2.N = residual (V c main_v15_0) (V c main_v26) (V c main_v28) (V c main_v30) :=
  (dat2 V c).arrAt_eq_of_cover 6 _ (fun t _ => flushed6_eq V c t) cover6

/-- After the launch the message table is the rectified message layer of the new state. -/
theorem message_array (c : Dev nD) :
    (dat2 V c).arrAt 7 cfg2.N
      = rectified (residual (V c main_v15_0) (V c main_v26) (V c main_v28) (V c main_v30)) (V c main_v32) (V c main_v34) :=
  (dat2 V c).arrAt_eq_of_cover 7 _ (fun t _ => flushed7_eq V c t) cover7

end Cert.Decoder.Round2

end
-- ==== Proof.RoundRegion3.lean ====
/-
  A node launch that finishes one round of message passing and starts the next.

  The launch walks the 50000 rows of the state table and of the table of aggregated messages in ten blocks of 5000. At
  a block it adds to the state's rows the rectified update layer of the aggregated rows (rows against the update
  weights, plus the bias, floored at zero), which is the new state, and computes from the new state's rows the next
  round's rectified message layer; both are written back as the same rows of two tables. An entry (p, q) of either
  reads row p of the inputs only, so block t of what is written is block t of the residual update — and of the message
  layer of the residual update — of the WHOLE tables; the ten blocks cover the tables.
-/
import proofs.«102918_j30047591203218_2_alg».proof.Proof.Gen.KernelIdeal.Frame
import proofs.«102918_j30047591203218_2_alg».proof.Proof.DecoderSpec
import proofs.«102918_j30047591203218_2_alg».proof.Proof.LibPlainLayer
import Idealize.ShloMosaic.Lib.Pipeline.Value
import Idealize.ShloMosaic.Lib.ValueIdx
import Idealize.ShloMosaic.Lib.ValueLayout

set_option maxRecDepth 16384

noncomputable section

namespace Cert.Decoder.Round3

open Cert.KernelIdeal Cert.KernelIdeal.Gen Idealize.ShloMosaic Idealize.ShloMosaic.ValueIdx Idealize.ShloMosaic.TcCoe
open Cert.Lib.Perceptron Cert.Lib.PlainLayer Cert.Decoder
open Idealize.ShloMosaic.Pipeline (Dat)

theorem hz2 : (![0, 0] : Fin 2 → Nat) = fun _ => 0 := funext fun a => by fin_cases a <;> rfl
theorem hz1 : (![0] : Fin 1 → Nat) = fun _ => 0 := funext fun a => by fin_cases a; rfl

/-- The new state at an entry: the old state's entry plus the rectified update layer of the aggregated rows. -/
theorem pay_state (a : Vec Ideal S5000x128 .f32) (w : Vec Ideal S128x128 .f32) (b : Vec Ideal S128 .f32)
    (s : Vec Ideal S5000x128 .f32) (p : Fin 5000) (q : Fin 128) :
    k3_pay1 (F := Ideal) a w b s (ix2 p q) = s (ix2 p q) + reluAt a w b p q := by
  unfold k3_pay1
  simp only [shapeCast_self]
  rw [addf_apply]
  exact congrArg (s (ix2 p q) + ·) (plain_relu_entry _ rfl _ a w b _ _ p q)

/-- The next message at an entry: the rectified message layer of the new state's rows. -/
theorem pay_msg (a : Vec Ideal S5000x128 .f32) (w : Vec Ideal S128x128 .f32) (b : Vec Ideal S128 .f32)
    (s : Vec Ideal S5000x128 .f32) (w' : Vec Ideal S128x128 .f32) (b' : Vec Ideal S128 .f32) (p : Fin 5000) (q : Fin 128) :
    k3_pay2 (F := Ideal) a w b s w' b' (ix2 p q)
      = reluAt (table fun p' k => s (ix2 p' k) + reluAt a w b p' k) w' b' p q := by
  unfold k3_pay2
  rw [truncf_apply]
  simp only [shapeCast_self]
  refine (plain_relu_entry _ rfl _ (k3_pay1 (F := Ideal) a w b s) w' b' _ _ p q).trans ?_
  refine reluAt_congr _ _ w' b' p p q fun k => ?_
  rw [table_ix2]
  exact pay_state a w b s p k

theorem pay_state_idx (a : Vec Ideal S5000x128 .f32) (w : Vec Ideal S128x128 .f32) (b : Vec Ideal S128 .f32)
    (s : Vec Ideal S5000x128 .f32) (y : S5000x128.Idx) :
    k3_pay1 (F := Ideal) a w b s y = s y + reluAt a w b (y 0) (y 1) := by
  obtain ⟨p, q, rfl⟩ : ∃ (p : Fin 5000) (q : Fin 128), y = ix2 p q := ⟨y 0, y 1, eq_ix2 y⟩
  exact pay_state a w b s p q

theorem pay_msg_idx (a : Vec Ideal S5000x128 .f32) (w : Vec Ideal S128x128 .f32) (b : Vec Ideal S128 .f32)
    (s : Vec Ideal S5000x128 .f32) (w' : Vec Ideal S128x128 .f32) (b' : Vec Ideal S128 .f32) (y : S5000x128.Idx) :
    k3_pay2 (F := Ideal) a w b s w' b' y
      = reluAt (table fun p' k => s (ix2 p' k) + reluAt a w b p' k) w' b' (y 0) (y 1) := by
  obtain ⟨p, q, rfl⟩ : ∃ (p : Fin 5000) (q : Fin 128), y = ix2 p q := ⟨y 0, y 1, eq_ix2 y⟩
  exact pay_msg a w b s w' b' p q

/-- A block's new-state entry is the whole tables' residual update at the array entry it lands on, when the
    block's row p is row r of both tables. -/
theorem state_entry_at (a : Vec Ideal S5000x128 .f32) (w : Vec Ideal S128x128 .f32) (b : Vec Ideal S128 .f32)
    (s : Vec Ideal S5000x128 .f32) (S A : Mat 50000 128) (p : Fin 5000) (q : Fin 128) (r : Fin 50000)
    (hs : s (ix2 p q) = S (ix2 r q)) (ha : ∀ k : Fin 128, a (ix2 p k) = A (ix2 r k)) :
    k3_pay1 (F := Ideal) a w b s (ix2 p q) = residual S A w b (ix2 r q) := by
  rw [pay_state, residual_ix2, hs]
  exact congrArg (S (ix2 r q) + ·) (reluAt_congr _ _ w b p r q ha)

/-- The same for the next message. -/
theorem msg_entry_at (a : Vec Ideal S5000x128 .f32) (w : Vec Ideal S128x128 .f32) (b : Vec Ideal S128 .f32)
    (s : Vec Ideal S5000x128 .f32) (w' : Vec Ideal S128x128 .f32) (b' : Vec Ideal S128 .f32)
    (S A : Mat 50000 128) (p : Fin 5000) (q : Fin 128) (r : Fin 50000)
    (hs : ∀ k : Fin 128, s (ix2 p k) = S (ix2 r k)) (ha : ∀ k : Fin 128, a (ix2 p k) = A (ix2 r k)) :
    k3_pay2 (F := Ideal) a w b s w' b' (ix2 p q) = rectified (residual S A w b) w' b' (ix2 r q) := by
  rw [pay_msg, rectified_ix2]
  refine reluAt_congr _ _ w' b' p r q fun k => ?_
  rw [table_ix2, residual_ix2, hs k]
  exact congrArg (S (ix2 r k) + ·) (reluAt_congr _ _ w b p r k ha)

theorem state_entry (a : Vec Ideal S5000x128 .f32) (w : Vec Ideal S128x128 .f32) (b : Vec Ideal S128 .f32)
    (s : Vec Ideal S5000x128 .f32) (S A : Mat 50000 128) (y : S5000x128.Idx) (i : S50000x128.Idx)
    (hq : i 1 = y 1) (hs : s y = S i) (ha : ∀ k : Fin 128, a (ix2 (y 0) k) = A (ix2 (i 0) k)) :
    k3_pay1 (F := Ideal) a w b s y = residual S A w b i := by
  obtain ⟨p, q, rfl⟩ : ∃ (p : Fin 5000) (q : Fin 128), y = ix2 p q := ⟨y 0, y 1, eq_ix2 y⟩
  obtain ⟨r, q', rfl⟩ : ∃ (r : Fin 50000) (q' : Fin 128), i = ix2 r q' := ⟨i 0, i 1, eq_ix2 i⟩
  have hq' : q' = q := hq
  subst hq'
  exact state_entry_at a w b s S A p q' r hs ha

theorem msg_entry (a : Vec Ideal S5000x128 .f32) (w : Vec Ideal S128x128 .f32) (b : Vec Ideal S128 .f32)
    (s : Vec Ideal S5000x128 .f32) (w' : Vec Ideal S128x128 .f32) (b' : Vec Ideal S128 .f32)
    (S A : Mat 50000 128) (y : S5000x128.Idx) (i : S50000x128.Idx)
    (hq : i 1 = y 1) (hs : ∀ k : Fin 128, s (ix2 (y 0) k) = S (ix2 (i 0) k))
    (ha : ∀ k : Fin 128, a (ix2 (y 0) k) = A (ix2 (i 0) k)) :
    k3_pay2 (F := Ideal) a w b s w' b' y = rectified (residual S A w b) w' b' i := by
  obtain ⟨p, q, rfl⟩ : ∃ (p : Fin 5000) (q : Fin 128), y = ix2 p q := ⟨y 0, y 1, eq_ix2 y⟩
  obtain ⟨r, q', rfl⟩ : ∃ (r : Fin 50000) (q' : Fin 128), i = ix2 r q' := ⟨i 0, i 1, eq_ix2 i⟩
  have hq' : q' = q := hq
  subst hq'
  exact msg_entry_at a w b s w' b' S A p q' r hs ha

variable (V : (c : Dev nD) → (b : Ref sig .tc) → Buf (Elt Ideal) ((c : Thread nD τ).loc b))

/-- The printed index maps over the grid. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 1) = 0
    ∧ win3_4.index t (0 : Fin 2) = 0 ∧ win3_4.index t (1 : Fin 2) = 0
    ∧ win3_5.index t (0 : Fin 1) = 0
    ∧ win3_6.index t (0 : Fin 2) = t.val ∧ win3_6.index t (1 : Fin 2) = 0
    ∧ win3_7.index t (0 : Fin 2) = t.val ∧ win3_7.index t (1 : Fin 2) = 0 :=
  (by decide +kernel : ∀ t : Fin grid3.N, _)

theorem blk_wu (c : Dev nD) (t : Fin cfg3.N) : iblk3 V c 2 t = V c main_v48 := by
  obtain ⟨-, -, -, -, e4, e5, -⟩ := idx_facts t
  funext y
  show V c main_v48 (((cfg3.win 2).blk t).view.emb y) = V c main_v48 y
  refine congrArg _ (funext fun a => Fin.ext ?_)
  match a with
  | ⟨0, _⟩ => show win3_2.index t (0 : Fin 2) * 128 + 1 * (y 0).val = (y 0).val; omega
  | ⟨1, _⟩ => show win3_2.index t (1 : Fin 2) * 128 + 1 * (y 1).val = (y 1).val; omega

theorem blk_bu (c : Dev nD) (t : Fin cfg3.N) : iblk3 V c 3 t = V c main_v50 := by
  obtain ⟨-, -, -, -, -, -, e6, -⟩ := idx_facts t
  funext y
  show V c main_v50 (((cfg3.win 3).blk t).view.emb y) = V c main_v50 y
  refine congrArg _ (funext fun a => Fin.ext ?_)
  match a with
  | ⟨0, _⟩ => show win3_3.index t (0 : Fin 1) * 128 + 1 * (y 0).val = (y 0).val; omega

theorem blk_wn (c : Dev nD) (t : Fin cfg3.N) : iblk3 V c 4 t = V c main_v52 := by
  obtain ⟨-, -, -, -, -, -, -, e7, e8, -⟩ := idx_facts t
  funext y
  show V c main_v52 (((cfg3.win 4).blk t).view.emb y) = V c main_v52 y
  refine congrArg _ (funext fun a => Fin.ext ?_)
  match a with
  | ⟨0, _⟩ => show win3_4.index t (0 : Fin 2) * 128 + 1 * (y 0).val = (y 0).val; omega
  | ⟨1, _⟩ => show win3_4.index t (1 : Fin 2) * 128 + 1 * (y 1).val = (y 1).val; omega

theorem blk_bn (c : Dev nD) (t : Fin cfg3.N) : iblk3 V c 5 t = V c main_v54 := by
  obtain ⟨-, -, -, -, -, -, -, -, -, e9, -⟩ := idx_facts t
  funext y
  show V c main_v54 (((cfg3.win 5).blk t).view.emb y) = V c main_v54 y
  refine congrArg _ (funext fun a => Fin.ext ?_)
  match a with
  | ⟨0, _⟩ => show win3_5.index t (0 : Fin 1) * 128 + 1 * (y 0).val = (y 0).val; omega

/-- Row p of point t's block of the state table is row (t's block number) * 5000 + p of the table. -/
theorem row_state (c : Dev nD) (t : Fin cfg3.N) (p : Fin 5000) (r : Fin 50000)
    (hr : r.val = win3_0.index t (0 : Fin 2) * 5000 + p.val) (k : Fin 128) :
    iblk3 V c 0 t (ix2 p k) = V c main_v35_0 (ix2 r k) := by
  obtain ⟨-, e1, -⟩ := idx_facts t
  show V c main_v35_0 (((cfg3.win 0).blk t).view.emb (ix2 p k)) = V c main_v35_0 (ix2 r k)
  refine congrArg _ (funext fun a => Fin.ext ?_)
  match a with
  | ⟨0, _⟩ => show win3_0.index t (0 : Fin 2) * 5000 + 1 * p.val = r.val; omega
  | ⟨1, _⟩ => show win3_0.index t (1 : Fin 2) * 128 + 1 * k.val = k.val; omega

/-- The same for the table of aggregated messages. -/
theorem row_agg (c : Dev nD) (t : Fin cfg3.N) (p : Fin 5000) (r : Fin 50000)
    (hr : r.val = win3_1.index t (0 : Fin 2) * 5000 + p.val) (k : Fin 128) :
    iblk3 V c 1 t (ix2 p k) = V c main_v46 (ix2 r k) := by
  obtain ⟨-, -, -, e3, -⟩ := idx_facts t
  show V c main_v46 (((cfg3.win 1).blk t).view.emb (ix2 p k)) = V c main_v46 (ix2 r k)
  refine congrArg _ (funext fun a => Fin.ext ?_)
  match a with
  | ⟨0, _⟩ => show win3_1.index t (0 : Fin 2) * 5000 + 1 * p.val = r.val; omega
  | ⟨1, _⟩ => show win3_1.index t (1 : Fin 2) * 128 + 1 * k.val = k.val; omega

set_option maxHeartbeats 1000000 in
/-- What point t writes back to the state table is its block of the residual update of the whole tables. -/
theorem flushed6_eq (c : Dev nD) (t : Fin cfg3.N) :
    (dat3 V c).flushed 6 t
      = ((cfg3.win 6).blk t).view.read (Elt Ideal) (residual (V c main_v35_0) (V c main_v46) (V c main_v48) (V c main_v50)) := by
  show (cfg3.win 6).cut (grid3.coords t) ((dat3 V c).after 6 t) = _
  rw [after3_6]
  unfold out3_6
  rw [View.canon_unit_zero hz2]
  simp only [View.ld_unit_zero (S := S5000x128) hz2, View.ld_unit_zero (S := S128x128) hz2, View.ld_unit_zero (S := S128) hz1]
  rw [blk_wu V c t, blk_bu V c t]
  obtain ⟨e0, e1, e2, e3, -, -, -, -, -, -, e10, e11, -⟩ := idx_facts t
  funext j
  have e1' : (((cfg3.win 6).blk t).view.emb j) 1 = j 1 :=
    Fin.ext (by show win3_6.index t (1 : Fin 2) * 128 + 1 * (j 1).val = (j 1).val; omega)
  have es : iblk3 V c 0 t j = V c main_v35_0 (((cfg3.win 6).blk t).view.emb j) := by
    show V c main_v35_0 (((cfg3.win 0).blk t).view.emb j) = V c main_v35_0 (((cfg3.win 6).blk t).view.emb j)
    refine congrArg _ (funext fun a => Fin.ext ?_)
    match a with
    | ⟨0, _⟩ => show win3_0.index t (0 : Fin 2) * 5000 + 1 * (j 0).val = win3_6.index t (0 : Fin 2) * 5000 + 1 * (j 0).val; omega
    | ⟨1, _⟩ => show win3_0.index t (1 : Fin 2) * 128 + 1 * (j 1).val = win3_6.index t (1 : Fin 2) * 128 + 1 * (j 1).val; omega
  exact state_entry (iblk3 V c 1 t) (V c main_v48) (V c main_v50) (iblk3 V c 0 t) (V c main_v35_0) (V c main_v46) j
    (((cfg3.win 6).blk t).view.emb j) e1' es
    (fun k => row_agg V c t (j 0) _ (by show win3_6.index t (0 : Fin 2) * 5000 + 1 * (j 0).val = win3_1.index t (0 : Fin 2) * 5000 + (j 0).val; omega) k)

set_option maxHeartbeats 1000000 in
/-- What point t writes back to the message table is its block of the message layer of that residual update. -/
theorem flushed7_eq (c : Dev nD) (t : Fin cfg3.N) :
    (dat3 V c).flushed 7 t
      = ((cfg3.win 7).blk t).view.read (Elt Ideal)
          (rectified (residual (V c main_v35_0) (V c main_v46) (V c main_v48) (V c main_v50)) (V c main_v52) (V c main_v54)) := by
  show (cfg3.win 7).cut (grid3.coords t) ((dat3 V c).after 7 t) = _
  rw [after3_7]
  unfold out3_7
  rw [View.canon_unit_zero hz2]
  simp only [View.ld_unit_zero (S := S5000x128) hz2, View.ld_unit_zero (S := S128x128) hz2, View.ld_unit_zero (S := S128) hz1]
  rw [blk_wu V c t, blk_bu V c t, blk_wn V c t, blk_bn V c t]
  obtain ⟨e0, e1, e2, e3, -, -, -, -, -, -, -, -, e12, e13⟩ := idx_facts t
  funext j
  have e1' : (((cfg3.win 7).blk t).view.emb j) 1 = j 1 :=
    Fin.ext (by show win3_7.index t (1 : Fin 2) * 128 + 1 * (j 1).val = (j 1).val; omega)
  have hr0 : ((((cfg3.win 7).blk t).view.emb j) 0).val = win3_0.index t (0 : Fin 2) * 5000 + (j 0).val := by
    show win3_7.index t (0 : Fin 2) * 5000 + 1 * (j 0).val = win3_0.index t (0 : Fin 2) * 5000 + (j 0).val; omega
  have hr1 : ((((cfg3.win 7).blk t).view.emb j) 0).val = win3_1.index t (0 : Fin 2) * 5000 + (j 0).val := by
    show win3_7.index t (0 : Fin 2) * 5000 + 1 * (j 0).val = win3_1.index t (0 : Fin 2) * 5000 + (j 0).val; omega
  exact msg_entry (iblk3 V c 1 t) (V c main_v48) (V c main_v50) (iblk3 V c 0 t) (V c main_v52) (V c main_v54) (V c main_v35_0) (V c main_v46) j
    (((cfg3.win 7).blk t).view.emb j) e1'
    (fun k => row_state V c t (j 0) _ hr0 k) (fun k => row_agg V c t (j 0) _ hr1 k)

theorem mem_blk6 (t : Fin cfg3.N) (i : S50000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v55_0).slice (win3_6.rect t)).set ↔ _
  rw [View.set_slice_whole, Rect.mem_set_unit]
  exact Iff.rfl

theorem mem_blk7 (t : Fin cfg3.N) (i : S50000x128.Idx) :
    i ∈ ((cfg3.win 7).blk t).view.set ↔ ∀ a : Fin 2, win3_7.index t a * S5000x128.size a ≤ (i a).val ∧ (i a).val < win3_7.index t a * S5000x128.size a + S5000x128.size a := by
  show i ∈ ((View.whole main_v55_1).slice (win3_7.rect t)).set ↔ _
  rw [View.set_slice_whole, Rect.mem_set_unit]
  exact Iff.rfl

/-- Every block of rows is some point's. -/
theorem idx_onto : ∀ q0 : Fin 10, ∃ t : Fin cfg3.N, win3_6.index t = ![q0.val, 0] ∧ win3_7.index t = ![q0.val, 0] :=
  (by decide +kernel : ∀ q0 : Fin 10, ∃ t : Fin grid3.N, win3_6.index t = ![q0.val, 0] ∧ win3_7.index t = ![q0.val, 0])

theorem cover6 (i : S50000x128.Idx) : ∃ t : Fin cfg3.N, (cfg3.win 6).flush t = true ∧ i ∈ ((cfg3.win 6).blk t).view.set := by
  have hi0 : (i 0).val < 50000 := (i 0).isLt
  have hi1 : (i 1).val < 128 := (i 1).isLt
  obtain ⟨t, ht, -⟩ := idx_onto ⟨(i 0).val / 5000, by omega⟩
  have q0 : win3_6.index t (0 : Fin 2) = (i 0).val / 5000 := congrFun ht 0
  have q1 : win3_6.index t (1 : Fin 2) = 0 := congrFun ht 1
  refine ⟨t, flush3_6 t, ?_⟩
  rw [mem_blk6]
  intro a
  match a with
  | ⟨0, _⟩ => show win3_6.index t (0 : Fin 2) * 5000 ≤ (i 0).val ∧ (i 0).val < win3_6.index t (0 : Fin 2) * 5000 + 5000; omega
  | ⟨1, _⟩ => show win3_6.index t (1 : Fin 2) * 128 ≤ (i 1).val ∧ (i 1).val < win3_6.index t (1 : Fin 2) * 128 + 128; omega

theorem cover7 (i : S50000x128.Idx) : ∃ t : Fin cfg3.N, (cfg3.win 7).flush t = true ∧ i ∈ ((cfg3.win 7).blk t).view.set := by
  have hi0 : (i 0).val < 50000 := (i 0).isLt
  have hi1 : (i 1).val < 128 := (i 1).isLt
  obtain ⟨t, -, ht⟩ := idx_onto ⟨(i 0).val / 5000, by omega⟩
  have q0 : win3_7.index t (0 : Fin 2) = (i 0).val / 5000 := congrFun ht 0
  have q1 : win3_7.index t (1 : Fin 2) = 0 := congrFun ht 1
  refine ⟨t, flush3_7 t, ?_⟩
  rw [mem_blk7]
  intro a
  match a with
  | ⟨0, _⟩ => show win3_7.index t (0 : Fin 2) * 5000 ≤ (i 0).val ∧ (i 0).val < win3_7.index t (0 : Fin 2) * 5000 + 5000; omega
  | ⟨1, _⟩ => show win3_7.index t (1 : Fin 2) * 128 ≤ (i 1).val ∧ (i 1).val < win3_7.index t (1 : Fin 2) * 128 + 128; omega

/-- After the launch the new state table is the residual update of the old state by the aggregated messages. -/
theorem state_array (c : Dev nD) :
    (dat3 V c).arrAt 6 cfg3.N = residual (V c main_v35_0) (V c main_v46) (V c main_v48) (V c main_v50) :=
  (dat3 V c).arrAt_eq_of_cover 6 _ (fun t _ => flushed6_eq V c t) cover6

/-- After the launch the message table is the rectified message layer of the new state. -/
theorem message_array (c : Dev nD) :
    (dat3 V c).arrAt 7 cfg3.N
      = rectified (residual (V c main_v35_0) (V c main_v46) (V c main_v48) (V c main_v50)) (V c main_v52) (V c main_v54) :=
  (dat3 V c).arrAt_eq_of_cover 7 _ (fun t _ => flushed7_eq V c t) cover7

end Cert.Decoder.Round3

end
-- ==== Proof.RoundRegion4.lean ====
/-
  A node launch that finishes one round of message passing and starts the next.

  The launch walks the 50000 rows of the state table and of the table of aggregated messages in ten blocks of 5000. At
  a block it adds to the state's rows the rectified update layer of the aggregated rows (rows against the update
  weights, plus the bias, floored at zero), which is the new state, and computes from the new state's rows the next
  round's rectified message layer; both are written back as the same rows of two tables. An entry (p, q) of either
  reads row p of the inputs only, so block t of what is written is block t of the residual update — and of the message
  layer of the residual update — of the WHOLE tables; the ten blocks cover the tables.
-/
import proofs.«102918_j30047591203218_2_alg».proof.Proof.Gen.KernelIdeal.Frame
import proofs.«102918_j30047591203218_2_alg».proof.Proof.DecoderSpec
import proofs.«102918_j30047591203218_2_alg».proof.Proof.LibPlainLayer
import Idealize.ShloMosaic.Lib.Pipeline.Value
import Idealize.ShloMosaic.Lib.ValueIdx
import Idealize.ShloMosaic.Lib.ValueLayout

set_option maxRecDepth 16384

noncomputable section

namespace Cert.Decoder.Round4

open Cert.KernelIdeal Cert.KernelIdeal.Gen Idealize.ShloMosaic Idealize.ShloMosaic.ValueIdx Idealize.ShloMosaic.TcCoe
open Cert.Lib.Perceptron Cert.Lib.PlainLayer Cert.Decoder
open Idealize.ShloMosaic.Pipeline (Dat)

theorem hz2 : (![0, 0] : Fin 2 → Nat) = fun _ => 0 := funext fun a => by fin_cases a <;> rfl
theorem hz1 : (![0] : Fin 1 → Nat) = fun _ => 0 := funext fun a => by fin_cases a; rfl

/-- The new state at an entry: the old state's entry plus the rectified update layer of the aggregated rows. -/
theorem pay_state (a : Vec Ideal S5000x128 .f32) (w : Vec Ideal S128x128 .f32) (b : Vec Ideal S128 .f32)
    (s : Vec Ideal S5000x128 .f32) (p : Fin 5000) (q : Fin 128) :
    k4_pay1 (F := Ideal) a w b s (ix2 p q) = s (ix2 p q) + reluAt a w b p q := by
  unfold k4_pay1
  simp only [shapeCast_self]
  rw [addf_apply]
  exact congrArg (s (ix2 p q) + ·) (plain_relu_entry _ rfl _ a w b _ _ p q)

/-- The next message at an entry: the rectified message layer of the new state's rows. -/
theorem pay_msg (a : Vec Ideal S5000x128 .f32) (w : Vec Ideal S128x128 .f32) (b : Vec Ideal S128 .f32)
    (s : Vec Ideal S5000x128 .f32) (w' : Vec Ideal S128x128 .f32) (b' : Vec Ideal S128 .f32) (p : Fin 5000) (q : Fin 128) :
    k4_pay2 (F := Ideal) a w b s w' b' (ix2 p q)
      = reluAt (table fun p' k => s (ix2 p' k) + reluAt a w b p' k) w' b' p q := by
  unfold k4_pay2
  rw [truncf_apply]
  simp only [shapeCast_self]
  refine (plain_relu_entry _ rfl _ (k4_pay1 (F := Ideal) a w b s) w' b' _ _ p q).trans ?_
  refine reluAt_congr _ _ w' b' p p q fun k => ?_
  rw [table_ix2]
  exact pay_state a w b s p k

theorem pay_state_idx (a : Vec Ideal S5000x128 .f32) (w : Vec Ideal S128x128 .f32) (b : Vec Ideal S128 .f32)
    (s : Vec Ideal S5000x128 .f32) (y : S5000x128.Idx) :
    k4_pay1 (F := Ideal) a w b s y = s y + reluAt a w b (y 0) (y 1) := by
  obtain ⟨p, q, rfl⟩ : ∃ (p : Fin 5000) (q : Fin 128), y = ix2 p q := ⟨y 0, y 1, eq_ix2 y⟩
  exact pay_state a w b s p q

theorem pay_msg_idx (a : Vec Ideal S5000x128 .f32) (w : Vec Ideal S128x128 .f32) (b : Vec Ideal S128 .f32)
    (s : Vec Ideal S5000x128 .f32) (w' : Vec Ideal S128x128 .f32) (b' : Vec Ideal S128 .f32) (y : S5000x128.Idx) :
    k4_pay2 (F := Ideal) a w b s w' b' y
      = reluAt (table fun p' k => s (ix2 p' k) + reluAt a w b p' k) w' b' (y 0) (y 1) := by
  obtain ⟨p, q, rfl⟩ : ∃ (p : Fin 5000) (q : Fin 128), y = ix2 p q := ⟨y 0, y 1, eq_ix2 y⟩
  exact pay_msg a w b s w' b' p q

/-- A block's new-state entry is the whole tables' residual update at the array entry it lands on, when the
    block's row p is row r of both tables. -/
theorem state_entry_at (a : Vec Ideal S5000x128 .f32) (w : Vec Ideal S128x128 .f32) (b : Vec Ideal S128 .f32)
    (s : Vec Ideal S5000x128 .f32) (S A : Mat 50000 128) (p : Fin 5000) (q : Fin 128) (r : Fin 50000)
    (hs : s (ix2 p q) = S (ix2 r q)) (ha : ∀ k : Fin 128, a (ix2 p k) = A (ix2 r k)) :
    k4_pay1 (F := Ideal) a w b s (ix2 p q) = residual S A w b (ix2 r q) := by
  rw [pay_state, residual_ix2, hs]
  exact congrArg (S (ix2 r q) + ·) (reluAt_congr _ _ w b p r q ha)

/-- The same for the next message. -/
theorem msg_entry_at (a : Vec Ideal S5000x128 .f32) (w : Vec Ideal S128x128 .f32) (b : Vec Ideal S128 .f32)
    (s : Vec Ideal S5000x128 .f32) (w' : Vec Ideal S128x128 .f32) (b' : Vec Ideal S128 .f32)
    (S A : Mat 50000 128) (p : Fin 5000) (q : Fin 128) (r : Fin 50000)
    (hs : ∀ k : Fin 128, s (ix2 p k) = S (ix2 r k)) (ha : ∀ k : Fin 128, a (ix2 p k) = A (ix2 r k)) :
    k4_pay2 (F := Ideal) a w b s w' b' (ix2 p q) = rectified (residual S A w b) w' b' (ix2 r q) := by
  rw [pay_msg, rectified_ix2]
  refine reluAt_congr _ _ w' b' p r q fun k => ?_
  rw [table_ix2, residual_ix2, hs k]
  exact congrArg (S (ix2 r k) + ·) (reluAt_congr _ _ w b p r k ha)

theorem state_entry (a : Vec Ideal S5000x128 .f32) (w : Vec Ideal S128x128 .f32) (b : Vec Ideal S128 .f32)
    (s : Vec Ideal S5000x128 .f32) (S A : Mat 50000 128) (y : S5000x128.Idx) (i : S50000x128.Idx)
    (hq : i 1 = y 1) (hs : s y = S i) (ha : ∀ k : Fin 128, a (ix2 (y 0) k) = A (ix2 (i 0) k)) :
    k4_pay1 (F := Ideal) a w b s y = residual S A w b i := by
  obtain ⟨p, q, rfl⟩ : ∃ (p : Fin 5000) (q : Fin 128), y = ix2 p q := ⟨y 0, y 1, eq_ix2 y⟩
  obtain ⟨r, q', rfl⟩ : ∃ (r : Fin 50000) (q' : Fin 128), i = ix2 r q' := ⟨i 0, i 1, eq_ix2 i⟩
  have hq' : q' = q := hq
  subst hq'
  exact state_entry_at a w b s S A p q' r hs ha

theorem msg_entry (a : Vec Ideal S5000x128 .f32) (w : Vec Ideal S128x128 .f32) (b : Vec Ideal S128 .f32)
    (s : Vec Ideal S5000x128 .f32) (w' : Vec Ideal S128x128 .f32) (b' : Vec Ideal S128 .f32)
    (S A : Mat 50000 128) (y : S5000x128.Idx) (i : S50000x128.Idx)
    (hq : i 1 = y 1) (hs : ∀ k : Fin 128, s (ix2 (y 0) k) = S (ix2 (i 0) k))
    (ha : ∀ k : Fin 128, a (ix2 (y 0) k) = A (ix2 (i 0) k)) :
    k4_pay2 (F := Ideal) a w b s w' b' y = rectified (residual S A w b) w' b' i := by
  obtain ⟨p, q, rfl⟩ : ∃ (p : Fin 5000) (q : Fin 128), y = ix2 p q := ⟨y 0, y 1, eq_ix2 y⟩
  obtain ⟨r, q', rfl⟩ : ∃ (r : Fin 50000) (q' : Fin 128), i = ix2 r q' := ⟨i 0, i 1, eq_ix2 i⟩
  have hq' : q' = q := hq
  subst hq'
  exact msg_entry_at a w b s w' b' S A p q' r hs ha

variable (V : (c : Dev nD) → (b : Ref sig .tc) → Buf (Elt Ideal) ((c : Thread nD τ).loc b))

/-- The printed index maps over the grid. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 1) = 0
    ∧ win4_4.index t (0 : Fin 2) = 0 ∧ win4_4.index t (1 : Fin 2) = 0
    ∧ win4_5.index t (0 : Fin 1) = 0
    ∧ win4_6.index t (0 : Fin 2) = t.val ∧ win4_6.index t (1 : Fin 2) = 0
    ∧ win4_7.index t (0 : Fin 2) = t.val ∧ win4_7.index t (1 : Fin 2) = 0 :=
  (by decide +kernel : ∀ t : Fin grid4.N, _)

theorem blk_wu (c : Dev nD) (t : Fin cfg4.N) : iblk4 V c 2 t = V c main_v68 := by
  obtain ⟨-, -, -, -, e4, e5, -⟩ := idx_facts t
  funext y
  show V c main_v68 (((cfg4.win 2).blk t).view.emb y) = V c main_v68 y
  refine congrArg _ (funext fun a => Fin.ext ?_)
  match a with
  | ⟨0, _⟩ => show win4_2.index t (0 : Fin 2) * 128 + 1 * (y 0).val = (y 0).val; omega
  | ⟨1, _⟩ => show win4_2.index t (1 : Fin 2) * 128 + 1 * (y 1).val = (y 1).val; omega

theorem blk_bu (c : Dev nD) (t : Fin cfg4.N) : iblk4 V c 3 t = V c main_v70 := by
  obtain ⟨-, -, -, -, -, -, e6, -⟩ := idx_facts t
  funext y
  show V c main_v70 (((cfg4.win 3).blk t).view.emb y) = V c main_v70 y
  refine congrArg _ (funext fun a => Fin.ext ?_)
  match a with
  | ⟨0, _⟩ => show win4_3.index t (0 : Fin 1) * 128 + 1 * (y 0).val = (y 0).val; omega

theorem blk_wn (c : Dev nD) (t : Fin cfg4.N) : iblk4 V c 4 t = V c main_v72 := by
  obtain ⟨-, -, -, -, -, -, -, e7, e8, -⟩ := idx_facts t
  funext y
  show V c main_v72 (((cfg4.win 4).blk t).view.emb y) = V c main_v72 y
  refine congrArg _ (funext fun a => Fin.ext ?_)
  match a with
  | ⟨0, _⟩ => show win4_4.index t (0 : Fin 2) * 128 + 1 * (y 0).val = (y 0).val; omega
  | ⟨1, _⟩ => show win4_4.index t (1 : Fin 2) * 128 + 1 * (y 1).val = (y 1).val; omega

theorem blk_bn (c : Dev nD) (t : Fin cfg4.N) : iblk4 V c 5 t = V c main_v74 := by
  obtain ⟨-, -, -, -, -, -, -, -, -, e9, -⟩ := idx_facts t
  funext y
  show V c main_v74 (((cfg4.win 5).blk t).view.emb y) = V c main_v74 y
  refine congrArg _ (funext fun a => Fin.ext ?_)
  match a with
  | ⟨0, _⟩ => show win4_5.index t (0 : Fin 1) * 128 + 1 * (y 0).val = (y 0).val; omega

/-- Row p of point t's block of the state table is row (t's block number) * 5000 + p of the table. -/
theorem row_state (c : Dev nD) (t : Fin cfg4.N) (p : Fin 5000) (r : Fin 50000)
    (hr : r.val = win4_0.index t (0 : Fin 2) * 5000 + p.val) (k : Fin 128) :
    iblk4 V c 0 t (ix2 p k) = V c main_v55_0 (ix2 r k) := by
  obtain ⟨-, e1, -⟩ := idx_facts t
  show V c main_v55_0 (((cfg4.win 0).blk t).view.emb (ix2 p k)) = V c main_v55_0 (ix2 r k)
  refine congrArg _ (funext fun a => Fin.ext ?_)
  match a with
  | ⟨0, _⟩ => show win4_0.index t (0 : Fin 2) * 5000 + 1 * p.val = r.val; omega
  | ⟨1, _⟩ => show win4_0.index t (1 : Fin 2) * 128 + 1 * k.val = k.val; omega

/-- The same for the table of aggregated messages. -/
theorem row_agg (c : Dev nD) (t : Fin cfg4.N) (p : Fin 5000) (r : Fin 50000)
    (hr : r.val = win4_1.index t (0 : Fin 2) * 5000 + p.val) (k : Fin 128) :
    iblk4 V c 1 t (ix2 p k) = V c main_v66 (ix2 r k) := by
  obtain ⟨-, -, -, e3, -⟩ := idx_facts t
  show V c main_v66 (((cfg4.win 1).blk t).view.emb (ix2 p k)) = V c main_v66 (ix2 r k)
  refine congrArg _ (funext fun a => Fin.ext ?_)
  match a with
  | ⟨0, _⟩ => show win4_1.index t (0 : Fin 2) * 5000 + 1 * p.val = r.val; omega
  | ⟨1, _⟩ => show win4_1.index t (1 : Fin 2) * 128 + 1 * k.val = k.val; omega

set_option maxHeartbeats 1000000 in
/-- What point t writes back to the state table is its block of the residual update of the whole tables. -/
theorem flushed6_eq (c : Dev nD) (t : Fin cfg4.N) :
    (dat4 V c).flushed 6 t
      = ((cfg4.win 6).blk t).view.read (Elt Ideal) (residual (V c main_v55_0) (V c main_v66) (V c main_v68) (V c main_v70)) := by
  show (cfg4.win 6).cut (grid4.coords t) ((dat4 V c).after 6 t) = _
  rw [after4_6]
  unfold out4_6
  rw [View.canon_unit_zero hz2]
  simp only [View.ld_unit_zero (S := S5000x128) hz2, View.ld_unit_zero (S := S128x128) hz2, View.ld_unit_zero (S := S128) hz1]
  rw [blk_wu V c t, blk_bu V c t]
  obtain ⟨e0, e1, e2, e3, -, -, -, -, -, -, e10, e11, -⟩ := idx_facts t
  funext j
  have e1' : (((cfg4.win 6).blk t).view.emb j) 1 = j 1 :=
    Fin.ext (by show win4_6.index t (1 : Fin 2) * 128 + 1 * (j 1).val = (j 1).val; omega)
  have es : iblk4 V c 0 t j = V c main_v55_0 (((cfg4.win 6).blk t).view.emb j) := by
    show V c main_v55_0 (((cfg4.win 0).blk t).view.emb j) = V c main_v55_0 (((cfg4.win 6).blk t).view.emb j)
    refine congrArg _ (funext fun a => Fin.ext ?_)
    match a with
    | ⟨0, _⟩ => show win4_0.index t (0 : Fin 2) * 5000 + 1 * (j 0).val = win4_6.index t (0 : Fin 2) * 5000 + 1 * (j 0).val; omega
    | ⟨1, _⟩ => show win4_0.index t (1 : Fin 2) * 128 + 1 * (j 1).val = win4_6.index t (1 : Fin 2) * 128 + 1 * (j 1).val; omega
  exact state_entry (iblk4 V c 1 t) (V c main_v68) (V c main_v70) (iblk4 V c 0 t) (V c main_v55_0) (V c main_v66) j
    (((cfg4.win 6).blk t).view.emb j) e1' es
    (fun k => row_agg V c t (j 0) _ (by show win4_6.index t (0 : Fin 2) * 5000 + 1 * (j 0).val = win4_1.index t (0 : Fin 2) * 5000 + (j 0).val; omega) k)

set_option maxHeartbeats 1000000 in
/-- What point t writes back to the message table is its block of the message layer of that residual update. -/
theorem flushed7_eq (c : Dev nD) (t : Fin cfg4.N) :
    (dat4 V c).flushed 7 t
      = ((cfg4.win 7).blk t).view.read (Elt Ideal)
          (rectified (residual (V c main_v55_0) (V c main_v66) (V c main_v68) (V c main_v70)) (V c main_v72) (V c main_v74)) := by
  show (cfg4.win 7).cut (grid4.coords t) ((dat4 V c).after 7 t) = _
  rw [after4_7]
  unfold out4_7
  rw [View.canon_unit_zero hz2]
  simp only [View.ld_unit_zero (S := S5000x128) hz2, View.ld_unit_zero (S := S128x128) hz2, View.ld_unit_zero (S := S128) hz1]
  rw [blk_wu V c t, blk_bu V c t, blk_wn V c t, blk_bn V c t]
  obtain ⟨e0, e1, e2, e3, -, -, -, -, -, -, -, -, e12, e13⟩ := idx_facts t
  funext j
  have e1' : (((cfg4.win 7).blk t).view.emb j) 1 = j 1 :=
    Fin.ext (by show win4_7.index t (1 : Fin 2) * 128 + 1 * (j 1).val = (j 1).val; omega)
  have hr0 : ((((cfg4.win 7).blk t).view.emb j) 0).val = win4_0.index t (0 : Fin 2) * 5000 + (j 0).val := by
    show win4_7.index t (0 : Fin 2) * 5000 + 1 * (j 0).val = win4_0.index t (0 : Fin 2) * 5000 + (j 0).val; omega
  have hr1 : ((((cfg4.win 7).blk t).view.emb j) 0).val = win4_1.index t (0 : Fin 2) * 5000 + (j 0).val := by
    show win4_7.index t (0 : Fin 2) * 5000 + 1 * (j 0).val = win4_1.index t (0 : Fin 2) * 5000 + (j 0).val; omega
  exact msg_entry (iblk4 V c 1 t) (V c main_v68) (V c main_v70) (iblk4 V c 0 t) (V c main_v72) (V c main_v74) (V c main_v55_0) (V c main_v66) j
    (((cfg4.win 7).blk t).view.emb j) e1'
    (fun k => row_state V c t (j 0) _ hr0 k) (fun k => row_agg V c t (j 0) _ hr1 k)

theorem mem_blk6 (t : Fin cfg4.N) (i : S50000x128.Idx) :
    i ∈ ((cfg4.win 6).blk t).view.set ↔ ∀ a : Fin 2, win4_6.index t a * S5000x128.size a ≤ (i a).val ∧ (i a).val < win4_6.index t a * S5000x128.size a + S5000x128.size a := by
  show i ∈ ((View.whole main_v75_0).slice (win4_6.rect t)).set ↔ _
  rw [View.set_slice_whole, Rect.mem_set_unit]
  exact Iff.rfl

theorem mem_blk7 (t : Fin cfg4.N) (i : S50000x128.Idx) :
    i ∈ ((cfg4.win 7).blk t).view.set ↔ ∀ a : Fin 2, win4_7.index t a * S5000x128.size a ≤ (i a).val ∧ (i a).val < win4_7.index t a * S5000x128.size a + S5000x128.size a := by
  show i ∈ ((View.whole main_v75_1).slice (win4_7.rect t)).set ↔ _
  rw [View.set_slice_whole, Rect.mem_set_unit]
  exact Iff.rfl

/-- Every block of rows is some point's. -/
theorem idx_onto : ∀ q0 : Fin 10, ∃ t : Fin cfg4.N, win4_6.index t = ![q0.val, 0] ∧ win4_7.index t = ![q0.val, 0] :=
  (by decide +kernel : ∀ q0 : Fin 10, ∃ t : Fin grid4.N, win4_6.index t = ![q0.val, 0] ∧ win4_7.index t = ![q0.val, 0])

theorem cover6 (i : S50000x128.Idx) : ∃ t : Fin cfg4.N, (cfg4.win 6).flush t = true ∧ i ∈ ((cfg4.win 6).blk t).view.set := by
  have hi0 : (i 0).val < 50000 := (i 0).isLt
  have hi1 : (i 1).val < 128 := (i 1).isLt
  obtain ⟨t, ht, -⟩ := idx_onto ⟨(i 0).val / 5000, by omega⟩
  have q0 : win4_6.index t (0 : Fin 2) = (i 0).val / 5000 := congrFun ht 0
  have q1 : win4_6.index t (1 : Fin 2) = 0 := congrFun ht 1
  refine ⟨t, flush4_6 t, ?_⟩
  rw [mem_blk6]
  intro a
  match a with
  | ⟨0, _⟩ => show win4_6.index t (0 : Fin 2) * 5000 ≤ (i 0).val ∧ (i 0).val < win4_6.index t (0 : Fin 2) * 5000 + 5000; omega
  | ⟨1, _⟩ => show win4_6.index t (1 : Fin 2) * 128 ≤ (i 1).val ∧ (i 1).val < win4_6.index t (1 : Fin 2) * 128 + 128; omega

theorem cover7 (i : S50000x128.Idx) : ∃ t : Fin cfg4.N, (cfg4.win 7).flush t = true ∧ i ∈ ((cfg4.win 7).blk t).view.set := by
  have hi0 : (i 0).val < 50000 := (i 0).isLt
  have hi1 : (i 1).val < 128 := (i 1).isLt
  obtain ⟨t, -, ht⟩ := idx_onto ⟨(i 0).val / 5000, by omega⟩
  have q0 : win4_7.index t (0 : Fin 2) = (i 0).val / 5000 := congrFun ht 0
  have q1 : win4_7.index t (1 : Fin 2) = 0 := congrFun ht 1
  refine ⟨t, flush4_7 t, ?_⟩
  rw [mem_blk7]
  intro a
  match a with
  | ⟨0, _⟩ => show win4_7.index t (0 : Fin 2) * 5000 ≤ (i 0).val ∧ (i 0).val < win4_7.index t (0 : Fin 2) * 5000 + 5000; omega
  | ⟨1, _⟩ => show win4_7.index t (1 : Fin 2) * 128 ≤ (i 1).val ∧ (i 1).val < win4_7.index t (1 : Fin 2) * 128 + 128; omega

/-- After the launch the new state table is the residual update of the old state by the aggregated messages. -/
theorem state_array (c : Dev nD) :
    (dat4 V c).arrAt 6 cfg4.N = residual (V c main_v55_0) (V c main_v66) (V c main_v68) (V c main_v70) :=
  (dat4 V c).arrAt_eq_of_cover 6 _ (fun t _ => flushed6_eq V c t) cover6

/-- After the launch the message table is the rectified message layer of the new state. -/
theorem message_array (c : Dev nD) :
    (dat4 V c).arrAt 7 cfg4.N
      = rectified (residual (V c main_v55_0) (V c main_v66) (V c main_v68) (V c main_v70)) (V c main_v72) (V c main_v74) :=
  (dat4 V c).arrAt_eq_of_cover 7 _ (fun t _ => flushed7_eq V c t) cover7

end Cert.Decoder.Round4

end
-- ==== Proof.ReadoutRegion.lean ====
/-
  The last node launch: the fourth residual update and the read-out.

  The launch walks the 50000 rows of the state table and of the table of aggregated messages in ten blocks of 5000.
  At a block it computes, for its rows, the rectified update layer of the aggregated messages, adds it onto the
  state, and applies the affine read-out layer to the sum; it writes the result back as the same rows of the logits
  table. A dense layer's entry (p, q) reads row p of its input only, and the residual sum is entry by entry, so a
  block of rows of the result depends on the same block of rows of the two inputs: block t of what is written is
  block t of the read-out of the residual update of the WHOLE tables. The ten blocks cover the logits table.
-/
import proofs.«102918_j30047591203218_2_alg».proof.Proof.Gen.KernelIdeal.Frame
import proofs.«102918_j30047591203218_2_alg».proof.Proof.DecoderSpec
import proofs.«102918_j30047591203218_2_alg».proof.Proof.LibPlainLayer
import Idealize.ShloMosaic.Lib.Pipeline.Value
import Idealize.ShloMosaic.Lib.ValueIdx
import Idealize.ShloMosaic.Lib.ValueLayout

set_option maxRecDepth 16384

noncomputable section

namespace Cert.Decoder.Readout

open Cert.KernelIdeal Cert.KernelIdeal.Gen Idealize.ShloMosaic Idealize.ShloMosaic.ValueIdx Idealize.ShloMosaic.TcCoe
open Cert.Lib.Perceptron Cert.Lib.PlainLayer Cert.Decoder
open Idealize.ShloMosaic.Pipeline (Dat)

theorem zeros2 : (![0, 0] : Fin 2 → Nat) = fun _ => 0 := funext fun a => by fin_cases a <;> rfl
theorem zeros1 : (![0] : Fin 1 → Nat) = fun _ => 0 := funext fun a => by fin_cases a; rfl

/-! ## The body's arithmetic at an entry -/

/-- What the body stores at entry (p, q) of its block: the affine read-out, at (p, q), of the state block plus the
    rectified update layer of the aggregated block. -/
theorem pay_logits (a : Vec Ideal S5000x128 .f32) (w : Vec Ideal S128x128 .f32) (b : Vec Ideal S128 .f32)
    (s : Vec Ideal S5000x128 .f32) (w' : Vec Ideal S128x128 .f32) (b' : Vec Ideal S128 .f32)
    (p : Fin 5000) (q : Fin 128) :
    k5_pay1 (F := Ideal) a w b s w' b' (ix2 p q) = affineAt (residual s a w b) w' b' p q := by
  unfold k5_pay1
  simp only [shapeCast_self]
  refine (plain_affine_entry _ rfl _ _ w' b' _ _ p q).trans ?_
  refine affineAt_congr _ _ w' b' p p q fun k => ?_
  rw [residual_ix2, addf_apply]
  congr 1
  exact plain_relu_entry _ rfl _ a w b _ _ p k

/-- When row (y 0) of the state block is row (i 0) of a table S, row (y 0) of the aggregated block is row (i 0) of
    a table A, and the two indices name the same column, the body's entry y is entry i of the read-out of the
    residual update of S by A. -/
theorem logits_entry (a : Vec Ideal S5000x128 .f32) (w : Vec Ideal S128x128 .f32) (b : Vec Ideal S128 .f32)
    (s : Vec Ideal S5000x128 .f32) (w' : Vec Ideal S128x128 .f32) (b' : Vec Ideal S128 .f32)
    (S A : Mat 50000 128) (y : S5000x128.Idx) (i : S50000x128.Idx) (hq : i 1 = y 1)
    (hs : ∀ k : Fin 128, s (ix2 (y 0) k) = S (ix2 (i 0) k))
    (ha : ∀ k : Fin 128, a (ix2 (y 0) k) = A (ix2 (i 0) k)) :
    k5_pay1 (F := Ideal) a w b s w' b' y = readout (residual S A w b) w' b' i := by
  obtain ⟨p, q, rfl⟩ : ∃ (p : Fin 5000) (q : Fin 128), y = ix2 p q := ⟨y 0, y 1, eq_ix2 y⟩
  obtain ⟨r, q', rfl⟩ : ∃ (r : Fin 50000) (q' : Fin 128), i = ix2 r q' := ⟨i 0, i 1, eq_ix2 i⟩
  have hqq : q' = q := hq
  subst hqq
  have hs' : ∀ k : Fin 128, s (ix2 p k) = S (ix2 r k) := hs
  have ha' : ∀ k : Fin 128, a (ix2 p k) = A (ix2 r k) := ha
  rw [pay_logits, readout_ix2]
  refine affineAt_congr _ _ w' b' p r q' fun k => ?_
  rw [residual_ix2, residual_ix2, hs' k]
  congr 1
  exact reluAt_congr a A w b p r k ha'

/-! ## The blocks -/

variable (V : (c : Dev nD) → (b : Ref sig .tc) → Buf (Elt Ideal) ((c : Thread nD τ).loc b))

/-- The index maps over the grid: at point t the state's, the aggregated messages' and the logits' block index is
    (t, 0); the weights and biases are whole, at block index zero. -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 1) = 0
    ∧ win5_4.index t (0 : Fin 2) = 0 ∧ win5_4.index t (1 : Fin 2) = 0
    ∧ win5_5.index t (0 : Fin 1) = 0
    ∧ win5_6.index t (0 : Fin 2) = t.val ∧ win5_6.index t (1 : Fin 2) = 0 :=
  (by decide +kernel : ∀ t : Fin grid5.N, _)

/-- The update weights' block is the whole matrix. -/
theorem blk_update_weights (c : Dev nD) (t : Fin cfg5.N) : iblk5 V c 2 t = V c main_v88 := by
  obtain ⟨-, -, -, -, e4, e5, -⟩ := idx_facts t
  funext y
  show V c main_v88 (((cfg5.win 2).blk t).view.emb y) = V c main_v88 y
  refine congrArg _ (funext fun a => Fin.ext ?_)
  match a with
  | ⟨0, _⟩ => show win5_2.index t (0 : Fin 2) * 128 + 1 * (y 0).val = (y 0).val; omega
  | ⟨1, _⟩ => show win5_2.index t (1 : Fin 2) * 128 + 1 * (y 1).val = (y 1).val; omega

/-- The update bias's block is the whole vector. -/
theorem blk_update_bias (c : Dev nD) (t : Fin cfg5.N) : iblk5 V c 3 t = V c main_v90 := by
  obtain ⟨-, -, -, -, -, -, e6, -⟩ := idx_facts t
  funext y
  show V c main_v90 (((cfg5.win 3).blk t).view.emb y) = V c main_v90 y
  refine congrArg _ (funext fun a => Fin.ext ?_)
  match a with
  | ⟨0, _⟩ => show win5_3.index t (0 : Fin 1) * 128 + 1 * (y 0).val = (y 0).val; omega

/-- The read-out weights' block is the whole matrix. -/
theorem blk_readout_weights (c : Dev nD) (t : Fin cfg5.N) : iblk5 V c 4 t = V c main_v7 := by
  obtain ⟨-, -, -, -, -, -, -, e7, e8, -⟩ := idx_facts t
  funext y
  show V c main_v7 (((cfg5.win 4).blk t).view.emb y) = V c main_v7 y
  refine congrArg _ (funext fun a => Fin.ext ?_)
  match a with
  | ⟨0, _⟩ => show win5_4.index t (0 : Fin 2) * 128 + 1 * (y 0).val = (y 0).val; omega
  | ⟨1, _⟩ => show win5_4.index t (1 : Fin 2) * 128 + 1 * (y 1).val = (y 1).val; omega

/-- The read-out bias's block is the whole vector. -/
theorem blk_readout_bias (c : Dev nD) (t : Fin cfg5.N) : iblk5 V c 5 t = V c main_v10 := by
  obtain ⟨-, -, -, -, -, -, -, -, -, e9, -⟩ := idx_facts t
  funext y
  show V c main_v10 (((cfg5.win 5).blk t).view.emb y) = V c main_v10 y
  refine congrArg _ (funext fun a => Fin.ext ?_)
  match a with
  | ⟨0, _⟩ => show win5_5.index t (0 : Fin 1) * 128 + 1 * (y 0).val = (y 0).val; omega

/-- Row p of point t's block of the state table is row (t's block number) * 5000 + p of the table. -/
theorem row_state (c : Dev nD) (t : Fin cfg5.N) (p : Fin 5000) (r : Fin 50000)
    (hr : r.val = win5_0.index t (0 : Fin 2) * 5000 + p.val) (k : Fin 128) :
    iblk5 V c 0 t (ix2 p k) = V c main_v75_0 (ix2 r k) := by
  obtain ⟨-, e1, -⟩ := idx_facts t
  show V c main_v75_0 (((cfg5.win 0).blk t).view.emb (ix2 p k)) = V c main_v75_0 (ix2 r k)
  refine congrArg _ (funext fun a => Fin.ext ?_)
  match a with
  | ⟨0, _⟩ => show win5_0.index t (0 : Fin 2) * 5000 + 1 * p.val = r.val; omega
  | ⟨1, _⟩ => show win5_0.index t (1 : Fin 2) * 128 + 1 * k.val = k.val; omega

/-- Row p of point t's block of the aggregated messages is row (t's block number) * 5000 + p of the table. -/
theorem row_agg (c : Dev nD) (t : Fin cfg5.N) (p : Fin 5000) (r : Fin 50000)
    (hr : r.val = win5_1.index t (0 : Fin 2) * 5000 + p.val) (k : Fin 128) :
    iblk5 V c 1 t (ix2 p k) = V c main_v86 (ix2 r k) := by
  obtain ⟨-, -, -, e3, -⟩ := idx_facts t
  show V c main_v86 (((cfg5.win 1).blk t).view.emb (ix2 p k)) = V c main_v86 (ix2 r k)
  refine congrArg _ (funext fun a => Fin.ext ?_)
  match a with
  | ⟨0, _⟩ => show win5_1.index t (0 : Fin 2) * 5000 + 1 * p.val = r.val; omega
  | ⟨1, _⟩ => show win5_1.index t (1 : Fin 2) * 128 + 1 * k.val = k.val; omega

/-- What point t writes back to the logits table is its block of the read-out of the residual update of the whole
    state by the whole table of aggregated messages. -/
theorem flushed6_eq (c : Dev nD) (t : Fin cfg5.N) :
    (dat5 V c).flushed 6 t
      = ((cfg5.win 6).blk t).view.read (Elt Ideal)
          (readout (residual (V c main_v75_0) (V c main_v86) (V c main_v88) (V c main_v90)) (V c main_v7) (V c main_v10)) := by
  show (cfg5.win 6).cut (grid5.coords t) ((dat5 V c).after 6 t) = _
  rw [after5_6]
  unfold out5_6
  rw [View.canon_unit_zero zeros2]
  simp only [View.ld_unit_zero (S := S5000x128) zeros2, View.ld_unit_zero (S := S128x128) zeros2,
    View.ld_unit_zero (S := S128) zeros1]
  rw [blk_update_weights V c t, blk_update_bias V c t, blk_readout_weights V c t, blk_readout_bias V c t]
  obtain ⟨e0, -, e2, -, -, -, -, -, -, -, e10, e11⟩ := idx_facts t
  funext j
  have e1 : (((cfg5.win 6).blk t).view.emb j) 1 = j 1 :=
    Fin.ext (by show win5_6.index t (1 : Fin 2) * 128 + 1 * (j 1).val = (j 1).val; omega)
  exact logits_entry (iblk5 V c 1 t) (V c main_v88) (V c main_v90) (iblk5 V c 0 t) (V c main_v7) (V c main_v10)
    (V c main_v75_0) (V c main_v86) j (((cfg5.win 6).blk t).view.emb j) e1
    (fun k => row_state V c t (j 0) _ (by
      show win5_6.index t (0 : Fin 2) * 5000 + 1 * (j 0).val = win5_0.index t (0 : Fin 2) * 5000 + (j 0).val; omega) k)
    (fun k => row_agg V c t (j 0) _ (by
      show win5_6.index t (0 : Fin 2) * 5000 + 1 * (j 0).val = win5_1.index t (0 : Fin 2) * 5000 + (j 0).val; omega) k)

/-- An entry of the logits table lies in point t's block iff each coordinate is in the block's range on its axis. -/
theorem mem_blk6 (t : Fin cfg5.N) (i : S50000x128.Idx) :
    i ∈ ((cfg5.win 6).blk t).view.set ↔ ∀ a : Fin 2, win5_6.index t a * S5000x128.size a ≤ (i a).val ∧ (i a).val < win5_6.index t a * S5000x128.size a + S5000x128.size a := by
  show i ∈ ((View.whole main_v91).slice (win5_6.rect t)).set ↔ _
  rw [View.set_slice_whole, Rect.mem_set_unit]
  exact Iff.rfl

/-- Every block of rows is some point's. -/
theorem idx_onto : ∀ q0 : Fin 10, ∃ t : Fin cfg5.N, win5_6.index t = ![q0.val, 0] :=
  (by decide +kernel : ∀ q0 : Fin 10, ∃ t : Fin grid5.N, win5_6.index t = ![q0.val, 0])

/-- Row r of the logits table lies in the block of rows number r / 5000. -/
theorem cover6 (i : S50000x128.Idx) : ∃ t : Fin cfg5.N, (cfg5.win 6).flush t = true ∧ i ∈ ((cfg5.win 6).blk t).view.set := by
  have hi0 : (i 0).val < 50000 := (i 0).isLt
  have hi1 : (i 1).val < 128 := (i 1).isLt
  obtain ⟨t, ht⟩ := idx_onto ⟨(i 0).val / 5000, by omega⟩
  have q0 : win5_6.index t (0 : Fin 2) = (i 0).val / 5000 := congrFun ht 0
  have q1 : win5_6.index t (1 : Fin 2) = 0 := congrFun ht 1
  refine ⟨t, flush5_6 t, ?_⟩
  rw [mem_blk6]
  intro a
  match a with
  | ⟨0, _⟩ => show win5_6.index t (0 : Fin 2) * 5000 ≤ (i 0).val ∧ (i 0).val < win5_6.index t (0 : Fin 2) * 5000 + 5000; omega
  | ⟨1, _⟩ => show win5_6.index t (1 : Fin 2) * 128 ≤ (i 1).val ∧ (i 1).val < win5_6.index t (1 : Fin 2) * 128 + 128; omega

/-- After the launch the logits table is the read-out of the residual update of the state by the aggregated
    messages. -/
theorem logits_array (c : Dev nD) :
    (dat5 V c).arrAt 6 cfg5.N
      = readout (residual (V c main_v75_0) (V c main_v86) (V c main_v88) (V c main_v90)) (V c main_v7) (V c main_v10) :=
  (dat5 V c).arrAt_eq_of_cover 6 _ (fun t _ => flushed6_eq V c t) cover6

end Cert.Decoder.Readout

end
-- ==== Proof.KernelValue.lean ====
/-
  What the kernel program's two result buffers hold at the end of its run, as functions of the argument arrays.

  The run is followed boundary by boundary. A buffer nothing has touched yet holds its launch contents; the first
  launch leaves the edge logits; the first stretch cuts the edge list, the weight slabs and the padded read-out
  parameters; the first node launch leaves the input state S0 and its messages; and then, round by round, a stretch
  aggregates the messages along the edges and cuts the round's weights, and a launch leaves the next state and the
  next messages. The states are named once (state 0 … state 4, each the residual update of the one before by the
  aggregated messages of its own message layer), so that every boundary's fact is one short equation. The last launch
  leaves the read-out of state 4 with the padded parameters, and the last stretch keeps its first seven columns:
  the read-out of state 4 with the parameters themselves.
-/
import proofs.«102918_j30047591203218_2_alg».proof.Proof.Gen.KernelIdeal.Frame
import proofs.«102918_j30047591203218_2_alg».proof.Proof.KernelStretches
import proofs.«102918_j30047591203218_2_alg».proof.Proof.EdgeRegion
import proofs.«102918_j30047591203218_2_alg».proof.Proof.InputRegion
import proofs.«102918_j30047591203218_2_alg».proof.Proof.RoundRegion2
import proofs.«102918_j30047591203218_2_alg».proof.Proof.RoundRegion3
import proofs.«102918_j30047591203218_2_alg».proof.Proof.RoundRegion4
import proofs.«102918_j30047591203218_2_alg».proof.Proof.ReadoutRegion
import proofs.«102918_j30047591203218_2_alg».proof.Proof.PaddedReadout

set_option maxRecDepth 16384

noncomputable section

namespace Cert.Decoder.Value

open Cert.KernelIdeal Cert.KernelIdeal.Gen Idealize.ShloMosaic Idealize.ShloMosaic.TcCoe Idealize.ShloMosaic.StableHlo
open Cert.Decoder Cert.Decoder.Stretches Idealize.SL.Sem

variable (m : (ℓ : Loc nD τ sig) → Buf (Elt Ideal) ℓ) (ρ : Dev nD → PrngReg) (c : Dev nD)

/-! ## Buffers still at their launch contents -/

theorem launch1 (b : Ref sig .tc) (h0 : ∀ w, Pipeline.arrRef spec0 w ≠ b) :
    W1 m ρ c (Proc.devRef .tc b) = m ((c : Thread nD τ).loc b) := W1_of_ne m ρ c b h0
theorem launch2 (b : Ref sig .tc) (h0 : ∀ w, Pipeline.arrRef spec0 w ≠ b) (h1 : b ∉ written1) :
    W2 m ρ c (Proc.devRef .tc b) = m ((c : Thread nD τ).loc b) := (kept1 _ b h1).trans (launch1 m ρ c b h0)
theorem launch3 (b : Ref sig .tc) (h0 : ∀ w, Pipeline.arrRef spec0 w ≠ b) (h1 : b ∉ written1)
    (h2 : ∀ w, Pipeline.arrRef spec1 w ≠ b) :
    W3 m ρ c (Proc.devRef .tc b) = m ((c : Thread nD τ).loc b) := (W3_of_ne m ρ c b h2).trans (launch2 m ρ c b h0 h1)
theorem launch5 (b : Ref sig .tc) (h0 : ∀ w, Pipeline.arrRef spec0 w ≠ b) (h1 : b ∉ written1)
    (h2 : ∀ w, Pipeline.arrRef spec1 w ≠ b) (h3 : b ∉ written2) (h4 : ∀ w, Pipeline.arrRef spec2 w ≠ b) :
    W5 m ρ c (Proc.devRef .tc b) = m ((c : Thread nD τ).loc b) :=
  (W5_of_ne m ρ c b h4).trans ((kept2 _ b h3).trans (launch3 m ρ c b h0 h1 h2))
theorem launch7 (b : Ref sig .tc) (h0 : ∀ w, Pipeline.arrRef spec0 w ≠ b) (h1 : b ∉ written1)
    (h2 : ∀ w, Pipeline.arrRef spec1 w ≠ b) (h3 : b ∉ written2) (h4 : ∀ w, Pipeline.arrRef spec2 w ≠ b)
    (h5 : b ∉ written3) (h6 : ∀ w, Pipeline.arrRef spec3 w ≠ b) :
    W7 m ρ c (Proc.devRef .tc b) = m ((c : Thread nD τ).loc b) :=
  (W7_of_ne m ρ c b h6).trans ((kept3 _ b h5).trans (launch5 m ρ c b h0 h1 h2 h3 h4))
theorem launch9 (b : Ref sig .tc) (h0 : ∀ w, Pipeline.arrRef spec0 w ≠ b) (h1 : b ∉ written1)
    (h2 : ∀ w, Pipeline.arrRef spec1 w ≠ b) (h3 : b ∉ written2) (h4 : ∀ w, Pipeline.arrRef spec2 w ≠ b)
    (h5 : b ∉ written3) (h6 : ∀ w, Pipeline.arrRef spec3 w ≠ b) (h7 : b ∉ written4)
    (h8 : ∀ w, Pipeline.arrRef spec4 w ≠ b) :
    W9 m ρ c (Proc.devRef .tc b) = m ((c : Thread nD τ).loc b) :=
  (W9_of_ne m ρ c b h8).trans ((kept4 _ b h7).trans (launch7 m ρ c b h0 h1 h2 h3 h4 h5 h6))

/-! ## Buffers the first stretch wrote, kept by what follows -/

theorem since3 (b : Ref sig .tc) (h2 : ∀ w, Pipeline.arrRef spec1 w ≠ b) :
    W3 m ρ c (Proc.devRef .tc b) = W2 m ρ c (Proc.devRef .tc b) := W3_of_ne m ρ c b h2
theorem since5 (b : Ref sig .tc) (h2 : ∀ w, Pipeline.arrRef spec1 w ≠ b) (h3 : b ∉ written2)
    (h4 : ∀ w, Pipeline.arrRef spec2 w ≠ b) :
    W5 m ρ c (Proc.devRef .tc b) = W2 m ρ c (Proc.devRef .tc b) :=
  (W5_of_ne m ρ c b h4).trans ((kept2 _ b h3).trans (since3 m ρ c b h2))
theorem since7 (b : Ref sig .tc) (h2 : ∀ w, Pipeline.arrRef spec1 w ≠ b) (h3 : b ∉ written2)
    (h4 : ∀ w, Pipeline.arrRef spec2 w ≠ b) (h5 : b ∉ written3) (h6 : ∀ w, Pipeline.arrRef spec3 w ≠ b) :
    W7 m ρ c (Proc.devRef .tc b) = W2 m ρ c (Proc.devRef .tc b) :=
  (W7_of_ne m ρ c b h6).trans ((kept3 _ b h5).trans (since5 m ρ c b h2 h3 h4))
theorem since9 (b : Ref sig .tc) (h2 : ∀ w, Pipeline.arrRef spec1 w ≠ b) (h3 : b ∉ written2)
    (h4 : ∀ w, Pipeline.arrRef spec2 w ≠ b) (h5 : b ∉ written3) (h6 : ∀ w, Pipeline.arrRef spec3 w ≠ b)
    (h7 : b ∉ written4) (h8 : ∀ w, Pipeline.arrRef spec4 w ≠ b) :
    W9 m ρ c (Proc.devRef .tc b) = W2 m ρ c (Proc.devRef .tc b) :=
  (W9_of_ne m ρ c b h8).trans ((kept4 _ b h7).trans (since7 m ρ c b h2 h3 h4 h5 h6))
theorem since10 (b : Ref sig .tc) (h2 : ∀ w, Pipeline.arrRef spec1 w ≠ b) (h3 : b ∉ written2)
    (h4 : ∀ w, Pipeline.arrRef spec2 w ≠ b) (h5 : b ∉ written3) (h6 : ∀ w, Pipeline.arrRef spec3 w ≠ b)
    (h7 : b ∉ written4) (h8 : ∀ w, Pipeline.arrRef spec4 w ≠ b) (h9 : b ∉ written5) :
    W10 m ρ c (Proc.devRef .tc b) = W2 m ρ c (Proc.devRef .tc b) :=
  (kept5 _ b h9).trans (since9 m ρ c b h2 h3 h4 h5 h6 h7 h8)

/-! ## The states and messages, named -/

/-- The message table of a state in round r. -/
def msgOf (S : Mat 50000 128) (r : Fin 4) : Mat 50000 128 :=
  rectified S (slab (m ((c : Thread nD τ).loc main_arg6)) r) (row (m ((c : Thread nD τ).loc main_arg7)) r)
/-- The state after round r. -/
def nextState (S : Mat 50000 128) (r : Fin 4) : Mat 50000 128 :=
  residual S (aggregate (m ((c : Thread nD τ).loc main_arg1)) (msgOf m c S r)) (slab (m ((c : Thread nD τ).loc main_arg8)) r) (row (m ((c : Thread nD τ).loc main_arg9)) r)
/-- The state after the input layer. -/
def state0 : Mat 50000 128 := rectified (m ((c : Thread nD τ).loc main_arg0)) (m ((c : Thread nD τ).loc main_arg4)) (m ((c : Thread nD τ).loc main_arg5))
def state1 : Mat 50000 128 := nextState m c (state0 m c) 0
def state2 : Mat 50000 128 := nextState m c (state1 m c) 1
def state3 : Mat 50000 128 := nextState m c (state2 m c) 2
def state4 : Mat 50000 128 := nextState m c (state3 m c) 3

theorem nodes_eq : decoderNodes (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
    = readout (state4 m c) (m ((c : Thread nD τ).loc main_arg10)) (m ((c : Thread nD τ).loc main_arg11)) := rfl

/-! ## The first launch and the first stretch -/

theorem edges : W12 m ρ c (Proc.devRef .tc main_v0) = decoderEdges (m ((c : Thread nD τ).loc main_arg2)) (m ((c : Thread nD τ).loc main_arg3)) := by
  have e : W1 m ρ c (Proc.devRef .tc main_v0) = decoderEdges (m ((c : Thread nD τ).loc main_arg2)) (m ((c : Thread nD τ).loc main_arg3)) :=
    (W1_arr m ρ c 2).trans (edge_region (V0 m ρ) c)
  refine Eq.trans ?_ e
  calc W12 m ρ c (Proc.devRef .tc main_v0)
    _ = W11 m ρ c (Proc.devRef .tc main_v0) := kept6 _ main_v0 (by decide)
    _ = W10 m ρ c (Proc.devRef .tc main_v0) := W11_of_ne m ρ c main_v0 (by decide)
    _ = W9 m ρ c (Proc.devRef .tc main_v0) := kept5 _ main_v0 (by decide)
    _ = W8 m ρ c (Proc.devRef .tc main_v0) := W9_of_ne m ρ c main_v0 (by decide)
    _ = W7 m ρ c (Proc.devRef .tc main_v0) := kept4 _ main_v0 (by decide)
    _ = W6 m ρ c (Proc.devRef .tc main_v0) := W7_of_ne m ρ c main_v0 (by decide)
    _ = W5 m ρ c (Proc.devRef .tc main_v0) := kept3 _ main_v0 (by decide)
    _ = W4 m ρ c (Proc.devRef .tc main_v0) := W5_of_ne m ρ c main_v0 (by decide)
    _ = W3 m ρ c (Proc.devRef .tc main_v0) := kept2 _ main_v0 (by decide)
    _ = W2 m ρ c (Proc.devRef .tc main_v0) := W3_of_ne m ρ c main_v0 (by decide)
    _ = W1 m ρ c (Proc.devRef .tc main_v0) := kept1 _ main_v0 (by decide)

theorem src2 : W2 m ρ c (Proc.devRef .tc main_v2) = sources (m ((c : Thread nD τ).loc main_arg1)) :=
  (s1_v2 (W1 m ρ c)).trans (congrArg sources (launch1 m ρ c main_arg1 (by decide)))
theorem dst2 : W2 m ρ c (Proc.devRef .tc main_v4) = targets (m ((c : Thread nD τ).loc main_arg1)) :=
  (s1_v4 (W1 m ρ c)).trans (congrArg targets (launch1 m ρ c main_arg1 (by decide)))
theorem wpad2 : W2 m ρ c (Proc.devRef .tc main_v7) = paddedWeights (m ((c : Thread nD τ).loc main_arg10)) :=
  (s1_v7 (W1 m ρ c)).trans (congrArg paddedWeights (launch1 m ρ c main_arg10 (by decide)))
theorem bpad2 : W2 m ρ c (Proc.devRef .tc main_v10) = paddedBias (m ((c : Thread nD τ).loc main_arg11)) :=
  (s1_v10 (W1 m ρ c)).trans (congrArg paddedBias (launch1 m ρ c main_arg11 (by decide)))
theorem wm0 : W2 m ρ c (Proc.devRef .tc main_v12) = slab (m ((c : Thread nD τ).loc main_arg6)) 0 :=
  (s1_v12 (W1 m ρ c)).trans (congrArg (slab · 0) (launch1 m ρ c main_arg6 (by decide)))
theorem bm0 : W2 m ρ c (Proc.devRef .tc main_v14) = row (m ((c : Thread nD τ).loc main_arg7)) 0 :=
  (s1_v14 (W1 m ρ c)).trans (congrArg (row · 0) (launch1 m ρ c main_arg7 (by decide)))

/-! ## The first node launch -/

theorem st3 : W3 m ρ c (Proc.devRef .tc main_v15_0) = state0 m c := by
  refine (W3_arr m ρ c 5).trans ((Region1.state_array (V2 m ρ) c).trans ?_)
  have e0 : V2 m ρ c main_arg0 = (m ((c : Thread nD τ).loc main_arg0)) := launch2 m ρ c main_arg0 (by decide) (by decide)
  have e4 : V2 m ρ c main_arg4 = (m ((c : Thread nD τ).loc main_arg4)) := launch2 m ρ c main_arg4 (by decide) (by decide)
  have e5 : V2 m ρ c main_arg5 = (m ((c : Thread nD τ).loc main_arg5)) := launch2 m ρ c main_arg5 (by decide) (by decide)
  rw [e0, e4, e5]; rfl
theorem ms3 : W3 m ρ c (Proc.devRef .tc main_v15_1) = msgOf m c (state0 m c) 0 := by
  refine (W3_arr m ρ c 6).trans ((Region1.message_array (V2 m ρ) c).trans ?_)
  have e0 : V2 m ρ c main_arg0 = (m ((c : Thread nD τ).loc main_arg0)) := launch2 m ρ c main_arg0 (by decide) (by decide)
  have e4 : V2 m ρ c main_arg4 = (m ((c : Thread nD τ).loc main_arg4)) := launch2 m ρ c main_arg4 (by decide) (by decide)
  have e5 : V2 m ρ c main_arg5 = (m ((c : Thread nD τ).loc main_arg5)) := launch2 m ρ c main_arg5 (by decide) (by decide)
  have e12 : V2 m ρ c main_v12 = slab (m ((c : Thread nD τ).loc main_arg6)) 0 := wm0 m ρ c
  have e14 : V2 m ρ c main_v14 = row (m ((c : Thread nD τ).loc main_arg7)) 0 := bm0 m ρ c
  rw [e0, e4, e5, e12, e14]; rfl

/-! ## Round 0: the stretch after boundary 3, then the launch -/

theorem agg4 : W4 m ρ c (Proc.devRef .tc main_v26) = aggregate (m ((c : Thread nD τ).loc main_arg1)) (msgOf m c (state0 m c) 0) := by
  refine (s2_v26 (W3 m ρ c)).trans ?_
  have e2 : W3 m ρ c (Proc.devRef .tc main_v2) = sources (m ((c : Thread nD τ).loc main_arg1)) := (since3 m ρ c main_v2 (by decide)).trans (src2 m ρ c)
  have e4 : W3 m ρ c (Proc.devRef .tc main_v4) = targets (m ((c : Thread nD τ).loc main_arg1)) := (since3 m ρ c main_v4 (by decide)).trans (dst2 m ρ c)
  rw [e2, e4, ms3 m ρ c]; exact (aggregate_eq _ _).symm
theorem wu4 : W4 m ρ c (Proc.devRef .tc main_v28) = slab (m ((c : Thread nD τ).loc main_arg8)) 0 :=
  (s2_v28 (W3 m ρ c)).trans (congrArg (slab · 0) (launch3 m ρ c main_arg8 (by decide) (by decide) (by decide)))
theorem bu4 : W4 m ρ c (Proc.devRef .tc main_v30) = row (m ((c : Thread nD τ).loc main_arg9)) 0 :=
  (s2_v30 (W3 m ρ c)).trans (congrArg (row · 0) (launch3 m ρ c main_arg9 (by decide) (by decide) (by decide)))
theorem st4 : W4 m ρ c (Proc.devRef .tc main_v15_0) = state0 m c := (kept2 _ main_v15_0 (by decide)).trans (st3 m ρ c)
theorem wn4 : W4 m ρ c (Proc.devRef .tc main_v32) = slab (m ((c : Thread nD τ).loc main_arg6)) 1 :=
  (s2_v32 (W3 m ρ c)).trans (congrArg (slab · 1) (launch3 m ρ c main_arg6 (by decide) (by decide) (by decide)))
theorem bn4 : W4 m ρ c (Proc.devRef .tc main_v34) = row (m ((c : Thread nD τ).loc main_arg7)) 1 :=
  (s2_v34 (W3 m ρ c)).trans (congrArg (row · 1) (launch3 m ρ c main_arg7 (by decide) (by decide) (by decide)))
theorem st5 : W5 m ρ c (Proc.devRef .tc main_v35_0) = state1 m c := by
  refine (W5_arr m ρ c 6).trans ((Round2.state_array (V4 m ρ) c).trans ?_)
  have e0 : V4 m ρ c main_v15_0 = state0 m c := st4 m ρ c
  have e1 : V4 m ρ c main_v26 = aggregate (m ((c : Thread nD τ).loc main_arg1)) (msgOf m c (state0 m c) 0) := agg4 m ρ c
  have e2 : V4 m ρ c main_v28 = slab (m ((c : Thread nD τ).loc main_arg8)) 0 := wu4 m ρ c
  have e3 : V4 m ρ c main_v30 = row (m ((c : Thread nD τ).loc main_arg9)) 0 := bu4 m ρ c
  rw [e0, e1, e2, e3]; rfl
theorem ms5 : W5 m ρ c (Proc.devRef .tc main_v35_1) = msgOf m c (state1 m c) 1 := by
  refine (W5_arr m ρ c 7).trans ((Round2.message_array (V4 m ρ) c).trans ?_)
  have e0 : V4 m ρ c main_v15_0 = state0 m c := st4 m ρ c
  have e1 : V4 m ρ c main_v26 = aggregate (m ((c : Thread nD τ).loc main_arg1)) (msgOf m c (state0 m c) 0) := agg4 m ρ c
  have e2 : V4 m ρ c main_v28 = slab (m ((c : Thread nD τ).loc main_arg8)) 0 := wu4 m ρ c
  have e3 : V4 m ρ c main_v30 = row (m ((c : Thread nD τ).loc main_arg9)) 0 := bu4 m ρ c
  have e4 : V4 m ρ c main_v32 = slab (m ((c : Thread nD τ).loc main_arg6)) 1 := wn4 m ρ c
  have e5 : V4 m ρ c main_v34 = row (m ((c : Thread nD τ).loc main_arg7)) 1 := bn4 m ρ c
  rw [e0, e1, e2, e3, e4, e5]; rfl

/-! ## Round 1: the stretch after boundary 5, then the launch -/

theorem agg6 : W6 m ρ c (Proc.devRef .tc main_v46) = aggregate (m ((c : Thread nD τ).loc main_arg1)) (msgOf m c (state1 m c) 1) := by
  refine (s3_v46 (W5 m ρ c)).trans ?_
  have e2 : W5 m ρ c (Proc.devRef .tc main_v2) = sources (m ((c : Thread nD τ).loc main_arg1)) := (since5 m ρ c main_v2 (by decide) (by decide) (by decide)).trans (src2 m ρ c)
  have e4 : W5 m ρ c (Proc.devRef .tc main_v4) = targets (m ((c : Thread nD τ).loc main_arg1)) := (since5 m ρ c main_v4 (by decide) (by decide) (by decide)).trans (dst2 m ρ c)
  rw [e2, e4, ms5 m ρ c]; exact (aggregate_eq _ _).symm
theorem wu6 : W6 m ρ c (Proc.devRef .tc main_v48) = slab (m ((c : Thread nD τ).loc main_arg8)) 1 :=
  (s3_v48 (W5 m ρ c)).trans (congrArg (slab · 1) (launch5 m ρ c main_arg8 (by decide) (by decide) (by decide) (by decide) (by decide)))
theorem bu6 : W6 m ρ c (Proc.devRef .tc main_v50) = row (m ((c : Thread nD τ).loc main_arg9)) 1 :=
  (s3_v50 (W5 m ρ c)).trans (congrArg (row · 1) (launch5 m ρ c main_arg9 (by decide) (by decide) (by decide) (by decide) (by decide)))
theorem st6 : W6 m ρ c (Proc.devRef .tc main_v35_0) = state1 m c := (kept3 _ main_v35_0 (by decide)).trans (st5 m ρ c)
theorem wn6 : W6 m ρ c (Proc.devRef .tc main_v52) = slab (m ((c : Thread nD τ).loc main_arg6)) 2 :=
  (s3_v52 (W5 m ρ c)).trans (congrArg (slab · 2) (launch5 m ρ c main_arg6 (by decide) (by decide) (by decide) (by decide) (by decide)))
theorem bn6 : W6 m ρ c (Proc.devRef .tc main_v54) = row (m ((c : Thread nD τ).loc main_arg7)) 2 :=
  (s3_v54 (W5 m ρ c)).trans (congrArg (row · 2) (launch5 m ρ c main_arg7 (by decide) (by decide) (by decide) (by decide) (by decide)))
theorem st7 : W7 m ρ c (Proc.devRef .tc main_v55_0) = state2 m c := by
  refine (W7_arr m ρ c 6).trans ((Round3.state_array (V6 m ρ) c).trans ?_)
  have e0 : V6 m ρ c main_v35_0 = state1 m c := st6 m ρ c
  have e1 : V6 m ρ c main_v46 = aggregate (m ((c : Thread nD τ).loc main_arg1)) (msgOf m c (state1 m c) 1) := agg6 m ρ c
  have e2 : V6 m ρ c main_v48 = slab (m ((c : Thread nD τ).loc main_arg8)) 1 := wu6 m ρ c
  have e3 : V6 m ρ c main_v50 = row (m ((c : Thread nD τ).loc main_arg9)) 1 := bu6 m ρ c
  rw [e0, e1, e2, e3]; rfl
theorem ms7 : W7 m ρ c (Proc.devRef .tc main_v55_1) = msgOf m c (state2 m c) 2 := by
  refine (W7_arr m ρ c 7).trans ((Round3.message_array (V6 m ρ) c).trans ?_)
  have e0 : V6 m ρ c main_v35_0 = state1 m c := st6 m ρ c
  have e1 : V6 m ρ c main_v46 = aggregate (m ((c : Thread nD τ).loc main_arg1)) (msgOf m c (state1 m c) 1) := agg6 m ρ c
  have e2 : V6 m ρ c main_v48 = slab (m ((c : Thread nD τ).loc main_arg8)) 1 := wu6 m ρ c
  have e3 : V6 m ρ c main_v50 = row (m ((c : Thread nD τ).loc main_arg9)) 1 := bu6 m ρ c
  have e4 : V6 m ρ c main_v52 = slab (m ((c : Thread nD τ).loc main_arg6)) 2 := wn6 m ρ c
  have e5 : V6 m ρ c main_v54 = row (m ((c : Thread nD τ).loc main_arg7)) 2 := bn6 m ρ c
  rw [e0, e1, e2, e3, e4, e5]; rfl

/-! ## Round 2: the stretch after boundary 7, then the launch -/

theorem agg8 : W8 m ρ c (Proc.devRef .tc main_v66) = aggregate (m ((c : Thread nD τ).loc main_arg1)) (msgOf m c (state2 m c) 2) := by
  refine (s4_v66 (W7 m ρ c)).trans ?_
  have e2 : W7 m ρ c (Proc.devRef .tc main_v2) = sources (m ((c : Thread nD τ).loc main_arg1)) := (since7 m ρ c main_v2 (by decide) (by decide) (by decide) (by decide) (by decide)).trans (src2 m ρ c)
  have e4 : W7 m ρ c (Proc.devRef .tc main_v4) = targets (m ((c : Thread nD τ).loc main_arg1)) := (since7 m ρ c main_v4 (by decide) (by decide) (by decide) (by decide) (by decide)).trans (dst2 m ρ c)
  rw [e2, e4, ms7 m ρ c]; exact (aggregate_eq _ _).symm
theorem wu8 : W8 m ρ c (Proc.devRef .tc main_v68) = slab (m ((c : Thread nD τ).loc main_arg8)) 2 :=
  (s4_v68 (W7 m ρ c)).trans (congrArg (slab · 2) (launch7 m ρ c main_arg8 (by decide) (by decide) (by decide) (by decide) (by decide) (by decide) (by decide)))
theorem bu8 : W8 m ρ c (Proc.devRef .tc main_v70) = row (m ((c : Thread nD τ).loc main_arg9)) 2 :=
  (s4_v70 (W7 m ρ c)).trans (congrArg (row · 2) (launch7 m ρ c main_arg9 (by decide) (by decide) (by decide) (by decide) (by decide) (by decide) (by decide)))
theorem st8 : W8 m ρ c (Proc.devRef .tc main_v55_0) = state2 m c := (kept4 _ main_v55_0 (by decide)).trans (st7 m ρ c)
theorem wn8 : W8 m ρ c (Proc.devRef .tc main_v72) = slab (m ((c : Thread nD τ).loc main_arg6)) 3 :=
  (s4_v72 (W7 m ρ c)).trans (congrArg (slab · 3) (launch7 m ρ c main_arg6 (by decide) (by decide) (by decide) (by decide) (by decide) (by decide) (by decide)))
theorem bn8 : W8 m ρ c (Proc.devRef .tc main_v74) = row (m ((c : Thread nD τ).loc main_arg7)) 3 :=
  (s4_v74 (W7 m ρ c)).trans (congrArg (row · 3) (launch7 m ρ c main_arg7 (by decide) (by decide) (by decide) (by decide) (by decide) (by decide) (by decide)))
theorem st9 : W9 m ρ c (Proc.devRef .tc main_v75_0) = state3 m c := by
  refine (W9_arr m ρ c 6).trans ((Round4.state_array (V8 m ρ) c).trans ?_)
  have e0 : V8 m ρ c main_v55_0 = state2 m c := st8 m ρ c
  have e1 : V8 m ρ c main_v66 = aggregate (m ((c : Thread nD τ).loc main_arg1)) (msgOf m c (state2 m c) 2) := agg8 m ρ c
  have e2 : V8 m ρ c main_v68 = slab (m ((c : Thread nD τ).loc main_arg8)) 2 := wu8 m ρ c
  have e3 : V8 m ρ c main_v70 = row (m ((c : Thread nD τ).loc main_arg9)) 2 := bu8 m ρ c
  rw [e0, e1, e2, e3]; rfl
theorem ms9 : W9 m ρ c (Proc.devRef .tc main_v75_1) = msgOf m c (state3 m c) 3 := by
  refine (W9_arr m ρ c 7).trans ((Round4.message_array (V8 m ρ) c).trans ?_)
  have e0 : V8 m ρ c main_v55_0 = state2 m c := st8 m ρ c
  have e1 : V8 m ρ c main_v66 = aggregate (m ((c : Thread nD τ).loc main_arg1)) (msgOf m c (state2 m c) 2) := agg8 m ρ c
  have e2 : V8 m ρ c main_v68 = slab (m ((c : Thread nD τ).loc main_arg8)) 2 := wu8 m ρ c
  have e3 : V8 m ρ c main_v70 = row (m ((c : Thread nD τ).loc main_arg9)) 2 := bu8 m ρ c
  have e4 : V8 m ρ c main_v72 = slab (m ((c : Thread nD τ).loc main_arg6)) 3 := wn8 m ρ c
  have e5 : V8 m ρ c main_v74 = row (m ((c : Thread nD τ).loc main_arg7)) 3 := bn8 m ρ c
  rw [e0, e1, e2, e3, e4, e5]; rfl

/-! ## Round 3: the stretch after boundary 9, then the launch -/

theorem agg10 : W10 m ρ c (Proc.devRef .tc main_v86) = aggregate (m ((c : Thread nD τ).loc main_arg1)) (msgOf m c (state3 m c) 3) := by
  refine (s5_v86 (W9 m ρ c)).trans ?_
  have e2 : W9 m ρ c (Proc.devRef .tc main_v2) = sources (m ((c : Thread nD τ).loc main_arg1)) := (since9 m ρ c main_v2 (by decide) (by decide) (by decide) (by decide) (by decide) (by decide) (by decide)).trans (src2 m ρ c)
  have e4 : W9 m ρ c (Proc.devRef .tc main_v4) = targets (m ((c : Thread nD τ).loc main_arg1)) := (since9 m ρ c main_v4 (by decide) (by decide) (by decide) (by decide) (by decide) (by decide) (by decide)).trans (dst2 m ρ c)
  rw [e2, e4, ms9 m ρ c]; exact (aggregate_eq _ _).symm
theorem wu10 : W10 m ρ c (Proc.devRef .tc main_v88) = slab (m ((c : Thread nD τ).loc main_arg8)) 3 :=
  (s5_v88 (W9 m ρ c)).trans (congrArg (slab · 3) (launch9 m ρ c main_arg8 (by decide) (by decide) (by decide) (by decide) (by decide) (by decide) (by decide) (by decide) (by decide)))
theorem bu10 : W10 m ρ c (Proc.devRef .tc main_v90) = row (m ((c : Thread nD τ).loc main_arg9)) 3 :=
  (s5_v90 (W9 m ρ c)).trans (congrArg (row · 3) (launch9 m ρ c main_arg9 (by decide) (by decide) (by decide) (by decide) (by decide) (by decide) (by decide) (by decide) (by decide)))
theorem st10 : W10 m ρ c (Proc.devRef .tc main_v75_0) = state3 m c := (kept5 _ main_v75_0 (by decide)).trans (st9 m ρ c)

/-! ## The read-out launch and the last stretch -/

theorem logits11 : W11 m ρ c (Proc.devRef .tc main_v91) = readout (state4 m c) (paddedWeights (m ((c : Thread nD τ).loc main_arg10))) (paddedBias (m ((c : Thread nD τ).loc main_arg11))) := by
  refine (W11_arr m ρ c 6).trans ((Readout.logits_array (V10 m ρ) c).trans ?_)
  have e0 : V10 m ρ c main_v75_0 = state3 m c := st10 m ρ c
  have e1 : V10 m ρ c main_v86 = aggregate (m ((c : Thread nD τ).loc main_arg1)) (msgOf m c (state3 m c) 3) := agg10 m ρ c
  have e2 : V10 m ρ c main_v88 = slab (m ((c : Thread nD τ).loc main_arg8)) 3 := wu10 m ρ c
  have e3 : V10 m ρ c main_v90 = row (m ((c : Thread nD τ).loc main_arg9)) 3 := bu10 m ρ c
  have e4 : V10 m ρ c main_v7 = paddedWeights (m ((c : Thread nD τ).loc main_arg10)) :=
    (since10 m ρ c main_v7 (by decide) (by decide) (by decide) (by decide) (by decide) (by decide) (by decide) (by decide)).trans (wpad2 m ρ c)
  have e5 : V10 m ρ c main_v10 = paddedBias (m ((c : Thread nD τ).loc main_arg11)) :=
    (since10 m ρ c main_v10 (by decide) (by decide) (by decide) (by decide) (by decide) (by decide) (by decide) (by decide)).trans (bpad2 m ρ c)
  rw [e0, e1, e2, e3, e4, e5]; rfl

theorem nodes : W12 m ρ c (Proc.devRef .tc main_v92)
    = decoderNodes (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [nodes_eq]
  refine (s6_v92 (W11 m ρ c)).trans ?_
  rw [logits11 m ρ c]
  exact sliced_readout (state4 m c) (m ((c : Thread nD τ).loc main_arg10)) (m ((c : Thread nD τ).loc main_arg11))

end Cert.Decoder.Value

end
-- ==== Proof.EdgeReference.lean ====
/-
  The reference program's edge logits are the decoder's.

  The reference multiplies the stack of latent tables with itself member by member, contracting the feature axis of
  both copies, so that entry (t, i, j) of the product is the inner product of rows i and j of table t; it then views
  the one-entry bias as a scalar, spreads that scalar over the whole 32 × 512 × 512 result and adds. Read at an entry
  this is the inner product plus the one bias: the decoder's edge logits.
-/
import proofs.«102918_j30047591203218_2_alg».proof.Proof.Gen.ReferenceIdeal.Read
import proofs.«102918_j30047591203218_2_alg».proof.Proof.DecoderHost

noncomputable section

open scoped BigOperators

namespace Cert.Decoder

open Idealize.ShloMosaic Idealize.ShloMosaic.ValueIdx Cert.KernelIdeal

/-- The one-entry bias viewed as a scalar reads the bias's entry. -/
theorem bias_scalar (x3 : (⟨S1, .f32⟩ : BufTy).Contents (Elt Ideal)) (k : Cert.ReferenceIdeal.S_.Idx) :
    Cert.ReferenceIdeal.Read.val_main_v1 (F := Ideal) x3 k = x3 (ix1 0) := by
  unfold Cert.ReferenceIdeal.Read.val_main_v1
  refine shapeCast_apply _ _ k (ix1 0) ?_
  rw [Shape.rowMajor_val_one]
  exact (Shape.rowMajorPi_zero _ _).symm

/-- The reference's edge logits, entry by entry: rows i and j of table t against each other, plus the bias. -/
theorem edge_reference (x2 : (⟨S32x512x64, .f32⟩ : BufTy).Contents (Elt Ideal))
    (x3 : (⟨S1, .f32⟩ : BufTy).Contents (Elt Ideal)) :
    Cert.ReferenceIdeal.Read.val_main_v3 (F := Ideal) x2 x3 = decoderEdges x2 x3 := by
  funext j
  obtain ⟨t, i, k, rfl⟩ : ∃ (t : Fin 32) (i k : Fin 512), j = ix3 t i k := ⟨j 0, j 1, j 2, eq_ix3 j⟩
  have el : ∀ c : Fin 64, Cert.ReferenceIdeal.Read.lidx_main_v0 (ix3 t i k) c = ix3 t i c := fun c =>
    funext fun a => Fin.ext (by match a with | ⟨0, _⟩ => rfl | ⟨1, _⟩ => rfl | ⟨2, _⟩ => rfl)
  have er : ∀ c : Fin 64, Cert.ReferenceIdeal.Read.ridx_main_v0 (ix3 t i k) c = ix3 t k c := fun c =>
    funext fun a => Fin.ext (by match a with | ⟨0, _⟩ => rfl | ⟨1, _⟩ => rfl | ⟨2, _⟩ => rfl)
  rw [Cert.ReferenceIdeal.Read.val_main_v3_apply, Cert.ReferenceIdeal.Read.val_main_v0_apply,
    Cert.ReferenceIdeal.Read.val_main_v2_apply, bias_scalar]
  simp only [el, er]
  rfl

end Cert.Decoder

end
-- ==== Proof.RefNodes.lean ====
/-
  The reference program's node logits are the decoder's.

  The reference computes the node logits as a straight line of whole-array operations: a rectified input layer; four
  rounds, each a rectified message layer, the aggregation of the messages along the edges, and a rectified update
  layer added back onto the state; and an affine read-out. Each dense layer is, as a whole table, the specification's
  layer (read entry by entry in the imported layer lemmas); each aggregation is the very same look-up of rows and
  add-into that the specification names `aggregate`, so it is never opened. The stages are then chained.
-/
import proofs.«102918_j30047591203218_2_alg».proof.Proof.Gen.ReferenceIdeal.Read
import proofs.«102918_j30047591203218_2_alg».proof.Proof.DecoderHost
import proofs.«102918_j30047591203218_2_alg».proof.Proof.LibPerceptron

noncomputable section

namespace Cert.Decoder

open Idealize.ShloMosaic Idealize.ShloMosaic.ValueIdx Cert.Lib.Perceptron
open Cert.ReferenceIdeal Cert.ReferenceIdeal.Read

/-! ## A host program's layers as whole tables -/

/-- A host program's rectified dense layer, as a whole table. -/
theorem host_rectified {n K C : ℕ} (D : DotDims ⟨2, ![n, K]⟩ ⟨2, ![K, C]⟩ ⟨2, ![n, C]⟩)
    (hD : D = DotDims.plain n K C) (prec : Option ContractPrecision)
    (X : FVec Ideal ⟨2, ![n, K]⟩ .f32) (W : FVec Ideal ⟨2, ![K, C]⟩ .f32) (b : FVec Ideal ⟨1, ![C]⟩ .f32)
    (h1 : (⟨1, ![C]⟩ : Shape).BroadcastsInDim ⟨2, ![1, C]⟩ ![1])
    (h2 : (⟨2, ![1, C]⟩ : Shape).BroadcastsInDim ⟨2, ![n, C]⟩ ![0, 1])
    (h0 : (⟨0, ![]⟩ : Shape).BroadcastsInDim ⟨2, ![n, C]⟩ ![]) :
    maximumf
        (addf (Host.dotGeneral D prec X W)
          (broadcastInDim ⟨2, ![n, C]⟩ ![0, 1] h2 (broadcastInDim ⟨2, ![1, C]⟩ ![1] h1 b)))
        (broadcastInDim ⟨2, ![n, C]⟩ ![] h0 (constant (F := Ideal) ⟨0, ![]⟩ .f32 0x00000000#32))
      = rectified X W b := by
  funext j
  rw [eq_ix2 j]
  exact host_relu_entry D hD prec X W b h1 h2 h0 (j 0) (j 1)

/-- A host program's affine layer, as a whole table. -/
theorem host_readout {n K C : ℕ} (D : DotDims ⟨2, ![n, K]⟩ ⟨2, ![K, C]⟩ ⟨2, ![n, C]⟩)
    (hD : D = DotDims.plain n K C) (prec : Option ContractPrecision)
    (X : FVec Ideal ⟨2, ![n, K]⟩ .f32) (W : FVec Ideal ⟨2, ![K, C]⟩ .f32) (b : FVec Ideal ⟨1, ![C]⟩ .f32)
    (h1 : (⟨1, ![C]⟩ : Shape).BroadcastsInDim ⟨2, ![1, C]⟩ ![1])
    (h2 : (⟨2, ![1, C]⟩ : Shape).BroadcastsInDim ⟨2, ![n, C]⟩ ![0, 1]) :
    addf (Host.dotGeneral D prec X W)
        (broadcastInDim ⟨2, ![n, C]⟩ ![0, 1] h2 (broadcastInDim ⟨2, ![1, C]⟩ ![1] h1 b))
      = readout X W b := by
  funext j
  rw [eq_ix2 j]
  exact host_affine_entry D hD prec X W b h1 h2 (j 0) (j 1)

/-- A host program's residual update: the state plus a rectified layer of the aggregated messages. -/
theorem host_residual {n K : ℕ} (D : DotDims ⟨2, ![n, K]⟩ ⟨2, ![K, K]⟩ ⟨2, ![n, K]⟩)
    (hD : D = DotDims.plain n K K) (prec : Option ContractPrecision)
    (S A : FVec Ideal ⟨2, ![n, K]⟩ .f32) (W : FVec Ideal ⟨2, ![K, K]⟩ .f32) (b : FVec Ideal ⟨1, ![K]⟩ .f32)
    (h1 : (⟨1, ![K]⟩ : Shape).BroadcastsInDim ⟨2, ![1, K]⟩ ![1])
    (h2 : (⟨2, ![1, K]⟩ : Shape).BroadcastsInDim ⟨2, ![n, K]⟩ ![0, 1])
    (h0 : (⟨0, ![]⟩ : Shape).BroadcastsInDim ⟨2, ![n, K]⟩ ![]) :
    addf S
        (maximumf
          (addf (Host.dotGeneral D prec A W)
            (broadcastInDim ⟨2, ![n, K]⟩ ![0, 1] h2 (broadcastInDim ⟨2, ![1, K]⟩ ![1] h1 b)))
          (broadcastInDim ⟨2, ![n, K]⟩ ![] h0 (constant (F := Ideal) ⟨0, ![]⟩ .f32 0x00000000#32)))
      = residual S A W b := by
  rw [host_rectified D hD prec A W b h1 h2 h0]
  funext j
  rw [addf_apply]
  rfl

/-! ## The reference's stages -/

/-- The input layer. -/
theorem input_layer (x0 : (⟨S50000x64, .f32⟩ : BufTy).Contents (Elt Ideal)) (x4 : (⟨S64x128, .f32⟩ : BufTy).Contents (Elt Ideal)) (x5 : (⟨S128, .f32⟩ : BufTy).Contents (Elt Ideal)) :
    val_main_v12 (F := Ideal) x0 x4 x5 = rectified x0 x4 x5 := by
  unfold val_main_v12 val_main_v11 val_main_v10 val_main_v9 val_main_v8 val_main_call0_v0 val_main_call0_cst
  exact host_rectified dot_S50000x64_S64x128_S50000x128_1_0_0_1_n_n rfl none x0 x4 x5 _ _ _

/-- The first round's messages: a rectified layer of the state entering the round. -/
theorem messages_0 (x0 : (⟨S50000x64, .f32⟩ : BufTy).Contents (Elt Ideal)) (x4 : (⟨S64x128, .f32⟩ : BufTy).Contents (Elt Ideal)) (x5 : (⟨S128, .f32⟩ : BufTy).Contents (Elt Ideal)) (x6 : (⟨S4x128x128, .f32⟩ : BufTy).Contents (Elt Ideal)) (x7 : (⟨S4x128, .f32⟩ : BufTy).Contents (Elt Ideal)) :
    val_main_v21 (F := Ideal) x0 x4 x5 x6 x7 = rectified (val_main_v12 (F := Ideal) x0 x4 x5) (slab x6 0) (row x7 0) := by
  unfold val_main_v21 val_main_v20 val_main_v19 val_main_v18 val_main_v17 val_main_v16 val_main_v15 val_main_v14 val_main_v13 val_main_call1_v0 val_main_call1_cst
  exact host_rectified dot_S50000x128_S128x128_S50000x128_1_0_0_1_n_n rfl none (val_main_v12 (F := Ideal) x0 x4 x5) (slab x6 0) (row x7 0) _ _ _

/-- The first round's aggregation: the same look-up of rows and add-into as `aggregate`. -/
theorem aggregated_0 (x0 : (⟨S50000x64, .f32⟩ : BufTy).Contents (Elt Ideal)) (x1 : (⟨S2x800000, .i32⟩ : BufTy).Contents (Elt Ideal)) (x4 : (⟨S64x128, .f32⟩ : BufTy).Contents (Elt Ideal)) (x5 : (⟨S128, .f32⟩ : BufTy).Contents (Elt Ideal)) (x6 : (⟨S4x128x128, .f32⟩ : BufTy).Contents (Elt Ideal)) (x7 : (⟨S4x128, .f32⟩ : BufTy).Contents (Elt Ideal)) :
    val_main_v31 (F := Ideal) x0 x1 x4 x5 x6 x7 = aggregate x1 (val_main_v21 (F := Ideal) x0 x4 x5 x6 x7) := by
  unfold val_main_v31 val_main_v30 val_main_v29 val_main_v28 val_main_v27 val_main_v26 val_main_v25 val_main_v24 val_main_v23 val_main_v22 val_main_c val_main_c_0 val_main_cst val_main_v7 val_main_v6 val_main_v5 val_main_v4
  rfl

/-- The state leaving the first round. -/
theorem state_0 (x0 : (⟨S50000x64, .f32⟩ : BufTy).Contents (Elt Ideal)) (x1 : (⟨S2x800000, .i32⟩ : BufTy).Contents (Elt Ideal)) (x4 : (⟨S64x128, .f32⟩ : BufTy).Contents (Elt Ideal)) (x5 : (⟨S128, .f32⟩ : BufTy).Contents (Elt Ideal)) (x6 : (⟨S4x128x128, .f32⟩ : BufTy).Contents (Elt Ideal)) (x7 : (⟨S4x128, .f32⟩ : BufTy).Contents (Elt Ideal)) (x8 : (⟨S4x128x128, .f32⟩ : BufTy).Contents (Elt Ideal)) (x9 : (⟨S4x128, .f32⟩ : BufTy).Contents (Elt Ideal)) :
    val_main_v41 (F := Ideal) x0 x1 x4 x5 x6 x7 x8 x9 = round (aggregate x1) (val_main_v12 (F := Ideal) x0 x4 x5) (slab x6 0) (row x7 0) (slab x8 0) (row x9 0) := by
  unfold val_main_v41 val_main_v40 val_main_v39 val_main_v38 val_main_v37 val_main_v36 val_main_v35 val_main_v34 val_main_v33 val_main_v32 val_main_call2_v0 val_main_call2_cst
  rw [aggregated_0 x0 x1 x4 x5 x6 x7, messages_0 x0 x4 x5 x6 x7]
  exact host_residual dot_S50000x128_S128x128_S50000x128_1_0_0_1_n_n rfl none (val_main_v12 (F := Ideal) x0 x4 x5) _ (slab x8 0) (row x9 0) _ _ _

/-- The second round's messages: a rectified layer of the state entering the round. -/
theorem messages_1 (x0 : (⟨S50000x64, .f32⟩ : BufTy).Contents (Elt Ideal)) (x1 : (⟨S2x800000, .i32⟩ : BufTy).Contents (Elt Ideal)) (x4 : (⟨S64x128, .f32⟩ : BufTy).Contents (Elt Ideal)) (x5 : (⟨S128, .f32⟩ : BufTy).Contents (Elt Ideal)) (x6 : (⟨S4x128x128, .f32⟩ : BufTy).Contents (Elt Ideal)) (x7 : (⟨S4x128, .f32⟩ : BufTy).Contents (Elt Ideal)) (x8 : (⟨S4x128x128, .f32⟩ : BufTy).Contents (Elt Ideal)) (x9 : (⟨S4x128, .f32⟩ : BufTy).Contents (Elt Ideal)) :
    val_main_v50 (F := Ideal) x0 x1 x4 x5 x6 x7 x8 x9 = rectified (val_main_v41 (F := Ideal) x0 x1 x4 x5 x6 x7 x8 x9) (slab x6 1) (row x7 1) := by
  unfold val_main_v50 val_main_v49 val_main_v48 val_main_v47 val_main_v46 val_main_v45 val_main_v44 val_main_v43 val_main_v42 val_main_call3_v0 val_main_call3_cst
  exact host_rectified dot_S50000x128_S128x128_S50000x128_1_0_0_1_n_n rfl none (val_main_v41 (F := Ideal) x0 x1 x4 x5 x6 x7 x8 x9) (slab x6 1) (row x7 1) _ _ _

/-- The second round's aggregation: the same look-up of rows and add-into as `aggregate`. -/
theorem aggregated_1 (x0 : (⟨S50000x64, .f32⟩ : BufTy).Contents (Elt Ideal)) (x1 : (⟨S2x800000, .i32⟩ : BufTy).Contents (Elt Ideal)) (x4 : (⟨S64x128, .f32⟩ : BufTy).Contents (Elt Ideal)) (x5 : (⟨S128, .f32⟩ : BufTy).Contents (Elt Ideal)) (x6 : (⟨S4x128x128, .f32⟩ : BufTy).Contents (Elt Ideal)) (x7 : (⟨S4x128, .f32⟩ : BufTy).Contents (Elt Ideal)) (x8 : (⟨S4x128x128, .f32⟩ : BufTy).Contents (Elt Ideal)) (x9 : (⟨S4x128, .f32⟩ : BufTy).Contents (Elt Ideal)) :
    val_main_v60 (F := Ideal) x0 x1 x4 x5 x6 x7 x8 x9 = aggregate x1 (val_main_v50 (F := Ideal) x0 x1 x4 x5 x6 x7 x8 x9) := by
  unfold val_main_v60 val_main_v59 val_main_v58 val_main_v57 val_main_v56 val_main_v55 val_main_v54 val_main_v53 val_main_v52 val_main_v51 val_main_c_1 val_main_c_2 val_main_cst_3 val_main_v7 val_main_v6 val_main_v5 val_main_v4
  rfl

/-- The state leaving the second round. -/
theorem state_1 (x0 : (⟨S50000x64, .f32⟩ : BufTy).Contents (Elt Ideal)) (x1 : (⟨S2x800000, .i32⟩ : BufTy).Contents (Elt Ideal)) (x4 : (⟨S64x128, .f32⟩ : BufTy).Contents (Elt Ideal)) (x5 : (⟨S128, .f32⟩ : BufTy).Contents (Elt Ideal)) (x6 : (⟨S4x128x128, .f32⟩ : BufTy).Contents (Elt Ideal)) (x7 : (⟨S4x128, .f32⟩ : BufTy).Contents (Elt Ideal)) (x8 : (⟨S4x128x128, .f32⟩ : BufTy).Contents (Elt Ideal)) (x9 : (⟨S4x128, .f32⟩ : BufTy).Contents (Elt Ideal)) :
    val_main_v70 (F := Ideal) x0 x1 x4 x5 x6 x7 x8 x9 = round (aggregate x1) (val_main_v41 (F := Ideal) x0 x1 x4 x5 x6 x7 x8 x9) (slab x6 1) (row x7 1) (slab x8 1) (row x9 1) := by
  unfold val_main_v70 val_main_v69 val_main_v68 val_main_v67 val_main_v66 val_main_v65 val_main_v64 val_main_v63 val_main_v62 val_main_v61 val_main_call4_v0 val_main_call4_cst
  rw [aggregated_1 x0 x1 x4 x5 x6 x7 x8 x9, messages_1 x0 x1 x4 x5 x6 x7 x8 x9]
  exact host_residual dot_S50000x128_S128x128_S50000x128_1_0_0_1_n_n rfl none (val_main_v41 (F := Ideal) x0 x1 x4 x5 x6 x7 x8 x9) _ (slab x8 1) (row x9 1) _ _ _

/-- The third round's messages: a rectified layer of the state entering the round. -/
theorem messages_2 (x0 : (⟨S50000x64, .f32⟩ : BufTy).Contents (Elt Ideal)) (x1 : (⟨S2x800000, .i32⟩ : BufTy).Contents (Elt Ideal)) (x4 : (⟨S64x128, .f32⟩ : BufTy).Contents (Elt Ideal)) (x5 : (⟨S128, .f32⟩ : BufTy).Contents (Elt Ideal)) (x6 : (⟨S4x128x128, .f32⟩ : BufTy).Contents (Elt Ideal)) (x7 : (⟨S4x128, .f32⟩ : BufTy).Contents (Elt Ideal)) (x8 : (⟨S4x128x128, .f32⟩ : BufTy).Contents (Elt Ideal)) (x9 : (⟨S4x128, .f32⟩ : BufTy).Contents (Elt Ideal)) :
    val_main_v79 (F := Ideal) x0 x1 x4 x5 x6 x7 x8 x9 = rectified (val_main_v70 (F := Ideal) x0 x1 x4 x5 x6 x7 x8 x9) (slab x6 2) (row x7 2) := by
  unfold val_main_v79 val_main_v78 val_main_v77 val_main_v76 val_main_v75 val_main_v74 val_main_v73 val_main_v72 val_main_v71 val_main_call5_v0 val_main_call5_cst
  exact host_rectified dot_S50000x128_S128x128_S50000x128_1_0_0_1_n_n rfl none (val_main_v70 (F := Ideal) x0 x1 x4 x5 x6 x7 x8 x9) (slab x6 2) (row x7 2) _ _ _

/-- The third round's aggregation: the same look-up of rows and add-into as `aggregate`. -/
theorem aggregated_2 (x0 : (⟨S50000x64, .f32⟩ : BufTy).Contents (Elt Ideal)) (x1 : (⟨S2x800000, .i32⟩ : BufTy).Contents (Elt Ideal)) (x4 : (⟨S64x128, .f32⟩ : BufTy).Contents (Elt Ideal)) (x5 : (⟨S128, .f32⟩ : BufTy).Contents (Elt Ideal)) (x6 : (⟨S4x128x128, .f32⟩ : BufTy).Contents (Elt Ideal)) (x7 : (⟨S4x128, .f32⟩ : BufTy).Contents (Elt Ideal)) (x8 : (⟨S4x128x128, .f32⟩ : BufTy).Contents (Elt Ideal)) (x9 : (⟨S4x128, .f32⟩ : BufTy).Contents (Elt Ideal)) :
    val_main_v89 (F := Ideal) x0 x1 x4 x5 x6 x7 x8 x9 = aggregate x1 (val_main_v79 (F := Ideal) x0 x1 x4 x5 x6 x7 x8 x9) := by
  unfold val_main_v89 val_main_v88 val_main_v87 val_main_v86 val_main_v85 val_main_v84 val_main_v83 val_main_v82 val_main_v81 val_main_v80 val_main_c_4 val_main_c_5 val_main_cst_6 val_main_v7 val_main_v6 val_main_v5 val_main_v4
  rfl

/-- The state leaving the third round. -/
theorem state_2 (x0 : (⟨S50000x64, .f32⟩ : BufTy).Contents (Elt Ideal)) (x1 : (⟨S2x800000, .i32⟩ : BufTy).Contents (Elt Ideal)) (x4 : (⟨S64x128, .f32⟩ : BufTy).Contents (Elt Ideal)) (x5 : (⟨S128, .f32⟩ : BufTy).Contents (Elt Ideal)) (x6 : (⟨S4x128x128, .f32⟩ : BufTy).Contents (Elt Ideal)) (x7 : (⟨S4x128, .f32⟩ : BufTy).Contents (Elt Ideal)) (x8 : (⟨S4x128x128, .f32⟩ : BufTy).Contents (Elt Ideal)) (x9 : (⟨S4x128, .f32⟩ : BufTy).Contents (Elt Ideal)) :
    val_main_v99 (F := Ideal) x0 x1 x4 x5 x6 x7 x8 x9 = round (aggregate x1) (val_main_v70 (F := Ideal) x0 x1 x4 x5 x6 x7 x8 x9) (slab x6 2) (row x7 2) (slab x8 2) (row x9 2) := by
  unfold val_main_v99 val_main_v98 val_main_v97 val_main_v96 val_main_v95 val_main_v94 val_main_v93 val_main_v92 val_main_v91 val_main_v90 val_main_call6_v0 val_main_call6_cst
  rw [aggregated_2 x0 x1 x4 x5 x6 x7 x8 x9, messages_2 x0 x1 x4 x5 x6 x7 x8 x9]
  exact host_residual dot_S50000x128_S128x128_S50000x128_1_0_0_1_n_n rfl none (val_main_v70 (F := Ideal) x0 x1 x4 x5 x6 x7 x8 x9) _ (slab x8 2) (row x9 2) _ _ _

/-- The fourth round's messages: a rectified layer of the state entering the round. -/
theorem messages_3 (x0 : (⟨S50000x64, .f32⟩ : BufTy).Contents (Elt Ideal)) (x1 : (⟨S2x800000, .i32⟩ : BufTy).Contents (Elt Ideal)) (x4 : (⟨S64x128, .f32⟩ : BufTy).Contents (Elt Ideal)) (x5 : (⟨S128, .f32⟩ : BufTy).Contents (Elt Ideal)) (x6 : (⟨S4x128x128, .f32⟩ : BufTy).Contents (Elt Ideal)) (x7 : (⟨S4x128, .f32⟩ : BufTy).Contents (Elt Ideal)) (x8 : (⟨S4x128x128, .f32⟩ : BufTy).Contents (Elt Ideal)) (x9 : (⟨S4x128, .f32⟩ : BufTy).Contents (Elt Ideal)) :
    val_main_v108 (F := Ideal) x0 x1 x4 x5 x6 x7 x8 x9 = rectified (val_main_v99 (F := Ideal) x0 x1 x4 x5 x6 x7 x8 x9) (slab x6 3) (row x7 3) := by
  unfold val_main_v108 val_main_v107 val_main_v106 val_main_v105 val_main_v104 val_main_v103 val_main_v102 val_main_v101 val_main_v100 val_main_call7_v0 val_main_call7_cst
  exact host_rectified dot_S50000x128_S128x128_S50000x128_1_0_0_1_n_n rfl none (val_main_v99 (F := Ideal) x0 x1 x4 x5 x6 x7 x8 x9) (slab x6 3) (row x7 3) _ _ _

/-- The fourth round's aggregation: the same look-up of rows and add-into as `aggregate`. -/
theorem aggregated_3 (x0 : (⟨S50000x64, .f32⟩ : BufTy).Contents (Elt Ideal)) (x1 : (⟨S2x800000, .i32⟩ : BufTy).Contents (Elt Ideal)) (x4 : (⟨S64x128, .f32⟩ : BufTy).Contents (Elt Ideal)) (x5 : (⟨S128, .f32⟩ : BufTy).Contents (Elt Ideal)) (x6 : (⟨S4x128x128, .f32⟩ : BufTy).Contents (Elt Ideal)) (x7 : (⟨S4x128, .f32⟩ : BufTy).Contents (Elt Ideal)) (x8 : (⟨S4x128x128, .f32⟩ : BufTy).Contents (Elt Ideal)) (x9 : (⟨S4x128, .f32⟩ : BufTy).Contents (Elt Ideal)) :
    val_main_v118 (F := Ideal) x0 x1 x4 x5 x6 x7 x8 x9 = aggregate x1 (val_main_v108 (F := Ideal) x0 x1 x4 x5 x6 x7 x8 x9) := by
  unfold val_main_v118 val_main_v117 val_main_v116 val_main_v115 val_main_v114 val_main_v113 val_main_v112 val_main_v111 val_main_v110 val_main_v109 val_main_c_7 val_main_c_8 val_main_cst_9 val_main_v7 val_main_v6 val_main_v5 val_main_v4
  rfl

/-- The state leaving the fourth round. -/
theorem state_3 (x0 : (⟨S50000x64, .f32⟩ : BufTy).Contents (Elt Ideal)) (x1 : (⟨S2x800000, .i32⟩ : BufTy).Contents (Elt Ideal)) (x4 : (⟨S64x128, .f32⟩ : BufTy).Contents (Elt Ideal)) (x5 : (⟨S128, .f32⟩ : BufTy).Contents (Elt Ideal)) (x6 : (⟨S4x128x128, .f32⟩ : BufTy).Contents (Elt Ideal)) (x7 : (⟨S4x128, .f32⟩ : BufTy).Contents (Elt Ideal)) (x8 : (⟨S4x128x128, .f32⟩ : BufTy).Contents (Elt Ideal)) (x9 : (⟨S4x128, .f32⟩ : BufTy).Contents (Elt Ideal)) :
    val_main_v128 (F := Ideal) x0 x1 x4 x5 x6 x7 x8 x9 = round (aggregate x1) (val_main_v99 (F := Ideal) x0 x1 x4 x5 x6 x7 x8 x9) (slab x6 3) (row x7 3) (slab x8 3) (row x9 3) := by
  unfold val_main_v128 val_main_v127 val_main_v126 val_main_v125 val_main_v124 val_main_v123 val_main_v122 val_main_v121 val_main_v120 val_main_v119 val_main_call8_v0 val_main_call8_cst
  rw [aggregated_3 x0 x1 x4 x5 x6 x7 x8 x9, messages_3 x0 x1 x4 x5 x6 x7 x8 x9]
  exact host_residual dot_S50000x128_S128x128_S50000x128_1_0_0_1_n_n rfl none (val_main_v99 (F := Ideal) x0 x1 x4 x5 x6 x7 x8 x9) _ (slab x8 3) (row x9 3) _ _ _

/-! ## The node logits -/

/-- The reference's node logits are the decoder's node logits of its arguments. -/
theorem nodes_reference (x0 : (⟨S50000x64, .f32⟩ : BufTy).Contents (Elt Ideal)) (x1 : (⟨S2x800000, .i32⟩ : BufTy).Contents (Elt Ideal)) (x4 : (⟨S64x128, .f32⟩ : BufTy).Contents (Elt Ideal)) (x5 : (⟨S128, .f32⟩ : BufTy).Contents (Elt Ideal)) (x6 : (⟨S4x128x128, .f32⟩ : BufTy).Contents (Elt Ideal)) (x7 : (⟨S4x128, .f32⟩ : BufTy).Contents (Elt Ideal)) (x8 : (⟨S4x128x128, .f32⟩ : BufTy).Contents (Elt Ideal)) (x9 : (⟨S4x128, .f32⟩ : BufTy).Contents (Elt Ideal)) (x10 : (⟨S128x7, .f32⟩ : BufTy).Contents (Elt Ideal)) (x11 : (⟨S7, .f32⟩ : BufTy).Contents (Elt Ideal)) :
    val_main_v132 (F := Ideal) x0 x1 x4 x5 x6 x7 x8 x9 x10 x11 = decoderNodes x0 x1 x4 x5 x6 x7 x8 x9 x10 x11 := by
  unfold val_main_v132 val_main_v131 val_main_v130 val_main_v129
  rw [state_3 x0 x1 x4 x5 x6 x7 x8 x9, state_2 x0 x1 x4 x5 x6 x7 x8 x9, state_1 x0 x1 x4 x5 x6 x7 x8 x9, state_0 x0 x1 x4 x5 x6 x7 x8 x9, input_layer x0 x4 x5]
  unfold decoderNodes nodeLogits
  exact host_readout dot_S50000x128_S128x7_S50000x7_1_0_0_1_n_n rfl none _ x10 x11 _ _

end Cert.Decoder

end
-- ==== Proof.ReferenceValue.lean ====
/-
  The reference program's run, read at the specification.

  Every execution of the reference program terminates; its first result holds the decoder's edge logits of the stack
  of latent tables and the bias it was launched with, its second result the decoder's node logits of the latent
  table, the edge list and the layers' weights and biases it was launched with, and its twelve arguments are as
  launched. The run ends with each result at the composition of the program's operations applied to the arguments;
  that composition is, for the first result, the inner products of rows plus the bias, and for the second the input
  layer, the four rounds of message passing and the read-out.
-/
import proofs.«102918_j30047591203218_2_alg».proof.Proof.Gen.ReferenceIdeal.Run
import proofs.«102918_j30047591203218_2_alg».proof.Proof.Gen.ReferenceIdeal.Read
import proofs.«102918_j30047591203218_2_alg».proof.Proof.DecoderHost
import proofs.«102918_j30047591203218_2_alg».proof.Proof.EdgeReference
import proofs.«102918_j30047591203218_2_alg».proof.Proof.RefNodes

noncomputable section

namespace Cert.Decoder.Reference

open Idealize.ShloMosaic Idealize.ShloMosaic.TcCoe Idealize.SL.Sem Cert.Decoder

/-- Every execution of the reference program terminates, the two results at the decoder's edge logits and node
    logits of the launch arguments, the arguments unchanged. -/
theorem run (m' : (ℓ : Loc Cert.ReferenceIdeal.nD Cert.ReferenceIdeal.τ Cert.ReferenceIdeal.sig) → Buf (Elt Ideal) ℓ) (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩
      (fun r => ∀ c : Dev Cert.ReferenceIdeal.nD,
        r.2.mem ((c.tc : Thread Cert.ReferenceIdeal.nD Cert.ReferenceIdeal.τ).loc Cert.ReferenceIdeal.main_v3)
          = decoderEdges (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_v132)
          = decoderNodes (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1))
              (m' ((c.tc : Thread Cert.ReferenceIdeal.nD Cert.ReferenceIdeal.τ).loc Cert.ReferenceIdeal.main_arg4))
              (m' ((c.tc : Thread Cert.ReferenceIdeal.nD Cert.ReferenceIdeal.τ).loc Cert.ReferenceIdeal.main_arg5))
              (m' ((c.tc : Thread Cert.ReferenceIdeal.nD Cert.ReferenceIdeal.τ).loc Cert.ReferenceIdeal.main_arg6))
              (m' ((c.tc : Thread Cert.ReferenceIdeal.nD Cert.ReferenceIdeal.τ).loc Cert.ReferenceIdeal.main_arg7))
              (m' ((c.tc : Thread Cert.ReferenceIdeal.nD Cert.ReferenceIdeal.τ).loc Cert.ReferenceIdeal.main_arg8))
              (m' ((c.tc : Thread Cert.ReferenceIdeal.nD Cert.ReferenceIdeal.τ).loc Cert.ReferenceIdeal.main_arg9))
              (m' ((c.tc : Thread Cert.ReferenceIdeal.nD Cert.ReferenceIdeal.τ).loc Cert.ReferenceIdeal.main_arg10))
              (m' ((c.tc : Thread Cert.ReferenceIdeal.nD Cert.ReferenceIdeal.τ).loc Cert.ReferenceIdeal.main_arg11))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
        ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
        ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)) :=
  (θ_run (Cert.ReferenceIdeal.defs (F := Ideal)) _ _).mono
    (fun _ h c => ⟨(h c).1.trans ((Cert.ReferenceIdeal.Read.val_main_v3_eq (F := Ideal) _ _).trans (edge_reference _ _)),
      (h c).2.1.trans ((Cert.ReferenceIdeal.Read.val_main_v132_eq (F := Ideal) m' c).trans (nodes_reference _ _ _ _ _ _ _ _ _ _)),
      (h c).2.2⟩)
    (Cert.ReferenceIdeal.Value.run (F := Ideal) m' ρ')

end Cert.Decoder.Reference

end
-- ==== Proof.lean ====
/-
  A graph decoder: a kernel program of six launches against a plain array program.

  Both programs compute two results from twelve argument arrays. The edge logits of 32 graphs: for each graph the
  table of inner products of the rows of its 512 × 64 latent table, plus one bias. The node logits of 50000 nodes:
  a rectified input layer; four rounds in which a rectified message layer of the state is summed along the 800000
  edges into each edge's target node and a rectified update layer of the sums is added back onto the state; and an
  affine read-out to 7 classes.

  The kernel program tiles the node tables into ten blocks of 5000 rows, fuses each round's update layer with the
  next round's message layer into one launch, keeps the messages in a shorter float format, and pads the read-out's
  7 columns to 128 with zeros and cuts them off afterwards. Over the extended reals none of that changes a value: a
  change of float format is the identity, a dense layer's entry reads one row of its input so a block of rows is the
  layer of that block of rows, the padded columns are never read by the 7 that are kept, and the aggregation along the
  edges is the same array operations applied to the same message table. So both programs end at the same two functions
  of the arguments (DecoderSpec / DecoderHost: decoderEdges, decoderNodes), entry by entry; no law of arithmetic beyond
  that is used, and the arguments' finiteness is never needed.

  The three frames are the generated ones (the reference's is its generated run with the results dropped), and the
  idealization rewrote nothing, so it is preserved trivially.
-/
import proofs.«102918_j30047591203218_2_alg».proof.Defs
import proofs.«102918_j30047591203218_2_alg».proof.Proof.Gen.Kernel
import proofs.«102918_j30047591203218_2_alg».proof.Proof.Gen.Kernel.Skeleton
import proofs.«102918_j30047591203218_2_alg».proof.Proof.Gen.Kernel.Launch
import proofs.«102918_j30047591203218_2_alg».proof.Proof.Gen.Kernel.Points
import proofs.«102918_j30047591203218_2_alg».proof.Proof.Gen.Kernel.Frame
import proofs.«102918_j30047591203218_2_alg».proof.Proof.Gen.KernelIdeal
import proofs.«102918_j30047591203218_2_alg».proof.Proof.Gen.KernelIdeal.Skeleton
import proofs.«102918_j30047591203218_2_alg».proof.Proof.Gen.KernelIdeal.Launch
import proofs.«102918_j30047591203218_2_alg».proof.Proof.Gen.KernelIdeal.Points
import proofs.«102918_j30047591203218_2_alg».proof.Proof.Gen.KernelIdeal.Frame
import proofs.«102918_j30047591203218_2_alg».proof.Proof.Gen.ReferenceIdeal
import proofs.«102918_j30047591203218_2_alg».proof.Proof.Gen.Pre_finite_inputs
import proofs.«102918_j30047591203218_2_alg».proof.Proof.Gen.ReferenceIdeal.Run
import proofs.«102918_j30047591203218_2_alg».proof.Proof.Gen.ReferenceIdeal.Read
import proofs.«102918_j30047591203218_2_alg».proof.Proof.KernelRun
import proofs.«102918_j30047591203218_2_alg».proof.Proof.KernelValue
import proofs.«102918_j30047591203218_2_alg».proof.Proof.ReferenceValue
import Idealize.ShloMosaic.Adequacy
import Idealize.ShloMosaic.Init

noncomputable section

namespace Cert.Proof

open Idealize.ShloMosaic Idealize.ShloMosaic.TcCoe Idealize.SL.Sem Cert.Decoder

namespace Claims

theorem frame_k : Cert.frame_Kernel := fun m ρ _ => Cert.Kernel.Gen.frame m ρ

theorem frame_ki : Cert.frame_KernelIdeal :=
  fun m ρ _ => Cert.KernelIdeal.Gen.frame m ρ

/-- The reference runs and keeps its arguments: its run at the specification with the two results dropped. -/
theorem frame_ri : Cert.frame_ReferenceIdeal := fun m ρ _ =>
  (θ_run Cert.ReferenceIdeal.defs _ _).mono (fun _ h c => (h c).2.2) (Cert.Decoder.Reference.run m ρ)

/-- Both idealized programs end with the edge logits and the node logits of the arguments. -/
theorem algebraic : Cert.algebraic_KernelIdeal_ReferenceIdeal := by
  intro m ρ m' ρ' _ hagree
  refine ⟨fun c => decoderEdges (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => decoderNodes (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    ?_, ?_⟩
  · exact (θ_run Cert.KernelIdeal.defs _ _).mono
      (fun r h c => ⟨(h c).1.trans (Cert.Decoder.Value.edges m ρ c), (h c).2.1.trans (Cert.Decoder.Value.nodes m ρ c), (h c).2.2⟩)
      (Cert.KernelIdeal.Named.run_named m ρ)
  · refine (θ_run Cert.ReferenceIdeal.defs _ _).mono (fun r h c => ?_) (Cert.Decoder.Reference.run m' ρ')
    obtain ⟨a0, a1, a2, a3, a4, a5, a6, a7, a8, a9, a10, a11⟩ := hagree c
    refine ⟨(h c).1.trans ?_, (h c).2.1.trans ?_, (h c).2.2⟩
    · rw [a2, a3]
    · rw [a0, a1, a4, a5, a6, a7, a8, a9, a10, a11]

end Claims

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, trivial, Claims.algebraic⟩

end Cert.Proof

end
